-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S4096x2048 .f32) (main_arg1 : FVec F S2048x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S4096x2048 : Shape := ⟨2, ![4096, 2048]⟩
abbrev S2048x2048 : Shape := ⟨2, ![2048, 2048]⟩
abbrev S1x1 : Shape := ⟨2, ![1, 1]⟩
abbrev S256x256 : Shape := ⟨2, ![256, 256]⟩
abbrev S1x256x256 : Shape := ⟨3, ![1, 256, 256]⟩
abbrev S1 : Shape := ⟨1, ![1]⟩
abbrev S1x1x1 : Shape := ⟨3, ![1, 1, 1]⟩
abbrev S_ : Shape := ⟨0, ![]⟩
abbrev S4096x1 : Shape := ⟨2, ![4096, 1]⟩
abbrev S512x2048 : Shape := ⟨2, ![512, 2048]⟩
abbrev S512x1 : Shape := ⟨2, ![512, 1]⟩
abbrev S512 : Shape := ⟨1, ![512]⟩
abbrev S4096 : Shape := ⟨1, ![4096]⟩

abbrev nBuf : Space → Nat
  | .hbm => 15
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .bf16⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4096x1, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .bf16⟩
  | .local _ .vmem, ⟨5, _⟩ => ⟨S256x256, .bf16⟩
  | .local _ .vmem, ⟨6, _⟩ => ⟨S1x1, .f32⟩
  | .local _ .vmem, ⟨7, _⟩ => ⟨S1x1, .f32⟩
  | .local _ .vmem, ⟨8, _⟩ => ⟨S512x2048, .f32⟩
  | .local _ .vmem, ⟨9, _⟩ => ⟨S512x2048, .f32⟩
  | .local _ .vmem, ⟨10, _⟩ => ⟨S2048x2048, .bf16⟩
  | .local _ .vmem, ⟨11, _⟩ => ⟨S512x1, .f32⟩
  | .local _ .vmem, ⟨12, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v40 : BitVec 1 := Scalar.cmpi .eq arg0 c7_i32
  let arg1 : BitVec 32 := BitVec.ofNat 32 (i 1).val
  let c7_i32_15 : BitVec 32 := 7#32
  let v41 : BitVec 1 := Scalar.cmpi .eq arg1 c7_i32_15
  let v42 : BitVec 1 := Scalar.andi v40 v41
  let v43 : BitVec 32 := Scalar.extui v42
  let c0_i32_16 : BitVec 32 := 0#32
  let v44 : BitVec 1 := Scalar.cmpi .ne v43 c0_i32_16
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  iota_S256x256_d0_w32 : S256x256.Iotas .tc 32 [0]
  iota_S256x256_d1_w32 : S256x256.Iotas .tc 32 [1]
  natLt_1_32 : 1 < 32
  bitsLt_bf16_f32 : FTy.bits .bf16 < FTy.bits .f32
  packedbf16_S256x256_S256x256_0_0 : (Rect.unit (s := S256x256) ![0, 0] S256x256.size inb_S256x256_S256x256_0_0).PackedRows (EltTy.packing .bf16)
  shapeCasts_S256x256_S1x256x256 : S256x256.ShapeCasts S1x256x256
  reduces_S1x256x256_S1 : S1x256x256.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  reduces_S512x2048_S512 : S512x2048.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S4096x1_S4096 : S4096x1.ShapeCasts S4096
  bcast_S_S4096 : S_.BroadcastsInDim S4096 (![] : Fin 0 → Fin S4096.rank)
  reducesTo_S4096_S_d0 : S4096.ReducesTo [0] S_
  h_S_ : 0 < S_.numel
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S2048x2048.size a
  hwx0_0 : ∀ i : grid0.Coords, EltTy.bits .f32 = 32 ∨ (Rect.block (s := S2048x2048) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S2048x2048.size a
  hwx0_1 : ∀ i : grid0.Coords, EltTy.bits .f32 = 32 ∨ (Rect.block (s := S2048x2048) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S2048x2048.size a
  hwx0_2 : ∀ i : grid0.Coords, EltTy.bits .bf16 = 32 ∨ (Rect.block (s := S2048x2048) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .f32 = 32 ∨ (Rect.block (s := S4096x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg1) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S256x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S_ : Shape := ⟨0, ![]⟩
abbrev S4096 : Shape := ⟨1, ![4096]⟩

abbrev nBuf : Space → Nat
  | .hbm => 42
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .i1⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .i32⟩
  | .hbm, ⟨9, _⟩ => ⟨S2048x2048, .i32⟩
  | .hbm, ⟨10, _⟩ => ⟨S_, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_cst : Ref sig .tc := ⟨.hbm, 25, rfl⟩
abbrev main_call0_v5 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  transposes_S2048x2048_S2048x2048_1_0 : S2048x2048.Transposes [1, 0] S2048x2048
  reducesTo_S2048x2048_S_d0_1 : S2048x2048.ReducesTo [0, 1] S_
  h_S_ : 0 < S_.numel
  reducesTo_S4096x2048_S4096_d1 : S4096x2048.ReducesTo [1] S4096
  bcast_S_S4096 : S_.BroadcastsInDim S4096 (![] : Fin 0 → Fin S4096.rank)
  reducesTo_S4096_S_d0 : S4096.ReducesTo [0] S_
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.K.Run.lean ====
/-
  The run of the two-region program from the launch to the return, for ANY proof data of its two pipelines that
  has the shape the kernels' own halves provide: every buffer's contents at each boundary between the program's
  four items (region, three host lines, region, seven host lines) as a fold from the launch memory; each region
  entered from "every unscoped buffer at the boundary's contents, the generator register at some state, nothing
  owed" and left at the next boundary's. Region 0 reads ONE array through two input windows: on entry that array's
  buffer is split into two half shares, one per window, and on exit — both windows ending at the contents they
  were entered with — the halves are joined again. The conclusion names the result buffer at the last fold and
  says the two argument arrays end as launched.
-/
import proofs.«157913_j57896159150306_2_alg».proof.Proof.Gen.Kernel.Launch
import proofs.«157913_j57896159150306_2_alg».proof.Proof.Gen.Kernel.Regions
import proofs.«157913_j57896159150306_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A core's buffer contents read at the TensorCore's references. -/
abbrev Vals (F : FTy → Type) [FloatOps F] : Type := (c : Dev nD) → (b : Ref sig .tc) → Buf (Elt F) ((c : Thread nD τ).loc b)

variable (m : (ℓ : Loc nD τ sig) → Buf (Elt F) ℓ) (ρ : Dev nD → PrngReg)
variable (dat0 : Vals F → (c : Dev nD) → Dat τ (Elt F) Unit ℕ (Pipeline.UD sig nD τ) ℕ cfg0 c)
variable (dat1 : Vals F → (c : Dev nD) → Dat τ (Elt F) Unit ℕ (Pipeline.UD sig nD τ) ℕ cfg1 c)

/-! ## The buffer contents at each boundary -/

/-- At launch. -/
abbrev W0 : Dev nD → Valuation τ sig (Elt F) := fun c b => m ((c : Dev nD), b)
abbrev V0 : Vals F := fun c b => W0 m c b
/-- After region 0: its two output arrays at what the write-backs leave, everything else as launched. -/
def W1 (c : Dev nD) : Valuation τ sig (Elt F) :=
  Function.update (Function.update (W0 m c) main_v0_0 ((dat0 (V0 m) c).arrAt 2 cfg0.N)) main_v0_1 ((dat0 (V0 m) c).arrAt 3 cfg0.N)
abbrev V1 : Vals F := fun c b => W1 m dat0 c b
/-- After the three host lines. -/
def W2 (c : Dev nD) : Valuation τ sig (Elt F) := StableHlo.after hostOps1 (W1 m dat0 c)
abbrev V2 : Vals F := fun c b => W2 m dat0 c b
/-- After region 1: its output array at what the write-backs leave. -/
def W3 (c : Dev nD) : Valuation τ sig (Elt F) :=
  Function.update (W2 m dat0 c) main_v3 ((dat1 (V2 m dat0) c).arrAt 2 cfg1.N)
abbrev V3 : Vals F := fun c b => W3 m dat0 dat1 c b
/-- After the seven host lines: the return. -/
def W4 (c : Dev nD) : Valuation τ sig (Elt F) := StableHlo.after hostOps2 (W3 m dat0 dat1 c)

/-! ## What the kernels' halves provide -/

/-- Region 1's proof data: the arrays as the region finds them, the class-A invariant, full shares, nothing owed. -/
structure Has1 : Prop where
  A : ∀ (V : Vals F) c w, (dat1 V c).A w = V c (Pipeline.arrRef spec1 w)
  Φ : ∀ (V : Vals F) c t, (dat1 V c).Φ t = Pipeline.ΦA spec1 c
  q : ∀ (V : Vals F) c w, (dat1 V c).q w = fullShare
  owed : ∀ (V : Vals F) c t, (dat1 V c).owed t = 0
  recorded : ∀ (V : Vals F) c t, (dat1 V c).recorded t = Set.univ
  body : ∀ (V : Vals F) c, BodyObligation (dat1 V c) (defs₀ (F := F)) Variants.none () Set.univ

/-- Region 0's proof data: the arrays as the region finds them, the two windows on the shared array at half shares,
    nothing owed, an invariant made at entry from the generator register and the scoped buffers no window stages
    and giving them back at exit. -/
structure Has0 : Prop where
  A : ∀ (V : Vals F) c w, (dat0 V c).A w = V c (Pipeline.arrRef spec0 w)
  q0 : ∀ (V : Vals F) c, (dat0 V c).q 0 = fullShare.left
  q1 : ∀ (V : Vals F) c, (dat0 V c).q 1 = fullShare.right
  owed : ∀ (V : Vals F) c t, (dat0 V c).owed t = 0
  recorded : ∀ (V : Vals F) c t, (dat0 V c).recorded t = Set.univ
  body : ∀ (V : Vals F) c, BodyObligation (dat0 V c) (defs₀ (F := F)) Variants.none () Set.univ
  hin : ∀ (V : Vals F) c, iprop((∃ r, prngReg c r) ∗ Pipeline.scopedRest (Ix := Unit) (Name := ℕ) (U := Pipeline.UD sig nD τ) (Lvl := ℕ) (Val := Elt F) spec0 c) ⊢ (dat0 V c).Φ 0
  hout : ∀ (V : Vals F) c, (dat0 V c).Φ (Fin.last cfg0.N) ⊢ (iprop((∃ r, prngReg c r) ∗ Pipeline.scopedRest (Ix := Unit) (Name := ℕ) (U := Pipeline.UD sig nD τ) (Lvl := ℕ) (Val := Elt F) spec0 c) : sProp 𝕄)

variable (h0 : Has0 dat0) (h1 : Has1 dat1)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (V0 m) c
  | ⟨1, _⟩ => fun c => dat1 (V2 m dat0) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
/-- A line of host operations as an item, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 1 as an item -/

include h1 in
theorem W3_arr (c : Dev nD) : ∀ w : Fin cfg1.W,
    (dat1 (V2 m dat0) c).arrAt w cfg1.N = V3 m dat0 dat1 c (Pipeline.arrRef spec1 w)
  | ⟨0, _⟩ => ((dat1 (V2 m dat0) c).arrAt_in 0 rfl _).trans ((h1.A _ c 0).trans
      (by unfold V3 W3; exact (Function.update_of_ne (StableHlo.devRef_ne_of_ne (by decide : main_arg0 ≠ main_v3)) ..).symm))
  | ⟨1, _⟩ => ((dat1 (V2 m dat0) c).arrAt_in 1 rfl _).trans ((h1.A _ c 1).trans
      (by unfold V3 W3; exact (Function.update_of_ne (StableHlo.devRef_ne_of_ne (by decide : main_v0_0 ≠ main_v3)) ..).symm))
  | ⟨2, _⟩ => by unfold V3 W3; exact (Function.update_self (Proc.devRef (τ := τ) .tc main_v3) _ (W2 m dat0 c)).symm

theorem W3_rest (c : Dev nD) : ∀ b, b ∉ Finset.univ.image (Pipeline.arrRef spec1) → V3 m dat0 dat1 c b = V2 m dat0 c b :=
  fun b hb => by
    have hne : b ≠ main_v3 := fun e => hb (Finset.mem_image.mpr ⟨2, Finset.mem_univ _, e.symm⟩)
    unfold V3 V2 W3; exact Function.update_of_ne (StableHlo.devRef_ne_of_ne hne) ..

set_option backward.isDefEq.respectTransparency.types false in
/-- REGION 1 over the thread state: entered from every unscoped buffer at W2, left at W3. Its three arrays (distinct
    buffers) are split out of the unscoped buffers and put back at the exit contents; the generator register goes
    into the invariant and comes back; nothing owed; no semaphore of the kernel's own. -/
def reg1 : Pipeline.RegionSeg (pcfgs (F := F)) adm (pdats m dat0 dat1) () defs₀ 𝒱₀ L lv 1 where
  win := launch1.win.to₀
  block_pos := launch1.block_pos
  stage_whole := launch1.stage_whole
  K := PEmpty
  osem k := k.elim
  ho := Pipeline.OwnSemFacts.none _
  hbody c := (h1.body (V2 m dat0) c).loose
  hwaits := Pipeline.hwaits_of_owed_zero _ _ _ _ L lv 1 fun c t => h1.owed _ c t
  pre c := iprop(StableHlo.held (c : Thread nD τ) (Pipeline.ucRefs τ sig) (W2 m dat0 c) ∗ R c)
  post c := iprop(StableHlo.held (c : Thread nD τ) (Pipeline.ucRefs τ sig) (W3 m dat0 dat1 c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m dat0 c)
  hentry c := by
    rw [Pipeline.ownSems0_none]
    have hsplit := Pipeline.arrays_of_unscopedBufs (p := 1) (pcfgs (F := F)) adm (pdats m dat0 dat1) launch1.win launch1.arr_whole c
      ((pdats m dat0 dat1 1 c).share_full fun w => h1.q _ c w) (V2 m dat0 c) fun w => h1.A _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m dat0 dat1 1 c).owed 0 = 0 from h1.owed _ c 0]
      icases HO with ⟨%W, HO⟩; iexists W; isplitr; · ipureintro; exact fun _ _ => Or.inl (by rw [show (pdats m dat0 dat1 1 c).recorded 0 = Set.univ from h1.recorded _ c 0]; exact Set.mem_univ _)
      iexact HO
    isplitl [Hp]; · iexact Hp
    iexact Hrest
  hin c := by
    rw [show (pdats m dat0 dat1 1 c).Φ 0 = Pipeline.ΦA spec1 c from h1.Φ _ c 0]; unfold Pipeline.ΦA
    iintro ⟨Hp, -, Hr⟩
    isplitl [Hr]; · iexact Hr
    iexact Hp
  hout c := by
    rw [Pipeline.ownSems0_none, show (pdats m dat0 dat1 1 c).Φ (Fin.last _) = Pipeline.ΦA spec1 c from h1.Φ _ c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m dat0 dat1) ((pdats m dat0 dat1 1 c).share_full fun w => h1.q _ c w)
      (V2 m dat0 c) (V3 m dat0 dat1 c) ((pdats m dat0 dat1 1 c).arrAt · cfg1.N) (W3_arr m dat0 dat1 h1 c) (W3_rest m dat0 dat1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m dat0 dat1 1 c).owed (Fin.last _) = 0 from h1.owed _ c _]
    icases HO with ⟨%W, -, HO⟩; iexists W; iexact HO

/-! ## Region 0 as an item: one array behind two input windows -/

include h0 in
theorem share0_0 (V : Vals F) (c : Dev nD) : (dat0 V c).share 0 = fullShare.left := by
  unfold Dat.share; rw [show (cfg0.win 0).isOut = false from rfl, if_neg Bool.false_ne_true]; exact h0.q0 V c
include h0 in
theorem share0_1 (V : Vals F) (c : Dev nD) : (dat0 V c).share 1 = fullShare.right := by
  unfold Dat.share; rw [show (cfg0.win 1).isOut = false from rfl, if_neg Bool.false_ne_true]; exact h0.q1 V c
theorem share0_2 (V : Vals F) (c : Dev nD) : (dat0 V c).share 2 = fullShare := by
  unfold Dat.share; rw [show (cfg0.win 2).isOut = true from rfl, if_pos rfl]
theorem share0_3 (V : Vals F) (c : Dev nD) : (dat0 V c).share 3 = fullShare := by
  unfold Dat.share; rw [show (cfg0.win 3).isOut = true from rfl, if_pos rfl]

include h0 in
/-- The proof data's arrays, window by window: the shared array at its two half shares, each output array outright. -/
theorem arrays0_eq (V : Vals F) (c : Dev nD) (Fa : (w : Fin cfg0.W) → Buf (Elt F) ((cfg0.win w).arr.view.loc (c : Thread nD τ))) :
    ((dat0 V c).arrays Fa : sProp 𝕄)
      = iprop((((c : Thread nD τ).loc main_arg1) ↦{fullShare.left} Fa 0) ∗ (((c : Thread nD τ).loc main_arg1) ↦{fullShare.right} Fa 1)
          ∗ (((c : Thread nD τ).loc main_v0_0) ↦{fullShare} Fa 2) ∗ (((c : Thread nD τ).loc main_v0_1) ↦{fullShare} Fa 3)) := by
  unfold Dat.arrays
  rw [bigSep_W0, (arr_whole0 0).set_eq_univ, (arr_whole0 2).set_eq_univ, (arr_whole0 3).set_eq_univ,
    share0_0 dat0 h0, share0_1 dat0 h0, share0_2, share0_3]

/-- The distinct buffers behind region 0's arrays, listed. -/
theorem arrBufs0_eq (c : Dev nD) (V : (b : Ref sig .tc) → Buf (Elt F) ((c : Thread nD τ).loc b)) :
    (Pipeline.arrBufs (Ix := Unit) (Name := ℕ) (U := Pipeline.UD sig nD τ) (Lvl := ℕ) spec0 c V : sProp 𝕄)
      = iprop((((c : Thread nD τ).loc main_arg1) ↦{fullShare} V main_arg1) ∗ (((c : Thread nD τ).loc main_v0_0) ↦{fullShare} V main_v0_0)
          ∗ (((c : Thread nD τ).loc main_v0_1) ↦{fullShare} V main_v0_1)) := by
  unfold Pipeline.arrBufs
  rw [BI.bigSep_eq_bigSepL_of_eq [main_arg1, main_v0_0, main_v0_1] (by decide) (by decide)]; rfl

include h0 in
theorem arrAt0_in0 (V : Vals F) (c : Dev nD) (n : Nat) : (dat0 V c).arrAt 0 n = V c main_arg1 :=
  ((dat0 V c).arrAt_in 0 rfl n).trans (h0.A V c 0)
include h0 in
theorem arrAt0_in1 (V : Vals F) (c : Dev nD) (n : Nat) : (dat0 V c).arrAt 1 n = V c main_arg1 :=
  ((dat0 V c).arrAt_in 1 rfl n).trans (h0.A V c 1)

theorem W1_v0_0 (c : Dev nD) : V1 m dat0 c main_v0_0 = (dat0 (V0 m) c).arrAt 2 cfg0.N := by
  unfold V1 W1
  rw [Function.update_of_ne (StableHlo.devRef_ne_of_ne (by decide : main_v0_0 ≠ main_v0_1))]
  exact Function.update_self (Proc.devRef (τ := τ) .tc main_v0_0) _ (W0 m c)
theorem W1_v0_1 (c : Dev nD) : V1 m dat0 c main_v0_1 = (dat0 (V0 m) c).arrAt 3 cfg0.N := by
  unfold V1 W1
  exact Function.update_self (Proc.devRef (τ := τ) .tc main_v0_1) _ _
theorem W1_of_ne (c : Dev nD) (b : Ref sig .tc) (h2 : b ≠ main_v0_0) (h3 : b ≠ main_v0_1) : V1 m dat0 c b = V0 m c b := by
  unfold V1 W1
  rw [Function.update_of_ne (StableHlo.devRef_ne_of_ne h3), Function.update_of_ne (StableHlo.devRef_ne_of_ne h2)]

set_option backward.isDefEq.respectTransparency.types false in
/-- REGION 0 over the thread state: entered from every unscoped buffer at the launch contents, left with its two
    output arrays at what the write-backs leave. The matrix both input windows read is one buffer: its full share is
    split into the two halves the windows hold, and joined again at the exit, where both windows still hold the
    contents they were entered with. -/
def reg0 : Pipeline.RegionSeg (pcfgs (F := F)) adm (pdats m dat0 dat1) () defs₀ 𝒱₀ L lv 0 where
  win := winFacts₀0
  block_pos := block_pos0
  stage_whole := stage_whole0
  K := PEmpty
  osem k := k.elim
  ho := Pipeline.OwnSemFacts.none _
  hbody c := (h0.body (V0 m) c).loose
  hwaits := Pipeline.hwaits_of_owed_zero _ _ _ _ L lv 0 fun c t => h0.owed _ c t
  pre c := iprop(StableHlo.held (c : Thread nD τ) (Pipeline.ucRefs τ sig) (W0 m c) ∗ R c)
  post c := iprop(StableHlo.held (c : Thread nD τ) (Pipeline.ucRefs τ sig) (W1 m dat0 c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m c)
  hentry c := by
    rw [Pipeline.ownSems0_none]
    have hs : (StableHlo.held (c : Thread nD τ) (Pipeline.ucRefs τ sig) (W0 m c) : sProp 𝕄)
        = iprop(Pipeline.arrBufs (Ix := Unit) (Name := ℕ) (U := Pipeline.UD sig nD τ) (Lvl := ℕ) spec0 c (V0 m c) ∗ Pipeline.unscopedRest (Ix := Unit) (Name := ℕ) (U := Pipeline.UD sig nD τ) (Lvl := ℕ) spec0 c (V0 m c)) :=
      (Pipeline.unscopedBufs_held c (W0 m c)).symm.trans
        (Pipeline.unscopedBufs_split₀ (Ix := Unit) (Name := ℕ) (U := Pipeline.UD sig nD τ) (Lvl := ℕ) (Val := Elt F) cfgs 0 winFacts₀0.arr_unscoped c (V0 m c))
    rw [arrBufs0_eq] at hs
    have ha := arrays0_eq dat0 h0 (V0 m) c (fun w => (dat0 (V0 m) c).arrAt w 0)
    beta_reduce at ha
    rw [arrAt0_in0 dat0 h0, arrAt0_in1 dat0 h0, show (dat0 (V0 m) c).arrAt 2 0 = V0 m c main_v0_0 from h0.A _ c 2,
      show (dat0 (V0 m) c).arrAt 3 0 = V0 m c main_v0_1 from h0.A _ c 3] at ha
    iintro ⟨⟨Hub, Hp, HO⟩, -, -⟩
    ihave H := (Entails.of_eq hs) $$ Hub
    icases H with ⟨⟨H1, H2, H3⟩, Hrest⟩
    ihave H1' := (pointsTo_share (PosShare.mem_left_op_right fullShare)).1 $$ H1
    icases H1' with ⟨H1l, H1r⟩
    imodintro
    isplitl [H1l H1r H2 H3]
    · iapply (Entails.of_eq ha.symm)
      isplitl [H1l]; · iexact H1l
      isplitl [H1r]; · iexact H1r
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      rw [show (pdats m dat0 dat1 0 c).owed 0 = 0 from h0.owed _ c 0]
      icases HO with ⟨%W, HO⟩; iexists W; isplitr
      · ipureintro; exact fun _ _ => Or.inl (by rw [show (pdats m dat0 dat1 0 c).recorded 0 = Set.univ from h0.recorded _ c 0]; exact Set.mem_univ _)
      iexact HO
    isplitl [Hp]; · iexact Hp
    iexact Hrest
  hin c := by
    rw [show (pdats m dat0 dat1 0 c).Φ 0 = (dat0 (V0 m) c).Φ 0 from rfl]
    iintro ⟨Hp, -, Hr⟩
    iapply (h0.hin (V0 m) c)
    isplitl [Hp]; · iexact Hp
    iexact Hr
  hout c := by
    rw [Pipeline.ownSems0_none, show (pdats m dat0 dat1 0 c).Φ (Fin.last _) = (dat0 (V0 m) c).Φ (Fin.last cfg0.N) from rfl]
    iintro H
    ihave H' := (h0.hout (V0 m) c) $$ H
    icases H' with ⟨Hr, Hp⟩
    isplitl [Hr]; · iexact Hr
    isplitr; · iempintro
    iexact Hp
  hexit c := by
    have hs : (StableHlo.held (c : Thread nD τ) (Pipeline.ucRefs τ sig) (W1 m dat0 c) : sProp 𝕄)
        = iprop(Pipeline.arrBufs (Ix := Unit) (Name := ℕ) (U := Pipeline.UD sig nD τ) (Lvl := ℕ) spec0 c (V1 m dat0 c) ∗ Pipeline.unscopedRest (Ix := Unit) (Name := ℕ) (U := Pipeline.UD sig nD τ) (Lvl := ℕ) spec0 c (V1 m dat0 c)) :=
      (Pipeline.unscopedBufs_held c (W1 m dat0 c)).symm.trans
        (Pipeline.unscopedBufs_split₀ (Ix := Unit) (Name := ℕ) (U := Pipeline.UD sig nD τ) (Lvl := ℕ) (Val := Elt F) cfgs 0 winFacts₀0.arr_unscoped c (V1 m dat0 c))
    have hrest : (Pipeline.unscopedRest (Ix := Unit) (Name := ℕ) (U := Pipeline.UD sig nD τ) (Lvl := ℕ) spec0 c (V1 m dat0 c) : sProp 𝕄)
        = Pipeline.unscopedRest (Ix := Unit) (Name := ℕ) (U := Pipeline.UD sig nD τ) (Lvl := ℕ) spec0 c (V0 m c) := by
      unfold Pipeline.unscopedRest
      exact bigSep_congr fun b hb => by
        rw [W1_of_ne m dat0 c b (fun e => (Finset.mem_sdiff.mp hb).2 (Finset.mem_image.mpr ⟨2, Finset.mem_univ _, e.symm⟩))
          (fun e => (Finset.mem_sdiff.mp hb).2 (Finset.mem_image.mpr ⟨3, Finset.mem_univ _, e.symm⟩))]
    rw [arrBufs0_eq, W1_of_ne m dat0 c main_arg1 (by decide) (by decide), W1_v0_0, W1_v0_1, hrest] at hs
    have ha := arrays0_eq dat0 h0 (V0 m) c (fun w => (dat0 (V0 m) c).arrAt w cfg0.N)
    beta_reduce at ha
    rw [arrAt0_in0 dat0 h0, arrAt0_in1 dat0 h0] at ha
    show iprop((dat0 (V0 m) c).arrays (fun w => (dat0 (V0 m) c).arrAt w cfg0.N) ∗ _) ⊢ _
    iintro ⟨Ha, HO, HY, Hrest⟩
    ihave Ha' := (Entails.of_eq ha) $$ Ha
    icases Ha' with ⟨A0, A1, A2, A3⟩
    ihave A01 := (pointsTo_share (PosShare.mem_left_op_right fullShare)).2 $$ [A0 A1]
    · isplitl [A0]; · iexact A0
      iexact A1
    imodintro
    isplitl [A01 A2 A3 Hrest]
    · iapply (Entails.of_eq hs.symm)
      isplitl [A01 A2 A3]
      · isplitl [A01]; · iexact A01
        isplitl [A2]; · iexact A2
        iexact A3
      iexact Hrest
    isplitl [HY]; · iexact HY
    unfold Pipeline.Dat.owesAt Pipeline.owesWithin
    rw [show (pdats m dat0 dat1 0 c).owed (Fin.last _) = 0 from h0.owed _ c _]
    icases HO with ⟨%W, -, HO⟩; iexists W; iexact HO

/-! ## @main as its four items, and the launch -/

/-- @main's four items in order. -/
abbrev segs : List (Pipeline.Seg (pcfgs (F := F)) adm (pdats m dat0 dat1) () defs₀ 𝒱₀ L lv) :=
  [ .region (reg0 m dat0 dat1 h0),
    .host (hseg hostOps1 hostOps1_sub hostOps1_fresh (W1 m dat0)),
    .region (reg1 m dat0 dat1 h1),
    .host (hseg hostOps2 hostOps2_sub hostOps2_fresh (W3 m dat0 dat1)) ]

/-- No item writes an argument: each reaches the end as launched. -/
theorem W4_arg (c : Dev nD) (b : Ref sig .tc) (hb2 : b ∉ hostOps2_W) (hb1 : b ∉ hostOps1_W)
    (h3 : b ≠ main_v3) (h00 : b ≠ main_v0_0) (h01 : b ≠ main_v0_1) :
    W4 m dat0 dat1 c (Proc.devRef .tc b) = m ((c : Thread nD τ).loc b) := by
  unfold W4
  rw [StableHlo.after_of_writes_sub hostOps2 _ hostOps2_writes hb2]
  unfold W3
  rw [Function.update_of_ne (StableHlo.devRef_ne_of_ne h3)]
  unfold W2
  rw [StableHlo.after_of_writes_sub hostOps1 _ hostOps1_writes hb1]
  exact W1_of_ne m dat0 c b h00 h01

include h0 h1 in
set_option backward.isDefEq.respectTransparency.types false in
/-- THE RUN. From any memory with zero counters every weakly fair execution of @main terminates, nothing
    faulting, and in every final state the result buffer holds the last fold's contents and the two argument
    arrays what they held at launch. -/
theorem run_main : θ_run defs (onTc (τ := τ) (main (F := F))) ⟨m, fun _ => 0, ρ⟩ (fun r => ∀ c : Dev nD,
      r.2.mem ((c.tc : Thread nD τ).loc main_v8) = W4 m dat0 dat1 c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_dev (pcfgs (F := F)) adm (pdats m dat0 dat1) () cellOf_inj embL defs₀ 𝒱₀ L lv m ρ main
    (fun _ => segs m dat0 dat1 h0 h1)
    (fun c Q => by
      rewrite [main_chain c, Pipeline.Seg.run_eq_chain,
        show (segs m dat0 dat1 h0 h1).map Pipeline.Seg.prog = [
          Prog.lift (.customCall (Pipeline.entry 0) ()),
          StableHlo.seq hostOps1,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W4 m dat0 dat1 c))
    (hch := fun c => ⟨.rfl, .rfl, .rfl, .rfl, sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m dat0 dat1 c b)
    (hfin := fun c s' => by
      iintro ⟨Hh, HSI⟩
      unfold StableHlo.held
      imodintro
      iapply (pointsTo_read_all (Pipeline.ucRefs τ sig) (fun b => (((c : Thread nD τ)).1, b)) (W4 m dat0 dat1 c) s')
      isplitl [Hh] <;> iassumption)
    (hQ := fun s h c =>
      ⟨h c _ (mem_uc main_v8 (by decide)),
       (h c _ (mem_uc main_arg0 (by decide))).trans (W4_arg m dat0 dat1 c main_arg0 (by decide) (by decide) (by decide) (by decide) (by decide)),
       (h c _ (mem_uc main_arg1 (by decide))).trans (W4_arg m dat0 dat1 c main_arg1 (by decide) (by decide) (by decide) (by decide) (by decide))⟩)

end Cert.Kernel.Run

end
-- ==== Proof.K.Reg1.lean ====
/- Region 1 of @main (custom_call 1, the quadratic-form kernel on a grid of 8 row blocks), at any float
   model: each window's block at a grid point, the contents the body leaves in the output window's buffer as a
   function of the two input blocks, the body's triple, the pipeline's proof data over the class-A invariant
   and its body obligation. Everything is stated at a parameter V: the TensorCore's buffer contents when the
   region is entered. -/
import proofs.«157913_j57896159150306_2_alg».proof.Proof.Gen.Kernel.Launch
import proofs.«157913_j57896159150306_2_alg».proof.Proof.Gen.Kernel.Skeleton
import proofs.«157913_j57896159150306_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the row block of x) holds its block at every point, fetched there or not, for any proof data
    whose array is V's and whose body leaves the block in place: where it is not fetched its block index has not
    moved; the window is uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the whole mask matrix, fetched at the first point only) likewise: its block index is
    constant, so the buffer keeps the block it was given at the first point. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x2048 := Rect.unit (s := S512x2048) ![0, 0] S512x2048.size inb_S512x2048_S512x2048_0_0
abbrev r1_1 : Rect S2048x2048 := Rect.unit (s := S2048x2048) ![0, 0] S2048x2048.size inb_S2048x2048_S2048x2048_0_0
abbrev r1_2 : Rect S512x1 := Rect.unit (s := S512x1) ![0, 0] S512x1.size inb_S512x1_S512x1_0_0

/-! ## What the body leaves in the output window's buffer -/

/-- Window 2's staging buffer after the body, from the input windows' blocks: its one store, of the payload of
    the two whole loads. -/
def out1_2 (x0 : Vec F S512x2048 .f32) (x1 : Vec F S2048x2048 .bf16) : Vec F S512x1 .f32 :=
  View.canon [⟨r1_2, k1_pay1 (View.ld x0 r1_0) (View.ld x1 r1_1)⟩]

/-- The one store covers the buffer. -/
theorem cover1_2 (p0 : Vec F S512x1 .f32) (y : S512x1.Idx) :
    ∃ pc ∈ ([⟨r1_2, p0⟩] : List (View.Piece (Elt F) S512x1 .f32)), y ∈ pc.1.set :=
  View.cover_of_tiled [⟨r1_2, p0⟩] S512x1.size (by rfl) y

/-! ## The body's triple -/

set_option maxHeartbeats 1000000 in
/-- The kernel body on whole staging memrefs, the inputs' at read contents and the output's at anything, runs to
    the continuation holding the inputs' as they were and the output's at out1_2 of the inputs'. -/
theorem sound_kernel1 (c : Dev nD) (E : Set ℕ) (i : grid1.Coords) (arg1 : Memref sig .tc .vmem S512x2048 .f32) (harg1 : arg1.IsWhole) (arg2 : Memref sig .tc .vmem S2048x2048 .bf16) (harg2 : arg2.IsWhole) (arg3 : Memref sig .tc .vmem S512x1 .f32) (harg3 : arg3.IsWhole)
    (x0 : Vec F S512x2048 .f32) (x1 : Vec F S2048x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__ddi_kernel i arg1 harg1 arg2 harg2 arg3 harg3) K := by
  simp only [cc1__ddi_kernel_eq_skeleton]; unfold cc1__ddi_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core c: the arrays as the region finds them; after the body at point t each
    input's buffer at its block and the output's at out1_2 of the input blocks; the class-A invariant; nothing
    owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's owed waits pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand1

end
-- ==== Proof.K.Reg0.lean ====
import proofs.«157913_j57896159150306_2_alg».proof.Proof.Gen.Kernel.Launch
import proofs.«157913_j57896159150306_2_alg».proof.Proof.Gen.Kernel.Skeleton
import proofs.«157913_j57896159150306_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
-- the TensorCore's buffer contents when the region is entered
variable (V : (c : Dev nD) → (b : Ref sig .tc) → Buf (Elt F) ((c : Thread nD τ).loc b))

/-! # Region 0: the 8×8 sweep that builds the strict-upper-triangular mask and its sum -/

/-! ## The windows' blocks, the tile a point stores, the running sum -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The mask tile point `t` stores into window 2: from block (i, j) of the matrix and block (j, i). -/
def tile0 (c : Dev nD) (t : Fin cfg0.N) : Vec F S256x256 .bf16 :=
  k0_pay4 (grid0.coords t) (iblk0 V c 0 t) (iblk0 V c 1 t)

/-- The scratch accumulator after the first `n` points: zero, then each point adds its tile's sum. (Past the
    grid it stays put.) -/
def acc0 (c : Dev nD) : Nat → Vec F S1x1 .f32
  | 0 => k0_pay2
  | n + 1 =>
    if h : n < cfg0.N then
      k0_pay1 (k0_pay5 (grid0.coords ⟨n, h⟩) (iblk0 V c 0 ⟨n, h⟩) (iblk0 V c 1 ⟨n, h⟩) (acc0 c n))
    else acc0 c n

theorem acc0_zero (c : Dev nD) : acc0 V c 0 = k0_pay2 := rfl

/-- One more point: the accumulator plus that point's tile sum. -/
theorem acc0_succ' (c : Dev nD) (n : Nat) (h : n < cfg0.N) :
    acc0 V c (n + 1) = k0_pay1 (k0_pay5 (grid0.coords ⟨n, h⟩) (iblk0 V c 0 ⟨n, h⟩) (iblk0 V c 1 ⟨n, h⟩) (acc0 V c n)) := by
  rw [acc0, dif_pos h]

theorem zero_lt_N0 : 0 < cfg0.N := lt_of_lt_of_eq (by decide : (0 : ℕ) < 64) N_0.symm

/-- After the first point: zero plus the first tile's sum. -/
theorem acc0_succ_first (c : Dev nD) :
    acc0 V c 1 = k0_pay1 (k0_pay5 (grid0.coords ⟨0, zero_lt_N0⟩) (iblk0 V c 0 ⟨0, zero_lt_N0⟩) (iblk0 V c 1 ⟨0, zero_lt_N0⟩) k0_pay2) :=
  acc0_succ' V c 0 _

/-- After a later point. -/
theorem acc0_succ (c : Dev nD) (n : Nat) (hn : 0 < n) (h : n < 64) :
    acc0 V c (n + 1) = k0_pay1 (k0_pay5 (grid0.coords ⟨n, lt_of_lt_of_eq h N_0.symm⟩) (iblk0 V c 0 ⟨n, lt_of_lt_of_eq h N_0.symm⟩) (iblk0 V c 1 ⟨n, lt_of_lt_of_eq h N_0.symm⟩) (acc0 V c n)) :=
  acc0_succ' V c n _

/-! ## The invariant between points -/

/-- The scratch accumulator, a whole scoped buffer of the kernel's own. -/
abbrev scM0 : Memref sig .tc .vmem S1x1 .f32 := Memref.whole cc0_scratch0

/-- The scoped buffers that region 0 neither stages nor uses: each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The invariant before position `n`: the unused scoped buffers and the generator register at anything; the
    accumulator at anything before the first point, afterwards at the running sum. -/
def PhiAt0 (c : Dev nD) : Nat → sProp 𝕄
  | 0 => iprop(rest0 (F := F) c ∗ (∃ r, prngReg c r) ∗ (∃ d, owns (c : Thread nD τ) scM0 fullShare d))
  | n + 1 => iprop(rest0 (F := F) c ∗ (∃ r, prngReg c r) ∗ owns (c : Thread nD τ) scM0 fullShare (acc0 V c (n + 1)))

theorem PhiAt0_zero (c : Dev nD) :
    PhiAt0 V c 0 = iprop(rest0 (F := F) c ∗ (∃ r, prngReg c r) ∗ (∃ d, owns (c : Thread nD τ) scM0 fullShare d)) := rfl

theorem PhiAt0_succ (c : Dev nD) (n : Nat) :
    PhiAt0 V c (n + 1) = iprop(rest0 (F := F) c ∗ (∃ r, prngReg c r) ∗ owns (c : Thread nD τ) scM0 fullShare (acc0 V c (n + 1))) := rfl

theorem PhiAt0_pos (c : Dev nD) (n : Nat) (hn : n ≠ 0) :
    PhiAt0 V c n = iprop(rest0 (F := F) c ∗ (∃ r, prngReg c r) ∗ owns (c : Thread nD τ) scM0 fullShare (acc0 V c n)) := by
  cases n with
  | zero => exact absurd rfl hn
  | succ n => rfl

/-! ## The proof data -/

/-- Pipeline 0's proof data on core `c`: the arrays as the region finds them; after the body each input's buffer
    at its block, window 2's at the point's tile, window 3's (consulted at the last point only) at the running sum;
    the matrix is held in halves by the two input windows. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => tile0 V c t
    | ⟨3, _⟩ => acc0 V c (t.val + 1)
  Φ t := PhiAt0 V c t.val
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]

theorem q0_0 (c : Dev nD) : (dat0 V c).q 0 = fullShare.left := by dsimp only [dat0]
theorem q0_1 (c : Dev nD) : (dat0 V c).q 1 = fullShare.right := by dsimp only [dat0]
theorem q0_2 (c : Dev nD) : (dat0 V c).q 2 = fullShare := by dsimp only [dat0]
theorem q0_3 (c : Dev nD) : (dat0 V c).q 3 = fullShare := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = tile0 V c t := by dsimp only [dat0]
theorem after0_3 (c : Dev nD) (t : Fin cfg0.N) : (dat0 V c).after 3 t = acc0 V c (t.val + 1) := by dsimp only [dat0]

theorem Phi0_eq (c : Dev nD) (t : Fin (cfg0.N + 1)) : (dat0 V c).Φ t = PhiAt0 V c t.val := by dsimp only [dat0]

/-- Each input's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## Entering and leaving the region -/

/-- What the launch hands the region is the invariant before the first point. -/
theorem hin0 (c : Dev nD) :
    iprop((∃ r, prngReg c r) ∗ Pipeline.scopedRest (Ix := Unit) (Name := ℕ) (U := Pipeline.UD sig nD τ) (Lvl := ℕ) (Val := Elt F) spec0 c) ⊢ (dat0 V c).Φ 0 := by
  rw [Phi0_eq, show ((0 : Fin (cfg0.N + 1)).val) = 0 from rfl, PhiAt0_zero, scopedRest0_eq]
  unfold rest0; simp only [scM0, owns_whole]
  iintro ⟨Hg, HS, H1, H2, H3, H4, H5⟩
  isplitl [H1 H2 H3 H4 H5]
  · isplitl [H1]; · iexact H1
    isplitl [H2]; · iexact H2
    isplitl [H3]; · iexact H3
    isplitl [H4]; · iexact H4
    iexact H5
  isplitl [Hg]; · iexact Hg
  iexact HS

/-- After the last point the invariant gives back what the launch handed over: the sum in the accumulator is forgotten. -/
theorem hout0 (c : Dev nD) :
    (dat0 V c).Φ (Fin.last cfg0.N) ⊢ iprop((∃ r, prngReg c r) ∗ Pipeline.scopedRest (Ix := Unit) (Name := ℕ) (U := Pipeline.UD sig nD τ) (Lvl := ℕ) (Val := Elt F) spec0 c) := by
  rw [Phi0_eq, PhiAt0_pos V c _ (by rw [Fin.val_last]; have : cfg0.N = 64 := N_0; omega), scopedRest0_eq]
  unfold rest0; simp only [scM0, owns_whole]
  iintro ⟨⟨H1, H2, H3, H4, H5⟩, Hg, HS⟩
  isplitl [Hg]; · iexact Hg
  isplitl [HS]; · iexists _; iexact HS
  isplitl [H1]; · iexact H1
  isplitl [H2]; · iexact H2
  isplitl [H3]; · iexact H3
  isplitl [H4]; · iexact H4
  iexact H5

end Region0

end Cert.Kernel.Hand0

end
-- ==== Proof.K.Reg0Run.lean ====
import proofs.«157913_j57896159150306_2_alg».proof.Proof.Gen.Kernel.Launch
import proofs.«157913_j57896159150306_2_alg».proof.Proof.Gen.Kernel.Skeleton
import proofs.«157913_j57896159150306_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two tests, in closed form over the grid -/

/-- The first-point test of the body (both coordinates zero), from the grid coordinates. -/
abbrev cond0_1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- It holds at the first point only. -/
theorem hcond0_1 : ∀ t : Fin cfg0.N, cond0_1 (grid0.coords t) ↔ t.val = 0 :=
  (by decide +kernel : ∀ t : Fin grid0.N, cond0_1 (grid0.coords t) ↔ t.val = 0)
/-- The last-point test (both coordinates 7) holds at the last point only. -/
theorem hcond0_2 : ∀ t : Fin cfg0.N, k0_cond2 (grid0.coords t) = 1#1 ↔ t.val = 63 :=
  (by decide +kernel : ∀ t : Fin grid0.N, k0_cond2 (grid0.coords t) = 1#1 ↔ t.val = 63)

/-! ## Whole-shape stores and loads -/

theorem hz2 : (![0, 0] : Fin 2 → Nat) = fun _ => 0 := by funext a; fin_cases a <;> rfl

/-- A store through the whole shape, made last, leaves its payload, whatever was stored before. -/
theorem read_writes_cons_unit {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-- A load through the whole shape of a whole memref held at contents reading `X` reads `X`. -/
theorem ld_unread {sp : Space} {S : Shape} {e : EltTy} {m : Memref sig .tc sp S e} (hm : m.IsWhole) (X : S.Idx → Elt F e)
    {off : Fin S.rank → Nat} (h : off = fun _ => 0) (inb : ∀ a, off a + S.size a ≤ S.size a) :
    View.readAt (Elt F) m.view (Rect.unit off S.size inb).toLoadRect (hm.unread X) = X := by
  rw [View.readAt_eq_ld, hm.read_unread, View.ld_unit_zero h]

/-! ## The body on whole staging memrefs, case by case -/

set_option maxHeartbeats 1000000 in
/-- A middle point: the tile is stored into window 2's buffer, the accumulator goes from `s` to `s` plus the tile's
    sum; window 3's buffer is left as found. -/
theorem run_mid (c : Dev nD) (E : Set ℕ) (i : grid0.Coords) (arg2 : Memref sig .tc .vmem S256x256 .f32) (harg2 : arg2.IsWhole) (arg3 : Memref sig .tc .vmem S256x256 .f32) (harg3 : arg3.IsWhole) (arg4 : Memref sig .tc .vmem S256x256 .bf16) (harg4 : arg4.IsWhole) (arg5 : Memref sig .tc .vmem S1x1 .f32) (harg5 : arg5.IsWhole) (arg6 : Memref sig .tc .vmem S1x1 .f32) (harg6 : arg6.IsWhole)
    (hc1 : ¬cond0_1 i) (hc2 : ¬k0_cond2 i = 1#1)
    (a b : Vec F S256x256 .f32) (d3 s : Vec F S1x1 .f32) (K : PUnit → sProp 𝕄) :
    iprop(owns (c : Thread nD τ) arg2 fullShare a ∗ owns (c : Thread nD τ) arg3 fullShare b ∗ (∃ d, owns (c : Thread nD τ) arg4 fullShare d)
        ∗ owns (c : Thread nD τ) arg5 fullShare d3 ∗ owns (c : Thread nD τ) arg6 fullShare s
        ∗ (iprop(owns (c : Thread nD τ) arg2 fullShare a ∗ owns (c : Thread nD τ) arg3 fullShare b ∗ owns (c : Thread nD τ) arg4 fullShare (k0_pay4 i a b)
            ∗ owns (c : Thread nD τ) arg5 fullShare d3 ∗ owns (c : Thread nD τ) arg6 fullShare (k0_pay1 (k0_pay5 i a b s))) -∗ K ⟨⟩))
      ⊢ wp frame (wpE (defs₀ (F := F)) Variants.none c none) E (cc0__preprocess_kernel i arg2 harg2 arg3 harg3 arg4 harg4 arg5 harg5 arg6 harg6) K := by
  simp only [cc0__preprocess_kernel_eq_skeleton]; unfold cc0__preprocess_kernel_skel
  simp only [k0_part1_eq_skeleton]; unfold k0_part1_skel
  unfold owns
  iintro ⟨⟨%f0, %hf0, H0⟩, ⟨%f1, %hf1, H1⟩, ⟨%d2, %f2, -, H2⟩, ⟨%f3, %hf3, H3⟩, ⟨%fs, %hfs, HS⟩, Hk⟩
  obtain rfl := harg2.eq_unread hf0; obtain rfl := harg3.eq_unread hf1; obtain rfl := harg5.eq_unread hf3; obtain rfl := harg6.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [read_writes_cons_unit _ _ hz2, ld_unread harg2 _ hz2, ld_unread harg3 _ hz2]

  isplitl [H3]
  · iexists _; isplitr; · ipureintro; exact harg5.read_unread _
    iexact H3
  iexists _; isplitr; swap; · iexact HS
  ipureintro
  rw [read_writes_cons_unit _ _ hz2]; dsimp only
  rw [ld_unread harg2 _ hz2, ld_unread harg3 _ hz2, ld_unread harg6 _ hz2]

end Cert.Kernel.Hand0

end
-- ==== Proof.K.Reg0RunF.lean ====
import proofs.«157913_j57896159150306_2_alg».proof.Proof.Gen.Kernel.Launch
import proofs.«157913_j57896159150306_2_alg».proof.Proof.Gen.Kernel.Skeleton
import proofs.«157913_j57896159150306_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«157913_j57896159150306_2_alg».proof.Proof.K.Reg0Run

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The first point: the accumulator is zeroed first, whatever it held; then as at a middle point. -/
theorem run_first (c : Dev nD) (E : Set ℕ) (i : grid0.Coords) (arg2 : Memref sig .tc .vmem S256x256 .f32) (harg2 : arg2.IsWhole) (arg3 : Memref sig .tc .vmem S256x256 .f32) (harg3 : arg3.IsWhole) (arg4 : Memref sig .tc .vmem S256x256 .bf16) (harg4 : arg4.IsWhole) (arg5 : Memref sig .tc .vmem S1x1 .f32) (harg5 : arg5.IsWhole) (arg6 : Memref sig .tc .vmem S1x1 .f32) (harg6 : arg6.IsWhole)
    (hc1 : cond0_1 i) (hc2 : ¬k0_cond2 i = 1#1)
    (a b : Vec F S256x256 .f32) (d3 : Vec F S1x1 .f32) (K : PUnit → sProp 𝕄) :
    iprop(owns (c : Thread nD τ) arg2 fullShare a ∗ owns (c : Thread nD τ) arg3 fullShare b ∗ (∃ d, owns (c : Thread nD τ) arg4 fullShare d)
        ∗ owns (c : Thread nD τ) arg5 fullShare d3 ∗ (∃ d, owns (c : Thread nD τ) arg6 fullShare d)
        ∗ (iprop(owns (c : Thread nD τ) arg2 fullShare a ∗ owns (c : Thread nD τ) arg3 fullShare b ∗ owns (c : Thread nD τ) arg4 fullShare (k0_pay4 i a b)
            ∗ owns (c : Thread nD τ) arg5 fullShare d3 ∗ owns (c : Thread nD τ) arg6 fullShare (k0_pay1 (k0_pay5 i a b k0_pay2))) -∗ K ⟨⟩))
      ⊢ wp frame (wpE (defs₀ (F := F)) Variants.none c none) E (cc0__preprocess_kernel i arg2 harg2 arg3 harg3 arg4 harg4 arg5 harg5 arg6 harg6) K := by
  simp only [cc0__preprocess_kernel_eq_skeleton]; unfold cc0__preprocess_kernel_skel
  simp only [k0_part1_eq_skeleton]; unfold k0_part1_skel
  unfold owns
  iintro ⟨⟨%f0, %hf0, H0⟩, ⟨%f1, %hf1, H1⟩, ⟨%d2, %f2, -, H2⟩, ⟨%f3, %hf3, H3⟩, ⟨%ds, %fs, -, HS⟩, Hk⟩
  obtain rfl := harg2.eq_unread hf0; obtain rfl := harg3.eq_unread hf1; obtain rfl := harg5.eq_unread hf3
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [read_writes_cons_unit _ _ hz2, ld_unread harg2 _ hz2, ld_unread harg3 _ hz2]

  isplitl [H3]
  · iexists _; isplitr; · ipureintro; exact harg5.read_unread _
    iexact H3
  iexists _; isplitr; swap; · iexact HS
  ipureintro
  rw [read_writes_cons_unit _ _ hz2]; dsimp only
  rw [ld_unread harg2 _ hz2, ld_unread harg3 _ hz2]
  sl_unfold_words
  rw [View.readCov_unit_zero _ hz2]

end Cert.Kernel.Hand0

end
-- ==== Proof.K.Reg0RunL.lean ====
import proofs.«157913_j57896159150306_2_alg».proof.Proof.Gen.Kernel.Launch
import proofs.«157913_j57896159150306_2_alg».proof.Proof.Gen.Kernel.Skeleton
import proofs.«157913_j57896159150306_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«157913_j57896159150306_2_alg».proof.Proof.K.Reg0RunF

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The last point: as at a middle point, and then the accumulator is copied into window 3's buffer. -/
theorem run_last (c : Dev nD) (E : Set ℕ) (i : grid0.Coords) (arg2 : Memref sig .tc .vmem S256x256 .f32) (harg2 : arg2.IsWhole) (arg3 : Memref sig .tc .vmem S256x256 .f32) (harg3 : arg3.IsWhole) (arg4 : Memref sig .tc .vmem S256x256 .bf16) (harg4 : arg4.IsWhole) (arg5 : Memref sig .tc .vmem S1x1 .f32) (harg5 : arg5.IsWhole) (arg6 : Memref sig .tc .vmem S1x1 .f32) (harg6 : arg6.IsWhole)
    (hc1 : ¬cond0_1 i) (hc2 : k0_cond2 i = 1#1)
    (a b : Vec F S256x256 .f32) (s : Vec F S1x1 .f32) (K : PUnit → sProp 𝕄) :
    iprop(owns (c : Thread nD τ) arg2 fullShare a ∗ owns (c : Thread nD τ) arg3 fullShare b ∗ (∃ d, owns (c : Thread nD τ) arg4 fullShare d)
        ∗ (∃ d, owns (c : Thread nD τ) arg5 fullShare d) ∗ owns (c : Thread nD τ) arg6 fullShare s
        ∗ (iprop(owns (c : Thread nD τ) arg2 fullShare a ∗ owns (c : Thread nD τ) arg3 fullShare b ∗ owns (c : Thread nD τ) arg4 fullShare (k0_pay4 i a b)
            ∗ owns (c : Thread nD τ) arg5 fullShare (k0_pay1 (k0_pay5 i a b s)) ∗ owns (c : Thread nD τ) arg6 fullShare (k0_pay1 (k0_pay5 i a b s))) -∗ K ⟨⟩))
      ⊢ wp frame (wpE (defs₀ (F := F)) Variants.none c none) E (cc0__preprocess_kernel i arg2 harg2 arg3 harg3 arg4 harg4 arg5 harg5 arg6 harg6) K := by
  simp only [cc0__preprocess_kernel_eq_skeleton]; unfold cc0__preprocess_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%fs, %hfs, HS⟩, Hk⟩
  obtain rfl := harg2.eq_unread hf0; obtain rfl := harg3.eq_unread hf1; obtain rfl := harg6.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [read_writes_cons_unit _ _ hz2, ld_unread harg2 _ hz2, ld_unread harg3 _ hz2]

  isplitl [H3]
  · iexists _; isplitr; swap; · iexact H3
    ipureintro
    rw [read_writes_cons_unit _ _ hz2]
    sl_unfold_words
    rw [View.readCov_unit_zero _ hz2]; dsimp only
    rw [ld_unread harg2 _ hz2, ld_unread harg3 _ hz2, ld_unread harg6 _ hz2]
  iexists _; isplitr; swap; · iexact HS
  ipureintro
  sl_unfold_words
  rw [read_writes_cons_unit _ _ hz2]; dsimp only
  rw [ld_unread harg2 _ hz2, ld_unread harg3 _ hz2, ld_unread harg6 _ hz2]

end Cert.Kernel.Hand0

end
-- ==== Proof.K.Reg0Body.lean ====
import proofs.«157913_j57896159150306_2_alg».proof.Proof.Gen.Kernel.Launch
import proofs.«157913_j57896159150306_2_alg».proof.Proof.Gen.Kernel.Skeleton
import proofs.«157913_j57896159150306_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«157913_j57896159150306_2_alg».proof.Proof.K.Reg0
import proofs.«157913_j57896159150306_2_alg».proof.Proof.K.Reg0RunL

set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

/-! ## Nothing is owed, every recorded pair is allowed -/

theorem owed0 (c : Dev nD) (t : Fin (cfg0.N + 1)) : (dat0 V c).owed t = 0 := by dsimp only [dat0]
theorem recorded0 (c : Dev nD) (t : Fin (cfg0.N + 1)) : (dat0 V c).recorded t = Set.univ := by dsimp only [dat0]

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Window 3 is stored into at the last point only: elsewhere it is idle and not written back. -/
theorem idleAt0_3 : ∀ t : Fin cfg0.N, ¬k0_cond2 (grid0.coords t) = 1#1 → cfg0.idle 3 (grid0.coords t) = true := by decide +kernel
theorem noFlush0_3 : ∀ t : Fin cfg0.N, ¬k0_cond2 (grid0.coords t) = 1#1 → (cfg0.win 3).flush t = false := by decide +kernel
theorem liveAt0_3 : ∀ t : Fin cfg0.N, k0_cond2 (grid0.coords t) = 1#1 → cfg0.idle 3 (grid0.coords t) = false := by decide +kernel

/-! ## The staging memrefs at a point, as the pipeline passes them -/

abbrev ms0_0 (t : Fin cfg0.N) : Memref sig .tc .vmem S256x256 .f32 := win0_0.stage (cfg0.slots t 0)
abbrev ms0_1 (t : Fin cfg0.N) : Memref sig .tc .vmem S256x256 .f32 := win0_1.stage (cfg0.slots t 1)
abbrev ms0_2 (t : Fin cfg0.N) : Memref sig .tc .vmem S256x256 .bf16 := win0_2.stage (cfg0.slots t 2)
abbrev ms0_3 (t : Fin cfg0.N) : Memref sig .tc .vmem S1x1 .f32 := win0_3.stage (cfg0.slots t 3)

/-- The running sum after point `t`, from the one before it. -/
theorem acc0_at (c : Dev nD) (t : Fin cfg0.N) :
    acc0 V c (t.val + 1) = k0_pay1 (k0_pay5 (grid0.coords t) (iblk0 V c 0 t) (iblk0 V c 1 t) (acc0 V c t.val)) :=
  acc0_succ' V c t.val t.isLt

theorem PhiAt0_of_zero (c : Dev nD) (n : Nat) (h : n = 0) :
    PhiAt0 V c n = iprop(rest0 (F := F) c ∗ (∃ r, prngReg c r) ∗ (∃ d, owns (c : Thread nD τ) scM0 fullShare d)) := by
  subst h; rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point. The inputs' buffers hold their blocks; the closed forms of the two tests say which of
    the three cases the point is in; the invariant hands over the accumulator at the running sum so far (at anything
    before the first point) and takes it back at the next running sum; window 3's buffer is handed back as found
    except at the last point, where it takes the total. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [Phi0_eq, Phi0_eq, Fin.coe_castSucc, Fin.val_succ, PhiAt0_succ]
  have hN : t.val < 64 := lt_of_lt_of_eq t.isLt N_0
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  unfold tile0
  rw [acc0_at V c t]
  by_cases h2 : t.val = 63
  · have hc1 : ¬cond0_1 (grid0.coords t) := fun h => by have := (hcond0_1 t).mp h; omega
    have hc2 : k0_cond2 (grid0.coords t) = 1#1 := (hcond0_2 t).mpr h2
    rw [show (dat0 V c).leavesExact 3 t = owns (c : Thread nD τ) (ms0_3 t) fullShare ((dat0 V c).after 3 t) from by
      unfold Dat.leavesExact; rw [liveAt0_3 t hc2], after0_3, acc0_at V c t]
    rw [PhiAt0_pos V c t.val (by omega)]
    iintro ⟨⟨HR, Hg, HS⟩, Ho, ⟨%d0, H0⟩, ⟨%d1, H1⟩, ⟨%d2, H2⟩, ⟨%d3, H3⟩⟩
    iapply (run_last c Set.univ (grid0.coords t) _ _ _ _ _ _ _ _ _ _ hc1 hc2 (iblk0 V c 0 t) (iblk0 V c 1 t) (acc0 V c t.val) _)
    isplitl [H0]; · iexact H0
    isplitl [H1]; · iexact H1
    isplitl [H2]; · iexists _; iexact H2
    isplitl [H3]; · iexists _; iexact H3
    isplitl [HS]; · iexact HS
    iintro ⟨H0, H1, H2, H3, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    iexact H3
  · have hc2 : ¬k0_cond2 (grid0.coords t) = 1#1 := fun h => h2 ((hcond0_2 t).mp h)
    rw [Dat.leavesExact_idle (dat0 V c) 3 t (idleAt0_3 t hc2) (noFlush0_3 t hc2)]
    by_cases h0 : t.val = 0
    · have hc1 : cond0_1 (grid0.coords t) := (hcond0_1 t).mpr h0
      have hz : acc0 V c t.val = k0_pay2 := by rw [h0]; rfl
      rw [hz, PhiAt0_of_zero V c t.val h0]
      iintro ⟨⟨HR, Hg, HS⟩, Ho, ⟨%d0, H0⟩, ⟨%d1, H1⟩, ⟨%d2, H2⟩, ⟨%d3, H3⟩⟩
      iapply (run_first c Set.univ (grid0.coords t) _ _ _ _ _ _ _ _ _ _ hc1 hc2 (iblk0 V c 0 t) (iblk0 V c 1 t) ((dat0 V c).before 3 t d3) _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HR Hg HS]
      · isplitl [HR]; · iexact HR
        isplitl [Hg]; · iexact Hg
        iexact HS
      isplitl [Ho]; · iexact Ho
      isplitl [H0]; · iexact H0
      isplitl [H1]; · iexact H1
      isplitl [H2]; · iexact H2
      iexists _; iexact H3
    · have hc1 : ¬cond0_1 (grid0.coords t) := fun h => h0 ((hcond0_1 t).mp h)
      rw [PhiAt0_pos V c t.val h0]
      iintro ⟨⟨HR, Hg, HS⟩, Ho, ⟨%d0, H0⟩, ⟨%d1, H1⟩, ⟨%d2, H2⟩, ⟨%d3, H3⟩⟩
      iapply (run_mid c Set.univ (grid0.coords t) _ _ _ _ _ _ _ _ _ _ hc1 hc2 (iblk0 V c 0 t) (iblk0 V c 1 t) ((dat0 V c).before 3 t d3) (acc0 V c t.val) _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HR Hg HS]
      · isplitl [HR]; · iexact HR
        isplitl [Hg]; · iexact Hg
        iexact HS
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand0

end
-- ==== Proof.K.Main.lean ====
/-
  The two kernels' own halves put into the run: the proof data of both pipelines have the shape the run asks for,
  so every weakly fair execution of the program terminates with the result buffer at the last fold of the buffer
  contents and the argument arrays unchanged; dropping the result gives the frame.
-/
import proofs.«157913_j57896159150306_2_alg».proof.Proof.K.Run
import proofs.«157913_j57896159150306_2_alg».proof.Proof.K.Reg1
import proofs.«157913_j57896159150306_2_alg».proof.Proof.K.Reg0Body

noncomputable section

namespace Cert.Kernel.HandMain

open Cert.Kernel Cert.Kernel.Gen
open Idealize.ShloMosaic Idealize.ShloMosaic.TcCoe Idealize.SL.Sem
open Idealize.ShloMosaic.Pipeline (Dat BodyObligation)

variable {F : FTy → Type} [FloatOps F]

/-- Region 1's proof data has the shape the run asks for. -/
theorem has1 : Run.Has1 (F := F) (fun V c => Hand1.dat1 V c) where
  A := fun V c w => Hand1.A_eq1 V c w
  Φ := fun V c t => rfl
  q := fun V c w => rfl
  owed := fun V c t => rfl
  recorded := fun V c t => rfl
  body := fun V c => Hand1.body_obligation1 V c

/-- Region 0's proof data has the shape the run asks for. -/
theorem has0 : Run.Has0 (F := F) (fun V c => Hand0.dat0 V c) where
  A := fun V c w => Hand0.A_eq0 V c w
  q0 := fun V c => Hand0.q0_0 V c
  q1 := fun V c => Hand0.q0_1 V c
  owed := fun V c t => Hand0.owed0 V c t
  recorded := fun V c t => Hand0.recorded0 V c t
  body := fun V c => Hand0.body_obligation0 V c
  hin := fun V c => Hand0.hin0 V c
  hout := fun V c => Hand0.hout0 V c

variable (m : (ℓ : Loc nD τ sig) → Buf (Elt F) ℓ) (ρ : Dev nD → PrngReg)

/-- THE RUN of the program: it terminates, nothing faulting, the result buffer at the last fold of the buffer
    contents, the argument arrays as launched. -/
theorem run : θ_run defs (onTc (τ := τ) (main (F := F))) ⟨m, fun _ => 0, ρ⟩ (fun r => ∀ c : Dev nD,
      r.2.mem ((c.tc : Thread nD τ).loc main_v8)
        = Run.W4 m (fun V c => Hand0.dat0 V c) (fun V c => Hand1.dat1 V c) c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Run.run_main m ρ _ _ has0 has1

/-- THE FRAME: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run m ρ)

end Cert.Kernel.HandMain

end
-- ==== Proof.KI.Run.lean ====
/-
  The run of the two-region program from the launch to the return, for ANY proof data of its two pipelines that
  has the shape the kernels' own halves provide: every buffer's contents at each boundary between the program's
  four items (region, three host lines, region, seven host lines) as a fold from the launch memory; each region
  entered from "every unscoped buffer at the boundary's contents, the generator register at some state, nothing
  owed" and left at the next boundary's. Region 0 reads ONE array through two input windows: on entry that array's
  buffer is split into two half shares, one per window, and on exit — both windows ending at the contents they
  were entered with — the halves are joined again. The conclusion names the result buffer at the last fold and
  says the two argument arrays end as launched.
-/
import proofs.«157913_j57896159150306_2_alg».proof.Proof.Gen.KernelIdeal.Launch
import proofs.«157913_j57896159150306_2_alg».proof.Proof.Gen.KernelIdeal.Regions
import proofs.«157913_j57896159150306_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A core's buffer contents read at the TensorCore's references. -/
abbrev Vals (F : FTy → Type) [FloatOps F] : Type := (c : Dev nD) → (b : Ref sig .tc) → Buf (Elt F) ((c : Thread nD τ).loc b)

variable (m : (ℓ : Loc nD τ sig) → Buf (Elt F) ℓ) (ρ : Dev nD → PrngReg)
variable (dat0 : Vals F → (c : Dev nD) → Dat τ (Elt F) Unit ℕ (Pipeline.UD sig nD τ) ℕ cfg0 c)
variable (dat1 : Vals F → (c : Dev nD) → Dat τ (Elt F) Unit ℕ (Pipeline.UD sig nD τ) ℕ cfg1 c)

/-! ## The buffer contents at each boundary -/

/-- At launch. -/
abbrev W0 : Dev nD → Valuation τ sig (Elt F) := fun c b => m ((c : Dev nD), b)
abbrev V0 : Vals F := fun c b => W0 m c b
/-- After region 0: its two output arrays at what the write-backs leave, everything else as launched. -/
def W1 (c : Dev nD) : Valuation τ sig (Elt F) :=
  Function.update (Function.update (W0 m c) main_v0_0 ((dat0 (V0 m) c).arrAt 2 cfg0.N)) main_v0_1 ((dat0 (V0 m) c).arrAt 3 cfg0.N)
abbrev V1 : Vals F := fun c b => W1 m dat0 c b
/-- After the three host lines. -/
def W2 (c : Dev nD) : Valuation τ sig (Elt F) := StableHlo.after hostOps1 (W1 m dat0 c)
abbrev V2 : Vals F := fun c b => W2 m dat0 c b
/-- After region 1: its output array at what the write-backs leave. -/
def W3 (c : Dev nD) : Valuation τ sig (Elt F) :=
  Function.update (W2 m dat0 c) main_v3 ((dat1 (V2 m dat0) c).arrAt 2 cfg1.N)
abbrev V3 : Vals F := fun c b => W3 m dat0 dat1 c b
/-- After the seven host lines: the return. -/
def W4 (c : Dev nD) : Valuation τ sig (Elt F) := StableHlo.after hostOps2 (W3 m dat0 dat1 c)

/-! ## What the kernels' halves provide -/

/-- Region 1's proof data: the arrays as the region finds them, the class-A invariant, full shares, nothing owed. -/
structure Has1 : Prop where
  A : ∀ (V : Vals F) c w, (dat1 V c).A w = V c (Pipeline.arrRef spec1 w)
  Φ : ∀ (V : Vals F) c t, (dat1 V c).Φ t = Pipeline.ΦA spec1 c
  q : ∀ (V : Vals F) c w, (dat1 V c).q w = fullShare
  owed : ∀ (V : Vals F) c t, (dat1 V c).owed t = 0
  recorded : ∀ (V : Vals F) c t, (dat1 V c).recorded t = Set.univ
  body : ∀ (V : Vals F) c, BodyObligation (dat1 V c) (defs₀ (F := F)) Variants.none () Set.univ

/-- Region 0's proof data: the arrays as the region finds them, the two windows on the shared array at half shares,
    nothing owed, an invariant made at entry from the generator register and the scoped buffers no window stages
    and giving them back at exit. -/
structure Has0 : Prop where
  A : ∀ (V : Vals F) c w, (dat0 V c).A w = V c (Pipeline.arrRef spec0 w)
  q0 : ∀ (V : Vals F) c, (dat0 V c).q 0 = fullShare.left
  q1 : ∀ (V : Vals F) c, (dat0 V c).q 1 = fullShare.right
  owed : ∀ (V : Vals F) c t, (dat0 V c).owed t = 0
  recorded : ∀ (V : Vals F) c t, (dat0 V c).recorded t = Set.univ
  body : ∀ (V : Vals F) c, BodyObligation (dat0 V c) (defs₀ (F := F)) Variants.none () Set.univ
  hin : ∀ (V : Vals F) c, iprop((∃ r, prngReg c r) ∗ Pipeline.scopedRest (Ix := Unit) (Name := ℕ) (U := Pipeline.UD sig nD τ) (Lvl := ℕ) (Val := Elt F) spec0 c) ⊢ (dat0 V c).Φ 0
  hout : ∀ (V : Vals F) c, (dat0 V c).Φ (Fin.last cfg0.N) ⊢ (iprop((∃ r, prngReg c r) ∗ Pipeline.scopedRest (Ix := Unit) (Name := ℕ) (U := Pipeline.UD sig nD τ) (Lvl := ℕ) (Val := Elt F) spec0 c) : sProp 𝕄)

variable (h0 : Has0 dat0) (h1 : Has1 dat1)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (V0 m) c
  | ⟨1, _⟩ => fun c => dat1 (V2 m dat0) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
/-- A line of host operations as an item, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 1 as an item -/

include h1 in
theorem W3_arr (c : Dev nD) : ∀ w : Fin cfg1.W,
    (dat1 (V2 m dat0) c).arrAt w cfg1.N = V3 m dat0 dat1 c (Pipeline.arrRef spec1 w)
  | ⟨0, _⟩ => ((dat1 (V2 m dat0) c).arrAt_in 0 rfl _).trans ((h1.A _ c 0).trans
      (by unfold V3 W3; exact (Function.update_of_ne (StableHlo.devRef_ne_of_ne (by decide : main_arg0 ≠ main_v3)) ..).symm))
  | ⟨1, _⟩ => ((dat1 (V2 m dat0) c).arrAt_in 1 rfl _).trans ((h1.A _ c 1).trans
      (by unfold V3 W3; exact (Function.update_of_ne (StableHlo.devRef_ne_of_ne (by decide : main_v0_0 ≠ main_v3)) ..).symm))
  | ⟨2, _⟩ => by unfold V3 W3; exact (Function.update_self (Proc.devRef (τ := τ) .tc main_v3) _ (W2 m dat0 c)).symm

theorem W3_rest (c : Dev nD) : ∀ b, b ∉ Finset.univ.image (Pipeline.arrRef spec1) → V3 m dat0 dat1 c b = V2 m dat0 c b :=
  fun b hb => by
    have hne : b ≠ main_v3 := fun e => hb (Finset.mem_image.mpr ⟨2, Finset.mem_univ _, e.symm⟩)
    unfold V3 V2 W3; exact Function.update_of_ne (StableHlo.devRef_ne_of_ne hne) ..

set_option backward.isDefEq.respectTransparency.types false in
/-- REGION 1 over the thread state: entered from every unscoped buffer at W2, left at W3. Its three arrays (distinct
    buffers) are split out of the unscoped buffers and put back at the exit contents; the generator register goes
    into the invariant and comes back; nothing owed; no semaphore of the kernel's own. -/
def reg1 : Pipeline.RegionSeg (pcfgs (F := F)) adm (pdats m dat0 dat1) () defs₀ 𝒱₀ L lv 1 where
  win := launch1.win.to₀
  block_pos := launch1.block_pos
  stage_whole := launch1.stage_whole
  K := PEmpty
  osem k := k.elim
  ho := Pipeline.OwnSemFacts.none _
  hbody c := (h1.body (V2 m dat0) c).loose
  hwaits := Pipeline.hwaits_of_owed_zero _ _ _ _ L lv 1 fun c t => h1.owed _ c t
  pre c := iprop(StableHlo.held (c : Thread nD τ) (Pipeline.ucRefs τ sig) (W2 m dat0 c) ∗ R c)
  post c := iprop(StableHlo.held (c : Thread nD τ) (Pipeline.ucRefs τ sig) (W3 m dat0 dat1 c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m dat0 c)
  hentry c := by
    rw [Pipeline.ownSems0_none]
    have hsplit := Pipeline.arrays_of_unscopedBufs (p := 1) (pcfgs (F := F)) adm (pdats m dat0 dat1) launch1.win launch1.arr_whole c
      ((pdats m dat0 dat1 1 c).share_full fun w => h1.q _ c w) (V2 m dat0 c) fun w => h1.A _ c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m dat0 dat1 1 c).owed 0 = 0 from h1.owed _ c 0]
      icases HO with ⟨%W, HO⟩; iexists W; isplitr; · ipureintro; exact fun _ _ => Or.inl (by rw [show (pdats m dat0 dat1 1 c).recorded 0 = Set.univ from h1.recorded _ c 0]; exact Set.mem_univ _)
      iexact HO
    isplitl [Hp]; · iexact Hp
    iexact Hrest
  hin c := by
    rw [show (pdats m dat0 dat1 1 c).Φ 0 = Pipeline.ΦA spec1 c from h1.Φ _ c 0]; unfold Pipeline.ΦA
    iintro ⟨Hp, -, Hr⟩
    isplitl [Hr]; · iexact Hr
    iexact Hp
  hout c := by
    rw [Pipeline.ownSems0_none, show (pdats m dat0 dat1 1 c).Φ (Fin.last _) = Pipeline.ΦA spec1 c from h1.Φ _ c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m dat0 dat1) ((pdats m dat0 dat1 1 c).share_full fun w => h1.q _ c w)
      (V2 m dat0 c) (V3 m dat0 dat1 c) ((pdats m dat0 dat1 1 c).arrAt · cfg1.N) (W3_arr m dat0 dat1 h1 c) (W3_rest m dat0 dat1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m dat0 dat1 1 c).owed (Fin.last _) = 0 from h1.owed _ c _]
    icases HO with ⟨%W, -, HO⟩; iexists W; iexact HO

/-! ## Region 0 as an item: one array behind two input windows -/

include h0 in
theorem share0_0 (V : Vals F) (c : Dev nD) : (dat0 V c).share 0 = fullShare.left := by
  unfold Dat.share; rw [show (cfg0.win 0).isOut = false from rfl, if_neg Bool.false_ne_true]; exact h0.q0 V c
include h0 in
theorem share0_1 (V : Vals F) (c : Dev nD) : (dat0 V c).share 1 = fullShare.right := by
  unfold Dat.share; rw [show (cfg0.win 1).isOut = false from rfl, if_neg Bool.false_ne_true]; exact h0.q1 V c
theorem share0_2 (V : Vals F) (c : Dev nD) : (dat0 V c).share 2 = fullShare := by
  unfold Dat.share; rw [show (cfg0.win 2).isOut = true from rfl, if_pos rfl]
theorem share0_3 (V : Vals F) (c : Dev nD) : (dat0 V c).share 3 = fullShare := by
  unfold Dat.share; rw [show (cfg0.win 3).isOut = true from rfl, if_pos rfl]

include h0 in
/-- The proof data's arrays, window by window: the shared array at its two half shares, each output array outright. -/
theorem arrays0_eq (V : Vals F) (c : Dev nD) (Fa : (w : Fin cfg0.W) → Buf (Elt F) ((cfg0.win w).arr.view.loc (c : Thread nD τ))) :
    ((dat0 V c).arrays Fa : sProp 𝕄)
      = iprop((((c : Thread nD τ).loc main_arg1) ↦{fullShare.left} Fa 0) ∗ (((c : Thread nD τ).loc main_arg1) ↦{fullShare.right} Fa 1)
          ∗ (((c : Thread nD τ).loc main_v0_0) ↦{fullShare} Fa 2) ∗ (((c : Thread nD τ).loc main_v0_1) ↦{fullShare} Fa 3)) := by
  unfold Dat.arrays
  rw [bigSep_W0, (arr_whole0 0).set_eq_univ, (arr_whole0 2).set_eq_univ, (arr_whole0 3).set_eq_univ,
    share0_0 dat0 h0, share0_1 dat0 h0, share0_2, share0_3]

/-- The distinct buffers behind region 0's arrays, listed. -/
theorem arrBufs0_eq (c : Dev nD) (V : (b : Ref sig .tc) → Buf (Elt F) ((c : Thread nD τ).loc b)) :
    (Pipeline.arrBufs (Ix := Unit) (Name := ℕ) (U := Pipeline.UD sig nD τ) (Lvl := ℕ) spec0 c V : sProp 𝕄)
      = iprop((((c : Thread nD τ).loc main_arg1) ↦{fullShare} V main_arg1) ∗ (((c : Thread nD τ).loc main_v0_0) ↦{fullShare} V main_v0_0)
          ∗ (((c : Thread nD τ).loc main_v0_1) ↦{fullShare} V main_v0_1)) := by
  unfold Pipeline.arrBufs
  rw [BI.bigSep_eq_bigSepL_of_eq [main_arg1, main_v0_0, main_v0_1] (by decide) (by decide)]; rfl

include h0 in
theorem arrAt0_in0 (V : Vals F) (c : Dev nD) (n : Nat) : (dat0 V c).arrAt 0 n = V c main_arg1 :=
  ((dat0 V c).arrAt_in 0 rfl n).trans (h0.A V c 0)
include h0 in
theorem arrAt0_in1 (V : Vals F) (c : Dev nD) (n : Nat) : (dat0 V c).arrAt 1 n = V c main_arg1 :=
  ((dat0 V c).arrAt_in 1 rfl n).trans (h0.A V c 1)

theorem W1_v0_0 (c : Dev nD) : V1 m dat0 c main_v0_0 = (dat0 (V0 m) c).arrAt 2 cfg0.N := by
  unfold V1 W1
  rw [Function.update_of_ne (StableHlo.devRef_ne_of_ne (by decide : main_v0_0 ≠ main_v0_1))]
  exact Function.update_self (Proc.devRef (τ := τ) .tc main_v0_0) _ (W0 m c)
theorem W1_v0_1 (c : Dev nD) : V1 m dat0 c main_v0_1 = (dat0 (V0 m) c).arrAt 3 cfg0.N := by
  unfold V1 W1
  exact Function.update_self (Proc.devRef (τ := τ) .tc main_v0_1) _ _
theorem W1_of_ne (c : Dev nD) (b : Ref sig .tc) (h2 : b ≠ main_v0_0) (h3 : b ≠ main_v0_1) : V1 m dat0 c b = V0 m c b := by
  unfold V1 W1
  rw [Function.update_of_ne (StableHlo.devRef_ne_of_ne h3), Function.update_of_ne (StableHlo.devRef_ne_of_ne h2)]

set_option backward.isDefEq.respectTransparency.types false in
/-- REGION 0 over the thread state: entered from every unscoped buffer at the launch contents, left with its two
    output arrays at what the write-backs leave. The matrix both input windows read is one buffer: its full share is
    split into the two halves the windows hold, and joined again at the exit, where both windows still hold the
    contents they were entered with. -/
def reg0 : Pipeline.RegionSeg (pcfgs (F := F)) adm (pdats m dat0 dat1) () defs₀ 𝒱₀ L lv 0 where
  win := winFacts₀0
  block_pos := block_pos0
  stage_whole := stage_whole0
  K := PEmpty
  osem k := k.elim
  ho := Pipeline.OwnSemFacts.none _
  hbody c := (h0.body (V0 m) c).loose
  hwaits := Pipeline.hwaits_of_owed_zero _ _ _ _ L lv 0 fun c t => h0.owed _ c t
  pre c := iprop(StableHlo.held (c : Thread nD τ) (Pipeline.ucRefs τ sig) (W0 m c) ∗ R c)
  post c := iprop(StableHlo.held (c : Thread nD τ) (Pipeline.ucRefs τ sig) (W1 m dat0 c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m c)
  hentry c := by
    rw [Pipeline.ownSems0_none]
    have hs : (StableHlo.held (c : Thread nD τ) (Pipeline.ucRefs τ sig) (W0 m c) : sProp 𝕄)
        = iprop(Pipeline.arrBufs (Ix := Unit) (Name := ℕ) (U := Pipeline.UD sig nD τ) (Lvl := ℕ) spec0 c (V0 m c) ∗ Pipeline.unscopedRest (Ix := Unit) (Name := ℕ) (U := Pipeline.UD sig nD τ) (Lvl := ℕ) spec0 c (V0 m c)) :=
      (Pipeline.unscopedBufs_held c (W0 m c)).symm.trans
        (Pipeline.unscopedBufs_split₀ (Ix := Unit) (Name := ℕ) (U := Pipeline.UD sig nD τ) (Lvl := ℕ) (Val := Elt F) cfgs 0 winFacts₀0.arr_unscoped c (V0 m c))
    rw [arrBufs0_eq] at hs
    have ha := arrays0_eq dat0 h0 (V0 m) c (fun w => (dat0 (V0 m) c).arrAt w 0)
    beta_reduce at ha
    rw [arrAt0_in0 dat0 h0, arrAt0_in1 dat0 h0, show (dat0 (V0 m) c).arrAt 2 0 = V0 m c main_v0_0 from h0.A _ c 2,
      show (dat0 (V0 m) c).arrAt 3 0 = V0 m c main_v0_1 from h0.A _ c 3] at ha
    iintro ⟨⟨Hub, Hp, HO⟩, -, -⟩
    ihave H := (Entails.of_eq hs) $$ Hub
    icases H with ⟨⟨H1, H2, H3⟩, Hrest⟩
    ihave H1' := (pointsTo_share (PosShare.mem_left_op_right fullShare)).1 $$ H1
    icases H1' with ⟨H1l, H1r⟩
    imodintro
    isplitl [H1l H1r H2 H3]
    · iapply (Entails.of_eq ha.symm)
      isplitl [H1l]; · iexact H1l
      isplitl [H1r]; · iexact H1r
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      rw [show (pdats m dat0 dat1 0 c).owed 0 = 0 from h0.owed _ c 0]
      icases HO with ⟨%W, HO⟩; iexists W; isplitr
      · ipureintro; exact fun _ _ => Or.inl (by rw [show (pdats m dat0 dat1 0 c).recorded 0 = Set.univ from h0.recorded _ c 0]; exact Set.mem_univ _)
      iexact HO
    isplitl [Hp]; · iexact Hp
    iexact Hrest
  hin c := by
    rw [show (pdats m dat0 dat1 0 c).Φ 0 = (dat0 (V0 m) c).Φ 0 from rfl]
    iintro ⟨Hp, -, Hr⟩
    iapply (h0.hin (V0 m) c)
    isplitl [Hp]; · iexact Hp
    iexact Hr
  hout c := by
    rw [Pipeline.ownSems0_none, show (pdats m dat0 dat1 0 c).Φ (Fin.last _) = (dat0 (V0 m) c).Φ (Fin.last cfg0.N) from rfl]
    iintro H
    ihave H' := (h0.hout (V0 m) c) $$ H
    icases H' with ⟨Hr, Hp⟩
    isplitl [Hr]; · iexact Hr
    isplitr; · iempintro
    iexact Hp
  hexit c := by
    have hs : (StableHlo.held (c : Thread nD τ) (Pipeline.ucRefs τ sig) (W1 m dat0 c) : sProp 𝕄)
        = iprop(Pipeline.arrBufs (Ix := Unit) (Name := ℕ) (U := Pipeline.UD sig nD τ) (Lvl := ℕ) spec0 c (V1 m dat0 c) ∗ Pipeline.unscopedRest (Ix := Unit) (Name := ℕ) (U := Pipeline.UD sig nD τ) (Lvl := ℕ) spec0 c (V1 m dat0 c)) :=
      (Pipeline.unscopedBufs_held c (W1 m dat0 c)).symm.trans
        (Pipeline.unscopedBufs_split₀ (Ix := Unit) (Name := ℕ) (U := Pipeline.UD sig nD τ) (Lvl := ℕ) (Val := Elt F) cfgs 0 winFacts₀0.arr_unscoped c (V1 m dat0 c))
    have hrest : (Pipeline.unscopedRest (Ix := Unit) (Name := ℕ) (U := Pipeline.UD sig nD τ) (Lvl := ℕ) spec0 c (V1 m dat0 c) : sProp 𝕄)
        = Pipeline.unscopedRest (Ix := Unit) (Name := ℕ) (U := Pipeline.UD sig nD τ) (Lvl := ℕ) spec0 c (V0 m c) := by
      unfold Pipeline.unscopedRest
      exact bigSep_congr fun b hb => by
        rw [W1_of_ne m dat0 c b (fun e => (Finset.mem_sdiff.mp hb).2 (Finset.mem_image.mpr ⟨2, Finset.mem_univ _, e.symm⟩))
          (fun e => (Finset.mem_sdiff.mp hb).2 (Finset.mem_image.mpr ⟨3, Finset.mem_univ _, e.symm⟩))]
    rw [arrBufs0_eq, W1_of_ne m dat0 c main_arg1 (by decide) (by decide), W1_v0_0, W1_v0_1, hrest] at hs
    have ha := arrays0_eq dat0 h0 (V0 m) c (fun w => (dat0 (V0 m) c).arrAt w cfg0.N)
    beta_reduce at ha
    rw [arrAt0_in0 dat0 h0, arrAt0_in1 dat0 h0] at ha
    show iprop((dat0 (V0 m) c).arrays (fun w => (dat0 (V0 m) c).arrAt w cfg0.N) ∗ _) ⊢ _
    iintro ⟨Ha, HO, HY, Hrest⟩
    ihave Ha' := (Entails.of_eq ha) $$ Ha
    icases Ha' with ⟨A0, A1, A2, A3⟩
    ihave A01 := (pointsTo_share (PosShare.mem_left_op_right fullShare)).2 $$ [A0 A1]
    · isplitl [A0]; · iexact A0
      iexact A1
    imodintro
    isplitl [A01 A2 A3 Hrest]
    · iapply (Entails.of_eq hs.symm)
      isplitl [A01 A2 A3]
      · isplitl [A01]; · iexact A01
        isplitl [A2]; · iexact A2
        iexact A3
      iexact Hrest
    isplitl [HY]; · iexact HY
    unfold Pipeline.Dat.owesAt Pipeline.owesWithin
    rw [show (pdats m dat0 dat1 0 c).owed (Fin.last _) = 0 from h0.owed _ c _]
    icases HO with ⟨%W, -, HO⟩; iexists W; iexact HO

/-! ## @main as its four items, and the launch -/

/-- @main's four items in order. -/
abbrev segs : List (Pipeline.Seg (pcfgs (F := F)) adm (pdats m dat0 dat1) () defs₀ 𝒱₀ L lv) :=
  [ .region (reg0 m dat0 dat1 h0),
    .host (hseg hostOps1 hostOps1_sub hostOps1_fresh (W1 m dat0)),
    .region (reg1 m dat0 dat1 h1),
    .host (hseg hostOps2 hostOps2_sub hostOps2_fresh (W3 m dat0 dat1)) ]

/-- No item writes an argument: each reaches the end as launched. -/
theorem W4_arg (c : Dev nD) (b : Ref sig .tc) (hb2 : b ∉ hostOps2_W) (hb1 : b ∉ hostOps1_W)
    (h3 : b ≠ main_v3) (h00 : b ≠ main_v0_0) (h01 : b ≠ main_v0_1) :
    W4 m dat0 dat1 c (Proc.devRef .tc b) = m ((c : Thread nD τ).loc b) := by
  unfold W4
  rw [StableHlo.after_of_writes_sub hostOps2 _ hostOps2_writes hb2]
  unfold W3
  rw [Function.update_of_ne (StableHlo.devRef_ne_of_ne h3)]
  unfold W2
  rw [StableHlo.after_of_writes_sub hostOps1 _ hostOps1_writes hb1]
  exact W1_of_ne m dat0 c b h00 h01

include h0 h1 in
set_option backward.isDefEq.respectTransparency.types false in
/-- THE RUN. From any memory with zero counters every weakly fair execution of @main terminates, nothing
    faulting, and in every final state the result buffer holds the last fold's contents and the two argument
    arrays what they held at launch. -/
theorem run_main : θ_run defs (onTc (τ := τ) (main (F := F))) ⟨m, fun _ => 0, ρ⟩ (fun r => ∀ c : Dev nD,
      r.2.mem ((c.tc : Thread nD τ).loc main_v8) = W4 m dat0 dat1 c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_dev (pcfgs (F := F)) adm (pdats m dat0 dat1) () cellOf_inj embL defs₀ 𝒱₀ L lv m ρ main
    (fun _ => segs m dat0 dat1 h0 h1)
    (fun c Q => by
      rewrite [main_chain c, Pipeline.Seg.run_eq_chain,
        show (segs m dat0 dat1 h0 h1).map Pipeline.Seg.prog = [
          Prog.lift (.customCall (Pipeline.entry 0) ()),
          StableHlo.seq hostOps1,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W4 m dat0 dat1 c))
    (hch := fun c => ⟨.rfl, .rfl, .rfl, .rfl, sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m dat0 dat1 c b)
    (hfin := fun c s' => by
      iintro ⟨Hh, HSI⟩
      unfold StableHlo.held
      imodintro
      iapply (pointsTo_read_all (Pipeline.ucRefs τ sig) (fun b => (((c : Thread nD τ)).1, b)) (W4 m dat0 dat1 c) s')
      isplitl [Hh] <;> iassumption)
    (hQ := fun s h c =>
      ⟨h c _ (mem_uc main_v8 (by decide)),
       (h c _ (mem_uc main_arg0 (by decide))).trans (W4_arg m dat0 dat1 c main_arg0 (by decide) (by decide) (by decide) (by decide) (by decide)),
       (h c _ (mem_uc main_arg1 (by decide))).trans (W4_arg m dat0 dat1 c main_arg1 (by decide) (by decide) (by decide) (by decide) (by decide))⟩)

end Cert.KernelIdeal.Run

end
-- ==== Proof.KI.Reg1.lean ====
/- Region 1 of @main (custom_call 1, the quadratic-form kernel on a grid of 8 row blocks), at any float
   model: each window's block at a grid point, the contents the body leaves in the output window's buffer as a
   function of the two input blocks, the body's triple, the pipeline's proof data over the class-A invariant
   and its body obligation. Everything is stated at a parameter V: the TensorCore's buffer contents when the
   region is entered. -/
import proofs.«157913_j57896159150306_2_alg».proof.Proof.Gen.KernelIdeal.Launch
import proofs.«157913_j57896159150306_2_alg».proof.Proof.Gen.KernelIdeal.Skeleton
import proofs.«157913_j57896159150306_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the row block of x) holds its block at every point, fetched there or not, for any proof data
    whose array is V's and whose body leaves the block in place: where it is not fetched its block index has not
    moved; the window is uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the whole mask matrix, fetched at the first point only) likewise: its block index is
    constant, so the buffer keeps the block it was given at the first point. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x2048 := Rect.unit (s := S512x2048) ![0, 0] S512x2048.size inb_S512x2048_S512x2048_0_0
abbrev r1_1 : Rect S2048x2048 := Rect.unit (s := S2048x2048) ![0, 0] S2048x2048.size inb_S2048x2048_S2048x2048_0_0
abbrev r1_2 : Rect S512x1 := Rect.unit (s := S512x1) ![0, 0] S512x1.size inb_S512x1_S512x1_0_0

/-! ## What the body leaves in the output window's buffer -/

/-- Window 2's staging buffer after the body, from the input windows' blocks: its one store, of the payload of
    the two whole loads. -/
def out1_2 (x0 : Vec F S512x2048 .f32) (x1 : Vec F S2048x2048 .bf16) : Vec F S512x1 .f32 :=
  View.canon [⟨r1_2, k1_pay1 (View.ld x0 r1_0) (View.ld x1 r1_1)⟩]

/-- The one store covers the buffer. -/
theorem cover1_2 (p0 : Vec F S512x1 .f32) (y : S512x1.Idx) :
    ∃ pc ∈ ([⟨r1_2, p0⟩] : List (View.Piece (Elt F) S512x1 .f32)), y ∈ pc.1.set :=
  View.cover_of_tiled [⟨r1_2, p0⟩] S512x1.size (by rfl) y

/-! ## The body's triple -/

set_option maxHeartbeats 1000000 in
/-- The kernel body on whole staging memrefs, the inputs' at read contents and the output's at anything, runs to
    the continuation holding the inputs' as they were and the output's at out1_2 of the inputs'. -/
theorem sound_kernel1 (c : Dev nD) (E : Set ℕ) (i : grid1.Coords) (arg1 : Memref sig .tc .vmem S512x2048 .f32) (harg1 : arg1.IsWhole) (arg2 : Memref sig .tc .vmem S2048x2048 .bf16) (harg2 : arg2.IsWhole) (arg3 : Memref sig .tc .vmem S512x1 .f32) (harg3 : arg3.IsWhole)
    (x0 : Vec F S512x2048 .f32) (x1 : Vec F S2048x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__ddi_kernel i arg1 harg1 arg2 harg2 arg3 harg3) K := by
  simp only [cc1__ddi_kernel_eq_skeleton]; unfold cc1__ddi_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core c: the arrays as the region finds them; after the body at point t each
    input's buffer at its block and the output's at out1_2 of the input blocks; the class-A invariant; nothing
    owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's owed waits pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand1

end
-- ==== Proof.KI.Reg0.lean ====
import proofs.«157913_j57896159150306_2_alg».proof.Proof.Gen.KernelIdeal.Launch
import proofs.«157913_j57896159150306_2_alg».proof.Proof.Gen.KernelIdeal.Skeleton
import proofs.«157913_j57896159150306_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
-- the TensorCore's buffer contents when the region is entered
variable (V : (c : Dev nD) → (b : Ref sig .tc) → Buf (Elt F) ((c : Thread nD τ).loc b))

/-! # Region 0: the 8×8 sweep that builds the strict-upper-triangular mask and its sum -/

/-! ## The windows' blocks, the tile a point stores, the running sum -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The mask tile point `t` stores into window 2: from block (i, j) of the matrix and block (j, i). -/
def tile0 (c : Dev nD) (t : Fin cfg0.N) : Vec F S256x256 .bf16 :=
  k0_pay4 (grid0.coords t) (iblk0 V c 0 t) (iblk0 V c 1 t)

/-- The scratch accumulator after the first `n` points: zero, then each point adds its tile's sum. (Past the
    grid it stays put.) -/
def acc0 (c : Dev nD) : Nat → Vec F S1x1 .f32
  | 0 => k0_pay2
  | n + 1 =>
    if h : n < cfg0.N then
      k0_pay1 (k0_pay5 (grid0.coords ⟨n, h⟩) (iblk0 V c 0 ⟨n, h⟩) (iblk0 V c 1 ⟨n, h⟩) (acc0 c n))
    else acc0 c n

theorem acc0_zero (c : Dev nD) : acc0 V c 0 = k0_pay2 := rfl

/-- One more point: the accumulator plus that point's tile sum. -/
theorem acc0_succ' (c : Dev nD) (n : Nat) (h : n < cfg0.N) :
    acc0 V c (n + 1) = k0_pay1 (k0_pay5 (grid0.coords ⟨n, h⟩) (iblk0 V c 0 ⟨n, h⟩) (iblk0 V c 1 ⟨n, h⟩) (acc0 V c n)) := by
  rw [acc0, dif_pos h]

theorem zero_lt_N0 : 0 < cfg0.N := lt_of_lt_of_eq (by decide : (0 : ℕ) < 64) N_0.symm

/-- After the first point: zero plus the first tile's sum. -/
theorem acc0_succ_first (c : Dev nD) :
    acc0 V c 1 = k0_pay1 (k0_pay5 (grid0.coords ⟨0, zero_lt_N0⟩) (iblk0 V c 0 ⟨0, zero_lt_N0⟩) (iblk0 V c 1 ⟨0, zero_lt_N0⟩) k0_pay2) :=
  acc0_succ' V c 0 _

/-- After a later point. -/
theorem acc0_succ (c : Dev nD) (n : Nat) (hn : 0 < n) (h : n < 64) :
    acc0 V c (n + 1) = k0_pay1 (k0_pay5 (grid0.coords ⟨n, lt_of_lt_of_eq h N_0.symm⟩) (iblk0 V c 0 ⟨n, lt_of_lt_of_eq h N_0.symm⟩) (iblk0 V c 1 ⟨n, lt_of_lt_of_eq h N_0.symm⟩) (acc0 V c n)) :=
  acc0_succ' V c n _

/-! ## The invariant between points -/

/-- The scratch accumulator, a whole scoped buffer of the kernel's own. -/
abbrev scM0 : Memref sig .tc .vmem S1x1 .f32 := Memref.whole cc0_scratch0

/-- The scoped buffers that region 0 neither stages nor uses: each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The invariant before position `n`: the unused scoped buffers and the generator register at anything; the
    accumulator at anything before the first point, afterwards at the running sum. -/
def PhiAt0 (c : Dev nD) : Nat → sProp 𝕄
  | 0 => iprop(rest0 (F := F) c ∗ (∃ r, prngReg c r) ∗ (∃ d, owns (c : Thread nD τ) scM0 fullShare d))
  | n + 1 => iprop(rest0 (F := F) c ∗ (∃ r, prngReg c r) ∗ owns (c : Thread nD τ) scM0 fullShare (acc0 V c (n + 1)))

theorem PhiAt0_zero (c : Dev nD) :
    PhiAt0 V c 0 = iprop(rest0 (F := F) c ∗ (∃ r, prngReg c r) ∗ (∃ d, owns (c : Thread nD τ) scM0 fullShare d)) := rfl

theorem PhiAt0_succ (c : Dev nD) (n : Nat) :
    PhiAt0 V c (n + 1) = iprop(rest0 (F := F) c ∗ (∃ r, prngReg c r) ∗ owns (c : Thread nD τ) scM0 fullShare (acc0 V c (n + 1))) := rfl

theorem PhiAt0_pos (c : Dev nD) (n : Nat) (hn : n ≠ 0) :
    PhiAt0 V c n = iprop(rest0 (F := F) c ∗ (∃ r, prngReg c r) ∗ owns (c : Thread nD τ) scM0 fullShare (acc0 V c n)) := by
  cases n with
  | zero => exact absurd rfl hn
  | succ n => rfl

/-! ## The proof data -/

/-- Pipeline 0's proof data on core `c`: the arrays as the region finds them; after the body each input's buffer
    at its block, window 2's at the point's tile, window 3's (consulted at the last point only) at the running sum;
    the matrix is held in halves by the two input windows. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => tile0 V c t
    | ⟨3, _⟩ => acc0 V c (t.val + 1)
  Φ t := PhiAt0 V c t.val
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]

theorem q0_0 (c : Dev nD) : (dat0 V c).q 0 = fullShare.left := by dsimp only [dat0]
theorem q0_1 (c : Dev nD) : (dat0 V c).q 1 = fullShare.right := by dsimp only [dat0]
theorem q0_2 (c : Dev nD) : (dat0 V c).q 2 = fullShare := by dsimp only [dat0]
theorem q0_3 (c : Dev nD) : (dat0 V c).q 3 = fullShare := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = tile0 V c t := by dsimp only [dat0]
theorem after0_3 (c : Dev nD) (t : Fin cfg0.N) : (dat0 V c).after 3 t = acc0 V c (t.val + 1) := by dsimp only [dat0]

theorem Phi0_eq (c : Dev nD) (t : Fin (cfg0.N + 1)) : (dat0 V c).Φ t = PhiAt0 V c t.val := by dsimp only [dat0]

/-- Each input's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## Entering and leaving the region -/

/-- What the launch hands the region is the invariant before the first point. -/
theorem hin0 (c : Dev nD) :
    iprop((∃ r, prngReg c r) ∗ Pipeline.scopedRest (Ix := Unit) (Name := ℕ) (U := Pipeline.UD sig nD τ) (Lvl := ℕ) (Val := Elt F) spec0 c) ⊢ (dat0 V c).Φ 0 := by
  rw [Phi0_eq, show ((0 : Fin (cfg0.N + 1)).val) = 0 from rfl, PhiAt0_zero, scopedRest0_eq]
  unfold rest0; simp only [scM0, owns_whole]
  iintro ⟨Hg, HS, H1, H2, H3, H4, H5⟩
  isplitl [H1 H2 H3 H4 H5]
  · isplitl [H1]; · iexact H1
    isplitl [H2]; · iexact H2
    isplitl [H3]; · iexact H3
    isplitl [H4]; · iexact H4
    iexact H5
  isplitl [Hg]; · iexact Hg
  iexact HS

/-- After the last point the invariant gives back what the launch handed over: the sum in the accumulator is forgotten. -/
theorem hout0 (c : Dev nD) :
    (dat0 V c).Φ (Fin.last cfg0.N) ⊢ iprop((∃ r, prngReg c r) ∗ Pipeline.scopedRest (Ix := Unit) (Name := ℕ) (U := Pipeline.UD sig nD τ) (Lvl := ℕ) (Val := Elt F) spec0 c) := by
  rw [Phi0_eq, PhiAt0_pos V c _ (by rw [Fin.val_last]; have : cfg0.N = 64 := N_0; omega), scopedRest0_eq]
  unfold rest0; simp only [scM0, owns_whole]
  iintro ⟨⟨H1, H2, H3, H4, H5⟩, Hg, HS⟩
  isplitl [Hg]; · iexact Hg
  isplitl [HS]; · iexists _; iexact HS
  isplitl [H1]; · iexact H1
  isplitl [H2]; · iexact H2
  isplitl [H3]; · iexact H3
  isplitl [H4]; · iexact H4
  iexact H5

end Region0

end Cert.KernelIdeal.Hand0

end
-- ==== Proof.KI.Reg0Run.lean ====
import proofs.«157913_j57896159150306_2_alg».proof.Proof.Gen.KernelIdeal.Launch
import proofs.«157913_j57896159150306_2_alg».proof.Proof.Gen.KernelIdeal.Skeleton
import proofs.«157913_j57896159150306_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two tests, in closed form over the grid -/

/-- The first-point test of the body (both coordinates zero), from the grid coordinates. -/
abbrev cond0_1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- It holds at the first point only. -/
theorem hcond0_1 : ∀ t : Fin cfg0.N, cond0_1 (grid0.coords t) ↔ t.val = 0 :=
  (by decide +kernel : ∀ t : Fin grid0.N, cond0_1 (grid0.coords t) ↔ t.val = 0)
/-- The last-point test (both coordinates 7) holds at the last point only. -/
theorem hcond0_2 : ∀ t : Fin cfg0.N, k0_cond2 (grid0.coords t) = 1#1 ↔ t.val = 63 :=
  (by decide +kernel : ∀ t : Fin grid0.N, k0_cond2 (grid0.coords t) = 1#1 ↔ t.val = 63)

/-! ## Whole-shape stores and loads -/

theorem hz2 : (![0, 0] : Fin 2 → Nat) = fun _ => 0 := by funext a; fin_cases a <;> rfl

/-- A store through the whole shape, made last, leaves its payload, whatever was stored before. -/
theorem read_writes_cons_unit {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-- A load through the whole shape of a whole memref held at contents reading `X` reads `X`. -/
theorem ld_unread {sp : Space} {S : Shape} {e : EltTy} {m : Memref sig .tc sp S e} (hm : m.IsWhole) (X : S.Idx → Elt F e)
    {off : Fin S.rank → Nat} (h : off = fun _ => 0) (inb : ∀ a, off a + S.size a ≤ S.size a) :
    View.readAt (Elt F) m.view (Rect.unit off S.size inb).toLoadRect (hm.unread X) = X := by
  rw [View.readAt_eq_ld, hm.read_unread, View.ld_unit_zero h]

/-! ## The body on whole staging memrefs, case by case -/

set_option maxHeartbeats 1000000 in
/-- A middle point: the tile is stored into window 2's buffer, the accumulator goes from `s` to `s` plus the tile's
    sum; window 3's buffer is left as found. -/
theorem run_mid (c : Dev nD) (E : Set ℕ) (i : grid0.Coords) (arg2 : Memref sig .tc .vmem S256x256 .f32) (harg2 : arg2.IsWhole) (arg3 : Memref sig .tc .vmem S256x256 .f32) (harg3 : arg3.IsWhole) (arg4 : Memref sig .tc .vmem S256x256 .bf16) (harg4 : arg4.IsWhole) (arg5 : Memref sig .tc .vmem S1x1 .f32) (harg5 : arg5.IsWhole) (arg6 : Memref sig .tc .vmem S1x1 .f32) (harg6 : arg6.IsWhole)
    (hc1 : ¬cond0_1 i) (hc2 : ¬k0_cond2 i = 1#1)
    (a b : Vec F S256x256 .f32) (d3 s : Vec F S1x1 .f32) (K : PUnit → sProp 𝕄) :
    iprop(owns (c : Thread nD τ) arg2 fullShare a ∗ owns (c : Thread nD τ) arg3 fullShare b ∗ (∃ d, owns (c : Thread nD τ) arg4 fullShare d)
        ∗ owns (c : Thread nD τ) arg5 fullShare d3 ∗ owns (c : Thread nD τ) arg6 fullShare s
        ∗ (iprop(owns (c : Thread nD τ) arg2 fullShare a ∗ owns (c : Thread nD τ) arg3 fullShare b ∗ owns (c : Thread nD τ) arg4 fullShare (k0_pay4 i a b)
            ∗ owns (c : Thread nD τ) arg5 fullShare d3 ∗ owns (c : Thread nD τ) arg6 fullShare (k0_pay1 (k0_pay5 i a b s))) -∗ K ⟨⟩))
      ⊢ wp frame (wpE (defs₀ (F := F)) Variants.none c none) E (cc0__preprocess_kernel i arg2 harg2 arg3 harg3 arg4 harg4 arg5 harg5 arg6 harg6) K := by
  simp only [cc0__preprocess_kernel_eq_skeleton]; unfold cc0__preprocess_kernel_skel
  simp only [k0_part1_eq_skeleton]; unfold k0_part1_skel
  unfold owns
  iintro ⟨⟨%f0, %hf0, H0⟩, ⟨%f1, %hf1, H1⟩, ⟨%d2, %f2, -, H2⟩, ⟨%f3, %hf3, H3⟩, ⟨%fs, %hfs, HS⟩, Hk⟩
  obtain rfl := harg2.eq_unread hf0; obtain rfl := harg3.eq_unread hf1; obtain rfl := harg5.eq_unread hf3; obtain rfl := harg6.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [read_writes_cons_unit _ _ hz2, ld_unread harg2 _ hz2, ld_unread harg3 _ hz2]

  isplitl [H3]
  · iexists _; isplitr; · ipureintro; exact harg5.read_unread _
    iexact H3
  iexists _; isplitr; swap; · iexact HS
  ipureintro
  rw [read_writes_cons_unit _ _ hz2]; dsimp only
  rw [ld_unread harg2 _ hz2, ld_unread harg3 _ hz2, ld_unread harg6 _ hz2]

end Cert.KernelIdeal.Hand0

end
-- ==== Proof.KI.Reg0RunF.lean ====
import proofs.«157913_j57896159150306_2_alg».proof.Proof.Gen.KernelIdeal.Launch
import proofs.«157913_j57896159150306_2_alg».proof.Proof.Gen.KernelIdeal.Skeleton
import proofs.«157913_j57896159150306_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«157913_j57896159150306_2_alg».proof.Proof.KI.Reg0Run

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The first point: the accumulator is zeroed first, whatever it held; then as at a middle point. -/
theorem run_first (c : Dev nD) (E : Set ℕ) (i : grid0.Coords) (arg2 : Memref sig .tc .vmem S256x256 .f32) (harg2 : arg2.IsWhole) (arg3 : Memref sig .tc .vmem S256x256 .f32) (harg3 : arg3.IsWhole) (arg4 : Memref sig .tc .vmem S256x256 .bf16) (harg4 : arg4.IsWhole) (arg5 : Memref sig .tc .vmem S1x1 .f32) (harg5 : arg5.IsWhole) (arg6 : Memref sig .tc .vmem S1x1 .f32) (harg6 : arg6.IsWhole)
    (hc1 : cond0_1 i) (hc2 : ¬k0_cond2 i = 1#1)
    (a b : Vec F S256x256 .f32) (d3 : Vec F S1x1 .f32) (K : PUnit → sProp 𝕄) :
    iprop(owns (c : Thread nD τ) arg2 fullShare a ∗ owns (c : Thread nD τ) arg3 fullShare b ∗ (∃ d, owns (c : Thread nD τ) arg4 fullShare d)
        ∗ owns (c : Thread nD τ) arg5 fullShare d3 ∗ (∃ d, owns (c : Thread nD τ) arg6 fullShare d)
        ∗ (iprop(owns (c : Thread nD τ) arg2 fullShare a ∗ owns (c : Thread nD τ) arg3 fullShare b ∗ owns (c : Thread nD τ) arg4 fullShare (k0_pay4 i a b)
            ∗ owns (c : Thread nD τ) arg5 fullShare d3 ∗ owns (c : Thread nD τ) arg6 fullShare (k0_pay1 (k0_pay5 i a b k0_pay2))) -∗ K ⟨⟩))
      ⊢ wp frame (wpE (defs₀ (F := F)) Variants.none c none) E (cc0__preprocess_kernel i arg2 harg2 arg3 harg3 arg4 harg4 arg5 harg5 arg6 harg6) K := by
  simp only [cc0__preprocess_kernel_eq_skeleton]; unfold cc0__preprocess_kernel_skel
  simp only [k0_part1_eq_skeleton]; unfold k0_part1_skel
  unfold owns
  iintro ⟨⟨%f0, %hf0, H0⟩, ⟨%f1, %hf1, H1⟩, ⟨%d2, %f2, -, H2⟩, ⟨%f3, %hf3, H3⟩, ⟨%ds, %fs, -, HS⟩, Hk⟩
  obtain rfl := harg2.eq_unread hf0; obtain rfl := harg3.eq_unread hf1; obtain rfl := harg5.eq_unread hf3
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [read_writes_cons_unit _ _ hz2, ld_unread harg2 _ hz2, ld_unread harg3 _ hz2]

  isplitl [H3]
  · iexists _; isplitr; · ipureintro; exact harg5.read_unread _
    iexact H3
  iexists _; isplitr; swap; · iexact HS
  ipureintro
  rw [read_writes_cons_unit _ _ hz2]; dsimp only
  rw [ld_unread harg2 _ hz2, ld_unread harg3 _ hz2]
  sl_unfold_words
  rw [View.readCov_unit_zero _ hz2]

end Cert.KernelIdeal.Hand0

end
-- ==== Proof.KI.Reg0RunL.lean ====
import proofs.«157913_j57896159150306_2_alg».proof.Proof.Gen.KernelIdeal.Launch
import proofs.«157913_j57896159150306_2_alg».proof.Proof.Gen.KernelIdeal.Skeleton
import proofs.«157913_j57896159150306_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«157913_j57896159150306_2_alg».proof.Proof.KI.Reg0RunF

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- The last point: as at a middle point, and then the accumulator is copied into window 3's buffer. -/
theorem run_last (c : Dev nD) (E : Set ℕ) (i : grid0.Coords) (arg2 : Memref sig .tc .vmem S256x256 .f32) (harg2 : arg2.IsWhole) (arg3 : Memref sig .tc .vmem S256x256 .f32) (harg3 : arg3.IsWhole) (arg4 : Memref sig .tc .vmem S256x256 .bf16) (harg4 : arg4.IsWhole) (arg5 : Memref sig .tc .vmem S1x1 .f32) (harg5 : arg5.IsWhole) (arg6 : Memref sig .tc .vmem S1x1 .f32) (harg6 : arg6.IsWhole)
    (hc1 : ¬cond0_1 i) (hc2 : k0_cond2 i = 1#1)
    (a b : Vec F S256x256 .f32) (s : Vec F S1x1 .f32) (K : PUnit → sProp 𝕄) :
    iprop(owns (c : Thread nD τ) arg2 fullShare a ∗ owns (c : Thread nD τ) arg3 fullShare b ∗ (∃ d, owns (c : Thread nD τ) arg4 fullShare d)
        ∗ (∃ d, owns (c : Thread nD τ) arg5 fullShare d) ∗ owns (c : Thread nD τ) arg6 fullShare s
        ∗ (iprop(owns (c : Thread nD τ) arg2 fullShare a ∗ owns (c : Thread nD τ) arg3 fullShare b ∗ owns (c : Thread nD τ) arg4 fullShare (k0_pay4 i a b)
            ∗ owns (c : Thread nD τ) arg5 fullShare (k0_pay1 (k0_pay5 i a b s)) ∗ owns (c : Thread nD τ) arg6 fullShare (k0_pay1 (k0_pay5 i a b s))) -∗ K ⟨⟩))
      ⊢ wp frame (wpE (defs₀ (F := F)) Variants.none c none) E (cc0__preprocess_kernel i arg2 harg2 arg3 harg3 arg4 harg4 arg5 harg5 arg6 harg6) K := by
  simp only [cc0__preprocess_kernel_eq_skeleton]; unfold cc0__preprocess_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%fs, %hfs, HS⟩, Hk⟩
  obtain rfl := harg2.eq_unread hf0; obtain rfl := harg3.eq_unread hf1; obtain rfl := harg6.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [read_writes_cons_unit _ _ hz2, ld_unread harg2 _ hz2, ld_unread harg3 _ hz2]

  isplitl [H3]
  · iexists _; isplitr; swap; · iexact H3
    ipureintro
    rw [read_writes_cons_unit _ _ hz2]
    sl_unfold_words
    rw [View.readCov_unit_zero _ hz2]; dsimp only
    rw [ld_unread harg2 _ hz2, ld_unread harg3 _ hz2, ld_unread harg6 _ hz2]
  iexists _; isplitr; swap; · iexact HS
  ipureintro
  sl_unfold_words
  rw [read_writes_cons_unit _ _ hz2]; dsimp only
  rw [ld_unread harg2 _ hz2, ld_unread harg3 _ hz2, ld_unread harg6 _ hz2]

end Cert.KernelIdeal.Hand0

end
-- ==== Proof.KI.Reg0Body.lean ====
import proofs.«157913_j57896159150306_2_alg».proof.Proof.Gen.KernelIdeal.Launch
import proofs.«157913_j57896159150306_2_alg».proof.Proof.Gen.KernelIdeal.Skeleton
import proofs.«157913_j57896159150306_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«157913_j57896159150306_2_alg».proof.Proof.KI.Reg0
import proofs.«157913_j57896159150306_2_alg».proof.Proof.KI.Reg0RunL

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

/-! ## Nothing is owed, every recorded pair is allowed -/

theorem owed0 (c : Dev nD) (t : Fin (cfg0.N + 1)) : (dat0 V c).owed t = 0 := by dsimp only [dat0]
theorem recorded0 (c : Dev nD) (t : Fin (cfg0.N + 1)) : (dat0 V c).recorded t = Set.univ := by dsimp only [dat0]

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Window 3 is stored into at the last point only: elsewhere it is idle and not written back. -/
theorem idleAt0_3 : ∀ t : Fin cfg0.N, ¬k0_cond2 (grid0.coords t) = 1#1 → cfg0.idle 3 (grid0.coords t) = true := by decide +kernel
theorem noFlush0_3 : ∀ t : Fin cfg0.N, ¬k0_cond2 (grid0.coords t) = 1#1 → (cfg0.win 3).flush t = false := by decide +kernel
theorem liveAt0_3 : ∀ t : Fin cfg0.N, k0_cond2 (grid0.coords t) = 1#1 → cfg0.idle 3 (grid0.coords t) = false := by decide +kernel

/-! ## The staging memrefs at a point, as the pipeline passes them -/

abbrev ms0_0 (t : Fin cfg0.N) : Memref sig .tc .vmem S256x256 .f32 := win0_0.stage (cfg0.slots t 0)
abbrev ms0_1 (t : Fin cfg0.N) : Memref sig .tc .vmem S256x256 .f32 := win0_1.stage (cfg0.slots t 1)
abbrev ms0_2 (t : Fin cfg0.N) : Memref sig .tc .vmem S256x256 .bf16 := win0_2.stage (cfg0.slots t 2)
abbrev ms0_3 (t : Fin cfg0.N) : Memref sig .tc .vmem S1x1 .f32 := win0_3.stage (cfg0.slots t 3)

/-- The running sum after point `t`, from the one before it. -/
theorem acc0_at (c : Dev nD) (t : Fin cfg0.N) :
    acc0 V c (t.val + 1) = k0_pay1 (k0_pay5 (grid0.coords t) (iblk0 V c 0 t) (iblk0 V c 1 t) (acc0 V c t.val)) :=
  acc0_succ' V c t.val t.isLt

theorem PhiAt0_of_zero (c : Dev nD) (n : Nat) (h : n = 0) :
    PhiAt0 V c n = iprop(rest0 (F := F) c ∗ (∃ r, prngReg c r) ∗ (∃ d, owns (c : Thread nD τ) scM0 fullShare d)) := by
  subst h; rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point. The inputs' buffers hold their blocks; the closed forms of the two tests say which of
    the three cases the point is in; the invariant hands over the accumulator at the running sum so far (at anything
    before the first point) and takes it back at the next running sum; window 3's buffer is handed back as found
    except at the last point, where it takes the total. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [Phi0_eq, Phi0_eq, Fin.coe_castSucc, Fin.val_succ, PhiAt0_succ]
  have hN : t.val < 64 := lt_of_lt_of_eq t.isLt N_0
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  unfold tile0
  rw [acc0_at V c t]
  by_cases h2 : t.val = 63
  · have hc1 : ¬cond0_1 (grid0.coords t) := fun h => by have := (hcond0_1 t).mp h; omega
    have hc2 : k0_cond2 (grid0.coords t) = 1#1 := (hcond0_2 t).mpr h2
    rw [show (dat0 V c).leavesExact 3 t = owns (c : Thread nD τ) (ms0_3 t) fullShare ((dat0 V c).after 3 t) from by
      unfold Dat.leavesExact; rw [liveAt0_3 t hc2], after0_3, acc0_at V c t]
    rw [PhiAt0_pos V c t.val (by omega)]
    iintro ⟨⟨HR, Hg, HS⟩, Ho, ⟨%d0, H0⟩, ⟨%d1, H1⟩, ⟨%d2, H2⟩, ⟨%d3, H3⟩⟩
    iapply (run_last c Set.univ (grid0.coords t) _ _ _ _ _ _ _ _ _ _ hc1 hc2 (iblk0 V c 0 t) (iblk0 V c 1 t) (acc0 V c t.val) _)
    isplitl [H0]; · iexact H0
    isplitl [H1]; · iexact H1
    isplitl [H2]; · iexists _; iexact H2
    isplitl [H3]; · iexists _; iexact H3
    isplitl [HS]; · iexact HS
    iintro ⟨H0, H1, H2, H3, HS⟩
    isplitl [HR Hg HS]
    · isplitl [HR]; · iexact HR
      isplitl [Hg]; · iexact Hg
      iexact HS
    isplitl [Ho]; · iexact Ho
    isplitl [H0]; · iexact H0
    isplitl [H1]; · iexact H1
    isplitl [H2]; · iexact H2
    iexact H3
  · have hc2 : ¬k0_cond2 (grid0.coords t) = 1#1 := fun h => h2 ((hcond0_2 t).mp h)
    rw [Dat.leavesExact_idle (dat0 V c) 3 t (idleAt0_3 t hc2) (noFlush0_3 t hc2)]
    by_cases h0 : t.val = 0
    · have hc1 : cond0_1 (grid0.coords t) := (hcond0_1 t).mpr h0
      have hz : acc0 V c t.val = k0_pay2 := by rw [h0]; rfl
      rw [hz, PhiAt0_of_zero V c t.val h0]
      iintro ⟨⟨HR, Hg, HS⟩, Ho, ⟨%d0, H0⟩, ⟨%d1, H1⟩, ⟨%d2, H2⟩, ⟨%d3, H3⟩⟩
      iapply (run_first c Set.univ (grid0.coords t) _ _ _ _ _ _ _ _ _ _ hc1 hc2 (iblk0 V c 0 t) (iblk0 V c 1 t) ((dat0 V c).before 3 t d3) _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HR Hg HS]
      · isplitl [HR]; · iexact HR
        isplitl [Hg]; · iexact Hg
        iexact HS
      isplitl [Ho]; · iexact Ho
      isplitl [H0]; · iexact H0
      isplitl [H1]; · iexact H1
      isplitl [H2]; · iexact H2
      iexists _; iexact H3
    · have hc1 : ¬cond0_1 (grid0.coords t) := fun h => h0 ((hcond0_1 t).mp h)
      rw [PhiAt0_pos V c t.val h0]
      iintro ⟨⟨HR, Hg, HS⟩, Ho, ⟨%d0, H0⟩, ⟨%d1, H1⟩, ⟨%d2, H2⟩, ⟨%d3, H3⟩⟩
      iapply (run_mid c Set.univ (grid0.coords t) _ _ _ _ _ _ _ _ _ _ hc1 hc2 (iblk0 V c 0 t) (iblk0 V c 1 t) ((dat0 V c).before 3 t d3) (acc0 V c t.val) _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HR Hg HS]
      · isplitl [HR]; · iexact HR
        isplitl [Hg]; · iexact Hg
        iexact HS
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand0

end
-- ==== Proof.KI.Main.lean ====
/-
  The two kernels' own halves put into the run: the proof data of both pipelines have the shape the run asks for,
  so every weakly fair execution of the program terminates with the result buffer at the last fold of the buffer
  contents and the argument arrays unchanged; dropping the result gives the frame.
-/
import proofs.«157913_j57896159150306_2_alg».proof.Proof.KI.Run
import proofs.«157913_j57896159150306_2_alg».proof.Proof.KI.Reg1
import proofs.«157913_j57896159150306_2_alg».proof.Proof.KI.Reg0Body

noncomputable section

namespace Cert.KernelIdeal.HandMain

open Cert.KernelIdeal Cert.KernelIdeal.Gen
open Idealize.ShloMosaic Idealize.ShloMosaic.TcCoe Idealize.SL.Sem
open Idealize.ShloMosaic.Pipeline (Dat BodyObligation)

variable {F : FTy → Type} [FloatOps F]

/-- Region 1's proof data has the shape the run asks for. -/
theorem has1 : Run.Has1 (F := F) (fun V c => Hand1.dat1 V c) where
  A := fun V c w => Hand1.A_eq1 V c w
  Φ := fun V c t => rfl
  q := fun V c w => rfl
  owed := fun V c t => rfl
  recorded := fun V c t => rfl
  body := fun V c => Hand1.body_obligation1 V c

/-- Region 0's proof data has the shape the run asks for. -/
theorem has0 : Run.Has0 (F := F) (fun V c => Hand0.dat0 V c) where
  A := fun V c w => Hand0.A_eq0 V c w
  q0 := fun V c => Hand0.q0_0 V c
  q1 := fun V c => Hand0.q0_1 V c
  owed := fun V c t => Hand0.owed0 V c t
  recorded := fun V c t => Hand0.recorded0 V c t
  body := fun V c => Hand0.body_obligation0 V c
  hin := fun V c => Hand0.hin0 V c
  hout := fun V c => Hand0.hout0 V c

variable (m : (ℓ : Loc nD τ sig) → Buf (Elt F) ℓ) (ρ : Dev nD → PrngReg)

/-- THE RUN of the program: it terminates, nothing faulting, the result buffer at the last fold of the buffer
    contents, the argument arrays as launched. -/
theorem run : θ_run defs (onTc (τ := τ) (main (F := F))) ⟨m, fun _ => 0, ρ⟩ (fun r => ∀ c : Dev nD,
      r.2.mem ((c.tc : Thread nD τ).loc main_v8)
        = Run.W4 m (fun V c => Hand0.dat0 V c) (fun V c => Hand1.dat1 V c) c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Run.run_main m ρ _ _ has0 has1

/-- THE FRAME: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run m ρ)

end Cert.KernelIdeal.HandMain

end
-- ==== Proof.KI.Reg0Arr.lean ====
/- Region 0's output arrays after the region, at any float model: the block of the mask array under each grid
   point is the tile that point stored (every point writes its block back and the 64 blocks are disjoint), and the
   one-entry sum array holds the running sum after the last point (the only point that writes it back). -/
import proofs.«157913_j57896159150306_2_alg».proof.Proof.KI.Reg0
import Idealize.ShloMosaic.Lib.Pipeline.Value

set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Arrays
variable (V : (c : Dev nD) → (b : Ref sig .tc) → Buf (Elt F) ((c : Thread nD τ).loc b))

/-! ## The index maps over the grid -/

/-- The printed index maps and the grid's coordinates, decided over the 64 points: point t is at row t / 8 and
    column t % 8 of the grid; windows 0 and 2 take block (t / 8, t % 8), window 1 the transposed block
    (t % 8, t / 8), window 3 block (0, 0). -/
theorem idx_facts0 : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = t.val / 8
    ∧ win0_2.index t (0 : Fin 2) = t.val / 8 ∧ win0_2.index t (1 : Fin 2) = t.val % 8
    ∧ win0_3.index t (0 : Fin 2) = 0 ∧ win0_3.index t (1 : Fin 2) = 0
    ∧ (grid0.coords t (0 : Fin 2)).val = t.val / 8 ∧ (grid0.coords t (1 : Fin 2)).val = t.val % 8 :=
  (by decide +kernel : ∀ t : Fin grid0.N, _)

/-! ## Window 2: the mask array, tile by tile -/

/-- An index of the mask array is in point t's block iff each coordinate is in the block's range on its axis. -/
theorem mem_blk0_2 (t : Fin cfg0.N) (i : S2048x2048.Idx) :
    i ∈ ((cfg0.win 2).blk t).view.set ↔ ∀ a : Fin 2, win0_2.index t a * S256x256.size a ≤ (i a).val ∧ (i a).val < win0_2.index t a * S256x256.size a + S256x256.size a := by
  show i ∈ ((View.whole main_v0_0).slice (win0_2.rect t)).set ↔ _
  rw [View.set_slice_whole, Rect.mem_set_unit]
  exact Iff.rfl

/-- Two different points' blocks of the mask array are disjoint: the block index (t / 8, t % 8) determines t. -/
theorem disj0_2 : ∀ t t' : Fin cfg0.N, (cfg0.win 2).flush t = true → (cfg0.win 2).flush t' = true → t ≠ t' →
    Disjoint ((cfg0.win 2).blk t).view.set ((cfg0.win 2).blk t').view.set := by
  intro t t' _ _ hne
  rw [Finset.disjoint_left]
  intro i hi hi'
  rw [mem_blk0_2] at hi hi'
  obtain ⟨-, -, -, -, e4, e5, -⟩ := idx_facts0 t
  obtain ⟨-, -, -, -, e4', e5', -⟩ := idx_facts0 t'
  have a0 : win0_2.index t (0 : Fin 2) * 256 ≤ (i 0).val ∧ (i 0).val < win0_2.index t (0 : Fin 2) * 256 + 256 := hi 0
  have a1 : win0_2.index t (1 : Fin 2) * 256 ≤ (i 1).val ∧ (i 1).val < win0_2.index t (1 : Fin 2) * 256 + 256 := hi 1
  have b0 : win0_2.index t' (0 : Fin 2) * 256 ≤ (i 0).val ∧ (i 0).val < win0_2.index t' (0 : Fin 2) * 256 + 256 := hi' 0
  have b1 : win0_2.index t' (1 : Fin 2) * 256 ≤ (i 1).val ∧ (i 1).val < win0_2.index t' (1 : Fin 2) * 256 + 256 := hi' 1
  rw [e4] at a0; rw [e5] at a1; rw [e4'] at b0; rw [e5'] at b1
  exact hne (Fin.ext (by omega))

/-- Block t of the mask array after the region is the tile point t stored. -/
theorem arrAt0_2 (c : Dev nD) (t : Fin cfg0.N) (y : ((cfg0.win 2).xblock (cfg0.grid.coords t)).Idx) :
    (dat0 V c).arrAt 2 cfg0.N (((cfg0.win 2).blk t).view.emb y) = tile0 V c t y := by
  rw [(dat0 V c).arrAt_emb_eq_flushed 2 disj0_2 t (flush0_2 t) y, cast_eq]
  show (cfg0.win 2).cut (grid0.coords t) ((dat0 V c).after 2 t) y = _
  rw [after0_2]

/-! ## Window 3: the sum array -/

/-- An index of the sum array is in point t's block iff each coordinate is in the block's range on its axis. -/
theorem mem_blk0_3 (t : Fin cfg0.N) (i : S1x1.Idx) :
    i ∈ ((cfg0.win 3).blk t).view.set ↔ ∀ a : Fin 2, win0_3.index t a * S1x1.size a ≤ (i a).val ∧ (i a).val < win0_3.index t a * S1x1.size a + S1x1.size a := by
  show i ∈ ((View.whole main_v0_1).slice (win0_3.rect t)).set ↔ _
  rw [View.set_slice_whole, Rect.mem_set_unit]
  exact Iff.rfl

/-- The sum array after the region is the running sum after all 64 points: only the last point writes it back,
    its block the whole array. -/
theorem arrAt0_3 (c : Dev nD) : (dat0 V c).arrAt 3 cfg0.N = acc0 V c 64 := by
  have hN : cfg0.N = 64 := N_0
  refine (dat0 V c).arrAt_eq_of_cover 3 (acc0 V c 64) (fun t hf => ?_) (fun i => ?_)
  · have h63 := (flush0_3 t).mp hf
    have htl := t.isLt
    have h64 : t.val + 1 = 64 := by omega
    obtain ⟨-, -, -, -, -, -, e6, e7, -⟩ := idx_facts0 t
    show (cfg0.win 3).cut (grid0.coords t) ((dat0 V c).after 3 t) = _
    rw [after0_3, h64]
    funext y
    show acc0 V c 64 ((cfg0.win 3).xinj (grid0.coords t) y) = acc0 V c 64 (((cfg0.win 3).blk t).view.emb y)
    congr 1
    funext a; apply Fin.ext
    match a with
    | ⟨0, _⟩ => show (y 0).val = win0_3.index t (0 : Fin 2) * 1 + 1 * (y 0).val; omega
    | ⟨1, _⟩ => show (y 1).val = win0_3.index t (1 : Fin 2) * 1 + 1 * (y 1).val; omega
  · have h63 : 63 < cfg0.N := by omega
    refine ⟨⟨63, h63⟩, (flush0_3 _).mpr rfl, ?_⟩
    obtain ⟨-, -, -, -, -, -, e6, e7, -⟩ := idx_facts0 ⟨63, h63⟩
    have hi0 : (i 0).val < 1 := (i 0).isLt
    have hi1 : (i 1).val < 1 := (i 1).isLt
    rw [mem_blk0_3]
    intro a
    match a with
    | ⟨0, _⟩ =>
      show win0_3.index ⟨63, h63⟩ (0 : Fin 2) * 1 ≤ (i 0).val ∧ (i 0).val < win0_3.index ⟨63, h63⟩ (0 : Fin 2) * 1 + 1
      rw [e6]; omega
    | ⟨1, _⟩ =>
      show win0_3.index ⟨63, h63⟩ (1 : Fin 2) * 1 ≤ (i 1).val ∧ (i 1).val < win0_3.index ⟨63, h63⟩ (1 : Fin 2) * 1 + 1
      rw [e7]; omega

end Arrays

end Cert.KernelIdeal.Hand0

end
-- ==== Proof.Spec.lean ====
/-
  What both programs compute, as plain functions of the two argument arrays over the extended reals.

  From the square matrix `d` (2048 × 2048) take the 0/1 indicator of its positive entries, symmetrise it by the
  entrywise maximum with its transpose, and keep the strict upper triangle: `upper d k j`, zero unless `k < j`.
  Its grand total, clamped below by one, is the normaliser. For each of the 4096 rows `r` of `x` the penalty is the
  quadratic form `∑ j, (∑ k, x r k · upper k j) · x r j`; the result is the mean over the rows of penalty / normaliser.
  The last steps (clamp, divide each row, add the rows up, divide by 4096) are the same host operations in both
  programs and are kept as ONE function `tail` of the rows' penalties and the total.
-/
import Idealize.ShloMosaic.PureOps.Ideal
import Idealize.ShloMosaic.PureOps
import Idealize.ShloMosaic.Lib.ValueIdx

noncomputable section

namespace Cert.Spec

open Idealize.ShloMosaic Idealize.ShloMosaic.ValueIdx

abbrev SD : Shape := ⟨2, ![2048, 2048]⟩
abbrev SX : Shape := ⟨2, ![4096, 2048]⟩
abbrev SR : Shape := ⟨1, ![4096]⟩
abbrev S0 : Shape := ⟨0, ![]⟩

/-- The indicator of a positive entry. -/
def ind (x : EReal) : EReal := if 0 < x then 1 else 0

/-- The strict upper triangle of the symmetrised indicator matrix of `d`, entry `(k, j)`. -/
def upper (d : SD.Idx → EReal) (k j : Fin 2048) : EReal :=
  if k.val < j.val then max (ind (d (ix2 k j))) (ind (d (ix2 j k))) else 0

/-- The same as an array. -/
def upperArr (d : SD.Idx → EReal) : SD.Idx → EReal := fun i => upper d (i 0) (i 1)

theorem upperArr_ix2 (d : SD.Idx → EReal) (k j : Fin 2048) : upperArr d (ix2 k j) = upper d k j := rfl

/-- The grand total of the strict upper triangle. -/
def total (d : SD.Idx → EReal) : EReal := ∑ k : Fin 2048, ∑ j : Fin 2048, upper d k j

/-- Row `r`'s quadratic form of `x` against a matrix `u`. -/
def row (x : SX.Idx → EReal) (u : SD.Idx → EReal) (r : Fin 4096) : EReal :=
  ∑ j : Fin 2048, (∑ k : Fin 2048, x (ix2 r k) * u (ix2 k j)) * x (ix2 r j)

/-- The rows' quadratic forms as a vector. -/
def rows (x : SX.Idx → EReal) (u : SD.Idx → EReal) : SR.Idx → EReal := fun i => row x u (i 0)

theorem rows_ix1 (x : SX.Idx → EReal) (u : SD.Idx → EReal) (r : Fin 4096) : rows x u (ix1 r) = row x u r := rfl

/-- The common end of both programs: clamp the total below by one, divide every row's penalty by it, add the rows
    up from zero, divide by 4096. -/
def tail (hb : S0.BroadcastsInDim SR (![] : Fin 0 → Fin SR.rank)) (hr : SR.ReducesTo [0] S0) (h0 : 0 < S0.numel)
    (pen : FVec Ideal SR .f32) (s : FVec Ideal S0 .f32) : FVec Ideal S0 .f32 :=
  Host.divf (F := Ideal)
    (Host.reduceAdd (F := Ideal)
      (Host.divf (F := Ideal) pen
        (broadcastInDim SR ![] hb (maximumf (F := Ideal) s (constant (F := Ideal) S0 .f32 0x3F800000#32))))
      (constant (F := Ideal) S0 .f32 0x00000000#32) hr h0)
    (constant (F := Ideal) S0 .f32 0x45800000#32)

end Cert.Spec

end
-- ==== Proof.KI.Reg0Sum.lean ====
/-
  Summation over a 2048 × 2048 matrix regrouped by its 64 tiles of 256 × 256, and a running total read as a sum:
  pure facts about finite sums in a commutative monoid, no program in sight.

  An axis of length 2048 is 8 stretches of 256: entry `256·t + p` for `t < 8`, `p < 256`. Summing over the axis is summing
  over the stretch and the place inside it (`sum_axis`); doing so on both axes and numbering the 64 pairs of stretches
  row by row, `t ↦ (t / 8, t % 8)`, gives the sum by tiles (`sum_tiles`). A quantity that starts at zero and grows by
  `g n` at step `n` is after 64 steps the sum of the 64 increments (`fold_sum`).
-/
import Idealize.ShloMosaic.PureOps.Ideal

open scoped BigOperators

namespace Cert.SumTiles

/-- Entry `256·t + p` of a stretch `t < 8` at place `p < 256` lies on the axis of length 2048. -/
theorem glob_lt {t p : ℕ} (ht : t < 8) (hp : p < 256) : 256 * t + p < 2048 := by omega

/-- The same with the stretch given as a quotient by 8 of a number below 64. -/
theorem glob_div_lt {t p : ℕ} (ht : t < 64) (hp : p < 256) : 256 * (t / 8) + p < 2048 := by omega

/-- The same with the stretch given as a remainder modulo 8. -/
theorem glob_mod_lt {t p : ℕ} (hp : p < 256) : 256 * (t % 8) + p < 2048 := by omega

variable {M : Type*} [AddCommMonoid M]

/-- A sum over an axis of length 2048 is the sum over its 8 stretches of the sums over the 256 places of each. -/
theorem sum_axis (g : Fin 2048 → M) :
    ∑ k : Fin 2048, g k = ∑ t : Fin 8, ∑ p : Fin 256, g ⟨256 * t.val + p.val, glob_lt t.isLt p.isLt⟩ := by
  have h := Equiv.sum_comp (finProdFinEquiv (m := 8) (n := 256)) (g : Fin (8 * 256) → M)
  refine h.symm.trans ?_
  rw [Fintype.sum_prod_type]
  refine Finset.sum_congr rfl fun t _ => Finset.sum_congr rfl fun p _ => congrArg g (Fin.ext ?_)
  show p.val + 256 * t.val = 256 * t.val + p.val
  omega

/-- A sum over the 64 tiles numbered row by row is the double sum over the tile's row and column numbers. -/
theorem sum_pairs (G : ℕ → ℕ → M) :
    ∑ t : Fin 64, G (t.val / 8) (t.val % 8) = ∑ a : Fin 8, ∑ b : Fin 8, G a.val b.val := by
  have h := Equiv.sum_comp (finProdFinEquiv (m := 8) (n := 8)) (fun t : Fin (8 * 8) => G (t.val / 8) (t.val % 8))
  refine h.symm.trans ?_
  rw [Fintype.sum_prod_type]
  refine Finset.sum_congr rfl fun a _ => Finset.sum_congr rfl fun b _ => ?_
  show G ((b.val + 8 * a.val) / 8) ((b.val + 8 * a.val) % 8) = G a.val b.val
  have ha := a.isLt
  have hb := b.isLt
  rw [show (b.val + 8 * a.val) / 8 = a.val by omega, show (b.val + 8 * a.val) % 8 = b.val by omega]

/-- THE SUM BY TILES: the sum of all entries of a 2048 × 2048 matrix is the sum over its 64 tiles, numbered row by row,
    of each tile's 256 × 256 entries. -/
theorem sum_tiles (f : Fin 2048 → Fin 2048 → M) :
    ∑ k : Fin 2048, ∑ j : Fin 2048, f k j
      = ∑ t : Fin 64, ∑ p : Fin 256, ∑ q : Fin 256,
          f ⟨256 * (t.val / 8) + p.val, glob_div_lt t.isLt p.isLt⟩ ⟨256 * (t.val % 8) + q.val, glob_mod_lt q.isLt⟩ := by
  -- a total version of "entry 256·a + p", so that the tile's numbers can be plain naturals
  let e : ℕ → ℕ → Fin 2048 := fun a p => if h : 256 * a + p < 2048 then ⟨256 * a + p, h⟩ else ⟨0, by omega⟩
  have he : ∀ (a p : ℕ) (h : 256 * a + p < 2048), e a p = ⟨256 * a + p, h⟩ := fun a p h => dif_pos h
  have hR : (∑ t : Fin 64, ∑ p : Fin 256, ∑ q : Fin 256,
        f ⟨256 * (t.val / 8) + p.val, glob_div_lt t.isLt p.isLt⟩ ⟨256 * (t.val % 8) + q.val, glob_mod_lt q.isLt⟩)
      = ∑ t : Fin 64, (fun a b => ∑ p : Fin 256, ∑ q : Fin 256, f (e a p.val) (e b q.val)) (t.val / 8) (t.val % 8) :=
    Finset.sum_congr rfl fun t _ => Finset.sum_congr rfl fun p _ => Finset.sum_congr rfl fun q _ => by
      show _ = f (e (t.val / 8) p.val) (e (t.val % 8) q.val)
      rw [he _ _ (glob_div_lt t.isLt p.isLt), he _ _ (glob_mod_lt q.isLt)]
  rw [hR, sum_pairs (fun a b => ∑ p : Fin 256, ∑ q : Fin 256, f (e a p.val) (e b q.val)), sum_axis]
  refine Finset.sum_congr rfl fun a _ => ?_
  -- inside stretch a of the rows: ∑ p, ∑ j  →  ∑ p, ∑ b, ∑ q  →  ∑ b, ∑ p, ∑ q
  have h1 : ∀ p : Fin 256, ∑ j : Fin 2048, f ⟨256 * a.val + p.val, glob_lt a.isLt p.isLt⟩ j
      = ∑ b : Fin 8, ∑ q : Fin 256, f (e a.val p.val) (e b.val q.val) := fun p => by
    rw [sum_axis]
    refine Finset.sum_congr rfl fun b _ => Finset.sum_congr rfl fun q _ => ?_
    rw [he _ _ (glob_lt a.isLt p.isLt), he _ _ (glob_lt b.isLt q.isLt)]
  rw [Finset.sum_congr rfl fun p _ => h1 p, Finset.sum_comm]

/-- A RUNNING TOTAL: what starts at zero and grows by `g n` at step `n` is, after 64 steps, the sum of the increments. -/
theorem fold_sum (g : ℕ → M) (A : ℕ → M) (h0 : A 0 = 0) (hs : ∀ n, n < 64 → A (n + 1) = A n + g n) :
    A 64 = ∑ t : Fin 64, g t.val := by
  have h : ∀ n, n ≤ 64 → A n = ∑ t ∈ Finset.range n, g t := by
    intro n
    induction n with
    | zero => intro _; rw [h0, Finset.sum_range_zero]
    | succ n ih =>
      intro hn
      rw [hs n (by omega), ih (by omega), Finset.sum_range_succ]
  rw [h 64 le_rfl, Fin.sum_univ_eq_sum_range]

end Cert.SumTiles
-- ==== Proof.KI.Reg0Math.lean ====
/-
  The first kernel's arithmetic at the extended reals, one tile at a time.

  At grid point `i = (i 0, i 1)` the body is handed two 256 × 256 tiles of the square matrix `d`: `a`, tile `(i 0, i 1)`,
  and `b`, the mirror-image tile `(i 1, i 0)`. It forms the row number `256·(i 0) + p` and the column number
  `256·(i 1) + q` of each place as 32-bit words (no wrap: both are below 2048), keeps the places strictly above the
  diagonal, and puts there the larger of the two indicators "the entry of `a` is positive", "the entry of `b` transposed is
  positive": `pay3_apply`. That masked tile is stored unchanged (`pay4_apply`), and its 256 × 256 entries are added to a
  running total (`pay5_apply`) that starts at zero (`pay2_apply`) and is stored as it is (`pay1_eq`). When `a` and `b` are
  the tiles of `d` the kernel is given, the masked tile's entry is the specification's `upper d` at that place of the whole
  matrix (`tile_entry`, `tile_entry_at`), so the tile's sum is the specification's over that tile (`tile_sum_at`), and the
  grand total is the sum of the 64 tile sums (`total_tiles`).
-/
import proofs.«157913_j57896159150306_2_alg».proof.Proof.Gen.KernelIdeal.Skeleton
import proofs.«157913_j57896159150306_2_alg».proof.Proof.Spec
import proofs.«157913_j57896159150306_2_alg».proof.Proof.KI.Reg0Sum
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand0Math

open Cert.KernelIdeal Cert.KernelIdeal.Gen Idealize.ShloMosaic Idealize.ShloMosaic.ValueIdx

/-- The positivity test, widened to a word and converted, is the indicator of a positive entry. -/
theorem ind_word (x : EReal) :
    (FloatOps.sitofp (F := Ideal) .f32 ((FloatOps.cmpf (F := Ideal) (φ := .f32) .ogt x (Ideal.ofBits .f32 0x00000000#32)).setWidth 32) : EReal)
      = Cert.Spec.ind x := by
  rw [Ideal.cmpf_def, Ideal.ofBits_zero_f32]
  unfold Cert.Spec.ind Ideal.cmp
  by_cases h : (0 : EReal) < x
  · simp only [h, decide_true, if_true]
    show ((((BitVec.ofBool true).setWidth 32 : BitVec 32).toInt : ℝ) : EReal) = 1
    have e : ((BitVec.ofBool true).setWidth 32 : BitVec 32).toInt = 1 := by decide
    rw [e]; simp
  · simp only [h, decide_false, if_false]
    show ((((BitVec.ofBool false).setWidth 32 : BitVec 32).toInt : ℝ) : EReal) = 0
    have e : ((BitVec.ofBool false).setWidth 32 : BitVec 32).toInt = 0 := by decide
    rw [e]; simp

/-- A row or column number: the coordinate inside the tile plus 256 times the tile's number, as one word. -/
theorem word_lin (i0 p : ℕ) :
    IntOp.addi (BitVec.ofNat 32 p) (Scalar.muli (BitVec.ofNat 32 i0) 256#32) = BitVec.ofNat 32 (256 * i0 + p) := by
  show BitVec.ofNat 32 p + BitVec.ofNat 32 i0 * BitVec.ofNat 32 256 = _
  rw [← BitVec.ofNat_mul, ← BitVec.ofNat_add]
  congr 1; omega

/-- Below 2048 a word read as a signed integer is the number itself. -/
theorem toInt_small (n : ℕ) (h : n < 2048) : (BitVec.ofNat 32 n).toInt = (n : ℤ) := by
  rw [BitVec.toInt_eq_toNat_of_lt]
  · rw [BitVec.toNat_ofNat]; congr 1; omega
  · rw [BitVec.toNat_ofNat]; omega

/-- The signed comparison of the row number with the column number is the comparison of the naturals. -/
theorem mask_word (i0 i1 p q : ℕ) (h0 : i0 < 8) (h1 : i1 < 8) (hp : p < 256) (hq : q < 256) :
    IntOp.cmpi .slt (IntOp.addi (BitVec.ofNat 32 p) (Scalar.muli (BitVec.ofNat 32 i0) 256#32))
                    (IntOp.addi (BitVec.ofNat 32 q) (Scalar.muli (BitVec.ofNat 32 i1) 256#32))
      = if 256 * i0 + p < 256 * i1 + q then 1#1 else 0#1 := by
  rw [word_lin, word_lin]
  show BitVec.ofBool ((BitVec.ofNat 32 (256 * i0 + p)).slt (BitVec.ofNat 32 (256 * i1 + q))) = _
  unfold BitVec.slt
  rw [toInt_small _ (by omega), toInt_small _ (by omega)]
  by_cases h : 256 * i0 + p < 256 * i1 + q
  · rw [if_pos h, decide_eq_true (by exact_mod_cast h)]; rfl
  · rw [if_neg h, decide_eq_false (by exact_mod_cast h)]; rfl

/-- The kernel's masked tile at `(p, q)`: above the diagonal of the whole matrix the larger of the two indicators, the
    entry's and its mirror image's; zero on and below it. -/
theorem pay3_apply (i : grid0.Coords) (a b : FVec Ideal S256x256 .f32) (p q : Fin 256) :
    k0_pay3 (F := Ideal) i a b (ix2 p q)
      = if 256 * (i 0).val + p.val < 256 * (i 1).val + q.val
          then max (Cert.Spec.ind (a (ix2 p q))) (Cert.Spec.ind (b (ix2 q p))) else 0 := by
  have h0 : (i 0).val < 8 := (i 0).isLt
  have h1 : (i 1).val < 8 := (i 1).isLt
  unfold k0_pay3
  simp only [select_apply, maximumf_apply, sitofp_apply, extui_apply, cmpf_apply, broadcast_apply, Ideal.ofBits_def]
  have hm : cmpi CmpIPredicate.slt
        (addi (iota Kind.tc S256x256 32 [0] iota_S256x256_d0_w32)
          (broadcast S256x256 (Scalar.muli (BitVec.ofNat 32 (i 0).val) 256#32)))
        (addi (iota Kind.tc S256x256 32 [1] iota_S256x256_d1_w32)
          (broadcast S256x256 (Scalar.muli (BitVec.ofNat 32 (i 1).val) 256#32)))
        (ix2 p q)
      = if 256 * (i 0).val + p.val < 256 * (i 1).val + q.val then 1#1 else 0#1 := by
    show IntOp.cmpi .slt
        (IntOp.addi (iota Kind.tc S256x256 32 [0] iota_S256x256_d0_w32 (ix2 p q)) (Scalar.muli (BitVec.ofNat 32 (i 0).val) 256#32))
        (IntOp.addi (iota Kind.tc S256x256 32 [1] iota_S256x256_d1_w32 (ix2 p q)) (Scalar.muli (BitVec.ofNat 32 (i 1).val) 256#32)) = _
    rw [iota_single_apply, iota_single_apply]
    exact mask_word _ _ _ _ h0 h1 p.isLt q.isLt
  rw [hm, transpose_ix2_apply, ind_word, ind_word]
  by_cases h : 256 * (i 0).val + p.val < 256 * (i 1).val + q.val
  · rw [if_pos h, if_pos h, select_one]
  · rw [if_neg h, if_neg h, select_zero, Ideal.ofBits_zero_f32]

/-- The stored tile is the masked tile: narrowing the format changes no value. -/
theorem pay4_apply (i : grid0.Coords) (a b : FVec Ideal S256x256 .f32) (p q : Fin 256) :
    k0_pay4 (F := Ideal) i a b (ix2 p q) = k0_pay3 (F := Ideal) i a b (ix2 p q) := by
  unfold k0_pay4
  exact truncf_apply _ _ _

/-- The running total is stored as it is. -/
theorem pay1_eq (v : FVec Ideal S1x1 .f32) : k0_pay1 (F := Ideal) v = v := by
  unfold k0_pay1
  exact shapeCast_self _ _

/-- The running total starts at zero. -/
theorem pay2_apply : k0_pay2 (F := Ideal) (ix2 (0 : Fin 1) (0 : Fin 1)) = 0 := by
  unfold k0_pay2
  rw [shapeCast_self, broadcast_apply]
  exact Ideal.ofBits_zero_f32

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The new running total: the old one plus the sum of the masked tile's 256 × 256 entries. -/
theorem pay5_apply (i : grid0.Coords) (a b : FVec Ideal S256x256 .f32) (s : FVec Ideal S1x1 .f32) :
    k0_pay5 (F := Ideal) i a b s (ix2 (0 : Fin 1) (0 : Fin 1))
      = s (ix2 0 0) + ∑ p : Fin 256, ∑ q : Fin 256, k0_pay3 (F := Ideal) i a b (ix2 p q) := by
  unfold k0_pay5
  rw [addf_apply, broadcast_apply]
  congr 1
  unfold extractAt shapeCast
  refine (Ideal.multiReduction_add_total _ _ reduces_S1x256x256_S1 (fun c => ?_) _ _ _).trans ?_
  · match c with
    | ⟨0, _⟩ => rfl
  · rw [sum_idx3, Fin.sum_univ_one]
    exact Finset.sum_congr rfl fun p _ => Finset.sum_congr rfl fun q _ =>
      shapeCast_ab_1ab_apply (k0_pay3 (F := Ideal) i a b) shapeCasts_S256x256_S1x256x256 0 p q

/-- THE TILE'S ENTRY IS THE SPECIFICATION'S, at one place: when `(k, j)` is the place `(p, q)` of tile `(i 0, i 1)` in the
    whole matrix, `a` reads `d` there and `b`, the mirror-image tile, reads `d` at `(j, k)`. -/
theorem tile_entry (d : Cert.Spec.SD.Idx → EReal) (i : grid0.Coords) (a b : FVec Ideal S256x256 .f32) (p q : Fin 256)
    (k j : Fin 2048) (hk : k.val = 256 * (i 0).val + p.val) (hj : j.val = 256 * (i 1).val + q.val)
    (ha : a (ix2 p q) = d (ix2 k j)) (hb : b (ix2 q p) = d (ix2 j k)) :
    k0_pay3 (F := Ideal) i a b (ix2 p q) = Cert.Spec.upper d k j := by
  rw [pay3_apply, ha, hb]
  unfold Cert.Spec.upper
  rw [hk, hj]

/-- The same for a whole tile, its row and column numbers `r`, `c` given as naturals: `a` is tile `(r, c)` of `d` and `b` is
    tile `(c, r)`. -/
theorem tile_entry_at (d : Cert.Spec.SD.Idx → EReal) (i : grid0.Coords) (r c : ℕ) (hr : (i 0).val = r) (hc : (i 1).val = c)
    (hr8 : r < 8) (hc8 : c < 8) (a b : FVec Ideal S256x256 .f32)
    (ha : ∀ p q : Fin 256, a (ix2 p q)
      = d (ix2 (⟨256 * r + p.val, Cert.SumTiles.glob_lt hr8 p.isLt⟩ : Fin 2048) (⟨256 * c + q.val, Cert.SumTiles.glob_lt hc8 q.isLt⟩ : Fin 2048)))
    (hb : ∀ p q : Fin 256, b (ix2 p q)
      = d (ix2 (⟨256 * c + p.val, Cert.SumTiles.glob_lt hc8 p.isLt⟩ : Fin 2048) (⟨256 * r + q.val, Cert.SumTiles.glob_lt hr8 q.isLt⟩ : Fin 2048)))
    (p q : Fin 256) :
    k0_pay3 (F := Ideal) i a b (ix2 p q)
      = Cert.Spec.upper d ⟨256 * r + p.val, Cert.SumTiles.glob_lt hr8 p.isLt⟩ ⟨256 * c + q.val, Cert.SumTiles.glob_lt hc8 q.isLt⟩ :=
  tile_entry d i a b p q _ _ (by rw [hr]) (by rw [hc]) (ha p q) (hb q p)

/-- So the tile's sum is the specification's sum over that tile. -/
theorem tile_sum_at (d : Cert.Spec.SD.Idx → EReal) (i : grid0.Coords) (r c : ℕ) (hr : (i 0).val = r) (hc : (i 1).val = c)
    (hr8 : r < 8) (hc8 : c < 8) (a b : FVec Ideal S256x256 .f32)
    (ha : ∀ p q : Fin 256, a (ix2 p q)
      = d (ix2 (⟨256 * r + p.val, Cert.SumTiles.glob_lt hr8 p.isLt⟩ : Fin 2048) (⟨256 * c + q.val, Cert.SumTiles.glob_lt hc8 q.isLt⟩ : Fin 2048)))
    (hb : ∀ p q : Fin 256, b (ix2 p q)
      = d (ix2 (⟨256 * c + p.val, Cert.SumTiles.glob_lt hc8 p.isLt⟩ : Fin 2048) (⟨256 * r + q.val, Cert.SumTiles.glob_lt hr8 q.isLt⟩ : Fin 2048))) :
    ∑ p : Fin 256, ∑ q : Fin 256, k0_pay3 (F := Ideal) i a b (ix2 p q)
      = ∑ p : Fin 256, ∑ q : Fin 256,
          Cert.Spec.upper d ⟨256 * r + p.val, Cert.SumTiles.glob_lt hr8 p.isLt⟩ ⟨256 * c + q.val, Cert.SumTiles.glob_lt hc8 q.isLt⟩ :=
  Finset.sum_congr rfl fun p _ => Finset.sum_congr rfl fun q _ => tile_entry_at d i r c hr hc hr8 hc8 a b ha hb p q

/-- The specification's grand total, tile by tile. -/
theorem total_tiles (d : Cert.Spec.SD.Idx → EReal) :
    Cert.Spec.total d
      = ∑ t : Fin 64, ∑ p : Fin 256, ∑ q : Fin 256,
          Cert.Spec.upper d ⟨256 * (t.val / 8) + p.val, Cert.SumTiles.glob_div_lt t.isLt p.isLt⟩
            ⟨256 * (t.val % 8) + q.val, Cert.SumTiles.glob_mod_lt q.isLt⟩ :=
  Cert.SumTiles.sum_tiles (fun k j => Cert.Spec.upper d k j)

end Cert.KernelIdeal.Hand0Math

end
-- ==== Proof.KI.Reg0Value.lean ====
/- Region 0's output arrays at the ideal values: after the region the mask array holds the specification's strict
   upper triangle of the symmetrised indicator of the region-entry matrix, entry by entry, and the sum array holds
   its grand total. Each entry lies in exactly one point's tile; the running sum after 64 points is the sum of the
   64 tile sums. -/
import proofs.«157913_j57896159150306_2_alg».proof.Proof.KI.Reg0Arr
import proofs.«157913_j57896159150306_2_alg».proof.Proof.KI.Reg0Math
import proofs.«157913_j57896159150306_2_alg».proof.Proof.Spec
import Idealize.ShloMosaic.Lib.Pipeline.Value
import Idealize.ShloMosaic.Lib.ValueIdx

set_option maxRecDepth 16384

noncomputable section

open scoped BigOperators

namespace Cert.KernelIdeal.Hand0Value

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The input blocks as tiles of the matrix -/

/-- Window 0's block at point t is tile (t / 8, t % 8) of the matrix. -/
theorem iblk0_0_apply (c : Dev nD) (t : Fin cfg0.N) (p q : Fin 256) (r s : Fin 2048)
    (hr : r.val = 256 * (t.val / 8) + p.val) (hs : s.val = 256 * (t.val % 8) + q.val) :
    Hand0.iblk0 V c 0 t (ix2 p q) = V c main_arg1 (ix2 r s) := by
  obtain ⟨e0, e1, -⟩ := Hand0.idx_facts0 t
  show V c main_arg1 (((cfg0.win 0).blk t).view.emb (ix2 p q)) = _
  congr 1
  funext a; apply Fin.ext
  match a with
  | ⟨0, _⟩ => show win0_0.index t (0 : Fin 2) * 256 + 1 * p.val = r.val; omega
  | ⟨1, _⟩ => show win0_0.index t (1 : Fin 2) * 256 + 1 * q.val = s.val; omega

/-- Window 1's block at point t is the mirror-image tile (t % 8, t / 8). -/
theorem iblk0_1_apply (c : Dev nD) (t : Fin cfg0.N) (p q : Fin 256) (r s : Fin 2048)
    (hr : r.val = 256 * (t.val % 8) + p.val) (hs : s.val = 256 * (t.val / 8) + q.val) :
    Hand0.iblk0 V c 1 t (ix2 p q) = V c main_arg1 (ix2 r s) := by
  obtain ⟨-, -, e2, e3, -⟩ := Hand0.idx_facts0 t
  show V c main_arg1 (((cfg0.win 1).blk t).view.emb (ix2 p q)) = _
  congr 1
  funext a; apply Fin.ext
  match a with
  | ⟨0, _⟩ => show win0_1.index t (0 : Fin 2) * 256 + 1 * p.val = r.val; omega
  | ⟨1, _⟩ => show win0_1.index t (1 : Fin 2) * 256 + 1 * q.val = s.val; omega

/-! ## The mask array -/

/-- Entry (k, j) of the mask array, when it is place (p, q) of point t's tile. -/
theorem upper_at (c : Dev nD) (t : Fin cfg0.N) (p q : Fin 256) (k j : Fin 2048)
    (hk : k.val = 256 * (t.val / 8) + p.val) (hj : j.val = 256 * (t.val % 8) + q.val) :
    (Hand0.dat0 (F := Ideal) V c).arrAt 2 cfg0.N (ix2 k j) = Cert.Spec.upper (V c main_arg1) k j := by
  obtain ⟨e0, e1, e2, e3, e4, e5, e6, e7, g0, g1⟩ := Hand0.idx_facts0 t
  have hemb : ((cfg0.win 2).blk t).view.emb (ix2 p q) = ix2 k j := by
    funext a; apply Fin.ext
    match a with
    | ⟨0, _⟩ => show win0_2.index t (0 : Fin 2) * 256 + 1 * p.val = k.val; omega
    | ⟨1, _⟩ => show win0_2.index t (1 : Fin 2) * 256 + 1 * q.val = j.val; omega
  rw [← hemb, Hand0.arrAt0_2]
  unfold Hand0.tile0
  rw [Hand0Math.pay4_apply]
  exact Hand0Math.tile_entry (V c main_arg1) _ _ _ p q k j (by rw [g0]; exact hk) (by rw [g1]; exact hj)
    (iblk0_0_apply V c t p q k j hk hj) (iblk0_1_apply V c t q p j k hj hk)

/-- THE MASK ARRAY after the region: the specification's upper at every entry. -/
theorem upper_final (c : Dev nD) (k j : Fin 2048) :
    (Hand0.dat0 (F := Ideal) V c).arrAt 2 cfg0.N (ix2 k j) = Cert.Spec.upper (V c main_arg1) k j := by
  have hk := k.isLt
  have hj := j.isLt
  have hN : cfg0.N = 64 := N_0
  have ht : 8 * (k.val / 256) + j.val / 256 < cfg0.N := by omega
  exact upper_at V c ⟨8 * (k.val / 256) + j.val / 256, ht⟩ ⟨k.val % 256, Nat.mod_lt _ (by decide)⟩ ⟨j.val % 256, Nat.mod_lt _ (by decide)⟩ k j
    (by show k.val = 256 * ((8 * (k.val / 256) + j.val / 256) / 8) + k.val % 256; omega)
    (by show j.val = 256 * ((8 * (k.val / 256) + j.val / 256) % 8) + j.val % 256; omega)

/-! ## The sum array -/

/-- THE SUM ARRAY after the region: the specification's grand total. The running sum starts at zero and point n
    adds tile n's sum, which is the specification's sum over that tile; 64 steps give the sum by tiles. -/
theorem total_final (c : Dev nD) :
    (Hand0.dat0 (F := Ideal) V c).arrAt 3 cfg0.N (ix2 (0 : Fin 1) (0 : Fin 1)) = Cert.Spec.total (V c main_arg1) := by
  have hN : cfg0.N = 64 := N_0
  rw [Hand0.arrAt0_3, Hand0Math.total_tiles]
  have hfold := Cert.SumTiles.fold_sum
    (fun n : ℕ => if h : n < 64 then ∑ p : Fin 256, ∑ q : Fin 256,
        Cert.Spec.upper (V c main_arg1) ⟨256 * (n / 8) + p.val, Cert.SumTiles.glob_div_lt h p.isLt⟩
          ⟨256 * (n % 8) + q.val, Cert.SumTiles.glob_mod_lt q.isLt⟩ else (0 : EReal))
    (fun n : ℕ => (Hand0.acc0 V c n (ix2 (0 : Fin 1) (0 : Fin 1)) : EReal))
    (by show Hand0.acc0 V c 0 (ix2 (0 : Fin 1) (0 : Fin 1)) = 0
        rw [Hand0.acc0_zero]; exact Hand0Math.pay2_apply)
    (fun n hn => by
      have hn' : n < cfg0.N := by omega
      obtain ⟨-, -, -, -, -, -, -, -, g0, g1⟩ := Hand0.idx_facts0 ⟨n, hn'⟩
      show Hand0.acc0 V c (n + 1) (ix2 (0 : Fin 1) (0 : Fin 1)) = Hand0.acc0 V c n (ix2 (0 : Fin 1) (0 : Fin 1)) + _
      rw [Hand0.acc0_succ' V c n hn', Hand0Math.pay1_eq, Hand0Math.pay5_apply]
      congr 1
      rw [dif_pos hn]
      exact Hand0Math.tile_sum_at (V c main_arg1) (grid0.coords ⟨n, hn'⟩) (n / 8) (n % 8) g0 g1 (by omega) (by omega) _ _
        (fun p q => iblk0_0_apply V c ⟨n, hn'⟩ p q _ _ rfl rfl)
        (fun p q => iblk0_1_apply V c ⟨n, hn'⟩ p q _ _ rfl rfl))
  exact hfold.trans (Finset.sum_congr rfl fun t _ => dif_pos t.isLt)

end Cert.KernelIdeal.Hand0Value

end
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.LibRows.lean ====
/-
  Rows of a rank-2 array. A reduction of `[a, b]` over its second axis reads, at row `i`, the sum — or the running
  maximum — over the entries `(i, k)` of that row. And the square root, exponential and hyperbolic tangent of a vector
  read at an index: the extended reals' function of the entry.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- The entry `(i, k)` is the row index `i` with the coordinate `k` put back on the reduced axis. -/
theorem lift_row {a b : ℕ} (h : (⟨2, ![a, b]⟩ : Shape).Reduces [1] ⟨1, ![a]⟩) (i : Fin a) (k : Fin b) :
    h.lift (ix1 i) k = ix2 i k := by
  funext ax
  match ax with
  | ⟨0, _⟩ => rfl
  | ⟨1, _⟩ => rfl

/-- A sum over the second axis of `[a, b]`, at row `i`: the sum of that row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

/-- A maximum over the second axis of `[a, b]`, at row `i`: the fold of `max`, from the accumulator's value, over
    that row's entries. -/
theorem multiReduction_max_row {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  exact congrArg (Finset.fold max (Ideal.ofBits φ acc) · Finset.univ) (funext fun k => congrArg src (lift_row h i k))

/-- A square root at an index is the square root of the entry. -/
theorem sqrt_apply {s : Shape} {φ : FTy} (a : FVec Ideal s φ) (i : s.Idx) : sqrt a i = Ideal.sqrt (a i) := rfl
/-- An exponential at an index is the exponential of the entry. -/
theorem exp_apply {s : Shape} {φ : FTy} (a : FVec Ideal s φ) (i : s.Idx) : exp a i = Ideal.exp (a i) := rfl
/-- A hyperbolic tangent at an index is the hyperbolic tangent of the entry. -/
theorem tanh_apply {s : Shape} {φ : FTy} (a : FVec Ideal s φ) (i : s.Idx) : tanh a i = Ideal.tanh (a i) := rfl
/-- A scalar constant of the ideal instance is the extended real its word encodes. -/
theorem scalar_ofBits (φ : FTy) (b : BitVec φ.bits) : Scalar.ofBits (F := Ideal) φ b = Ideal.ofBits φ b := rfl

end Idealize.ShloMosaic.ValueIdx

end
-- ==== Proof.LibColumn.lean ====
/-
  A vector kept as a column. A row reduction with `keepdims` leaves a length-`a` vector that is cast to the column
  shape `[a, 1]` and then broadcast along the rows to `[a, b]`. Read at an index given by coordinates: the column at
  `(i, z)` is the vector at `i`, and the broadcast at `(i, j)` is the column at `(i, 0)`.
-/
import Idealize.ShloMosaic.Lib.Pipeline.Value
import Idealize.ShloMosaic.Lib.ValueIdx

namespace Idealize.ShloMosaic.ValueIdx

open Idealize.ShloMosaic

variable {α : Type}

/-- A length-`a` vector cast to the column `[a, 1]` reads, at `(i, z)`, the vector at `i`: both positions are `i` in
    row-major order, the column's second coordinate being `0`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column at `(i, 0)`: the row coordinate is kept (or
    is `0` anyway when `a = 1`), the unit axis reads its only coordinate. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueIdx
-- ==== Proof.KI.Reg1Value.lean ====
/- Region 1's output at the ideal values: after the region the output array holds, at row r, the quadratic form
   of row r of the region-entry x against the region-entry matrix — the body's payload read at an index, each
   point's write-back as a block of one whole-array function, and the blocks' cover of the array. -/
import proofs.«157913_j57896159150306_2_alg».proof.Proof.KI.Reg1
import proofs.«157913_j57896159150306_2_alg».proof.Proof.Spec
import proofs.«157913_j57896159150306_2_alg».proof.Proof.LibMatDot
import proofs.«157913_j57896159150306_2_alg».proof.Proof.LibRows
import proofs.«157913_j57896159150306_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand1Value

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The payload at an index -/

/-- The dot record contracts one axis of extent 2048. -/
theorem dot_rank : dot_S512x2048_S2048x2048_S512x2048_1_0_0_1_n_n.contr.rank = 1 := rfl
theorem dot_size : dot_S512x2048_S2048x2048_S512x2048_1_0_0_1_n_n.contr.size ⟨0, by rw [dot_rank]; omega⟩ = 2048 := rfl

/-- The body's payload at row p of its block: the product of the row with the matrix, multiplied entrywise by the
    row and summed over the lane axis; the [512] vector kept as a column. At the ideal values the narrowing of the
    left operand is the identity and the accumulator is zero. -/
theorem pay1_apply (x0 : FVec Ideal S512x2048 .f32) (x1 : FVec Ideal S2048x2048 .bf16) (p : Fin 512) :
    k1_pay1 (F := Ideal) x0 x1 (ix2 p (0 : Fin 1))
      = ∑ j : Fin 2048, (∑ k : Fin 2048, x0 (ix2 p k) * x1 (ix2 k j)) * x0 (ix2 p j) := by
  unfold k1_pay1
  rw [shapeCast_a_a1_apply]
  refine (multiReduction_add_row (a := 512) (b := 2048) _ _ reduces_S512x2048_S512 _ _ p).trans ?_
  refine Finset.sum_congr rfl fun j _ => ?_
  rw [mulf_apply]
  congr 1
  rw [shapeCast_self]
  refine (mat_dot_zero (M := 512) (K := 2048) (N := 2048) dot_S512x2048_S2048x2048_S512x2048_1_0_0_1_n_n none dot_rank dot_size ?_ ?_ ?_ ?_ _ _ p j).trans ?_
  · intro j c; rfl
  · intro j c; exact dot_S512x2048_S2048x2048_S512x2048_1_0_0_1_n_n.lhsIdx_val_of_single rfl j c
  · intro j c; exact dot_S512x2048_S2048x2048_S512x2048_1_0_0_1_n_n.rhsIdx_val_of_single rfl j c
  · intro j c; rfl
  · rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- What the output array ends holding: row r's quadratic form of the region-entry x against the region-entry
    matrix. -/
abbrev G (c : Dev nD) : S4096x1.Idx → Elt Ideal .f32 :=
  fun i => Cert.Spec.row (V c main_arg0) (V c main_v0_0) (i 0)

/-- The printed index maps, decided over the grid: the row block of x and of the output move with the point, the
    matrix window stays at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The x block at point t, row p, lane k, is x at row t * 512 + p. -/
theorem iblk0_apply (c : Dev nD) (t : Fin cfg1.N) (p : Fin 512) (k : Fin 2048) (r : Fin 4096) (hr : r.val = t.val * 512 + p.val) :
    Hand1.iblk1 V c 0 t (ix2 p k) = V c main_arg0 (ix2 r k) := by
  obtain ⟨e0, e1, e2, e3, e4, e5⟩ := idx_facts t
  show V c main_arg0 (((cfg1.win 0).blk t).view.emb (ix2 p k)) = _
  congr 1
  funext a; apply Fin.ext
  match a with
  | ⟨0, _⟩ => show win1_0.index t (0 : Fin 2) * 512 + 1 * p.val = r.val; omega
  | ⟨1, _⟩ => show win1_0.index t (1 : Fin 2) * 2048 + 1 * k.val = k.val; omega

/-- The matrix block at every point is the whole matrix. -/
theorem iblk1_apply (c : Dev nD) (t : Fin cfg1.N) (k j : Fin 2048) :
    Hand1.iblk1 V c 1 t (ix2 k j) = V c main_v0_0 (ix2 k j) := by
  obtain ⟨e0, e1, e2, e3, e4, e5⟩ := idx_facts t
  show V c main_v0_0 (((cfg1.win 1).blk t).view.emb (ix2 k j)) = _
  congr 1
  funext a; apply Fin.ext
  match a with
  | ⟨0, _⟩ => show win1_1.index t (0 : Fin 2) * 2048 + 1 * k.val = k.val; omega
  | ⟨1, _⟩ => show win1_1.index t (1 : Fin 2) * 2048 + 1 * j.val = j.val; omega

/-- What point t writes back is block t of G: the payload at a row of the block reads the x block at that row
    and the whole matrix, and the block's row p is the array's row t * 512 + p. -/
theorem flushed_eq (c : Dev nD) (t : Fin cfg1.N) :
    (Hand1.dat1 (F := Ideal) V c).flushed 2 t = ((cfg1.win 2).blk t).view.read (Elt Ideal) (G V c) := by
  show (cfg1.win 2).cut (grid1.coords t) ((Hand1.dat1 V c).after 2 t) = _
  rw [Hand1.after1_2]
  unfold Hand1.out1_2
  rw [View.canon_unit_zero hz]
  simp only [View.ld_unit_zero (S := S512x2048) hz, View.ld_unit_zero (S := S2048x2048) hz]
  obtain ⟨e0, e1, e2, e3, e4, e5⟩ := idx_facts t
  funext j
  have hj0 : (j 0).val < 512 := (j 0).isLt
  have hj1 : (j 1).val < 1 := (j 1).isLt
  have hxj : (cfg1.win 2).xinj (grid1.coords t) j = ix2 (⟨(j 0).val, hj0⟩ : Fin 512) (0 : Fin 1) := by
    funext a; apply Fin.ext
    match a with
    | ⟨0, _⟩ => rfl
    | ⟨1, _⟩ => show (j 1).val = 0; omega
  show k1_pay1 (F := Ideal) (Hand1.iblk1 V c 0 t) (Hand1.iblk1 V c 1 t) ((cfg1.win 2).xinj (grid1.coords t) j) = G V c (((cfg1.win 2).blk t).view.emb j)
  rw [hxj, pay1_apply]
  have hr : (((((cfg1.win 2).blk t).view.emb j) 0 : Fin 4096)).val = t.val * 512 + (⟨(j 0).val, hj0⟩ : Fin 512).val := by
    show win1_2.index t (0 : Fin 2) * 512 + 1 * (j 0).val = t.val * 512 + (j 0).val; omega
  show _ = Cert.Spec.row (V c main_arg0) (V c main_v0_0) ((((cfg1.win 2).blk t).view.emb j) 0)
  unfold Cert.Spec.row
  refine Finset.sum_congr rfl fun q _ => ?_
  rw [iblk0_apply V c t ⟨(j 0).val, hj0⟩ q _ hr]
  congr 1
  refine Finset.sum_congr rfl fun k _ => ?_
  rw [iblk0_apply V c t ⟨(j 0).val, hj0⟩ k _ hr, iblk1_apply]

/-- An index of the array is in point t's block iff each coordinate is in the block's range on its axis. -/
theorem mem_blk (t : Fin cfg1.N) (i : S4096x1.Idx) :
    i ∈ ((cfg1.win 2).blk t).view.set ↔ ∀ a : Fin 2, win1_2.index t a * S512x1.size a ≤ (i a).val ∧ (i a).val < win1_2.index t a * S512x1.size a + S512x1.size a := by
  show i ∈ ((View.whole main_v3).slice (win1_2.rect t)).set ↔ _
  rw [View.set_slice_whole, Rect.mem_set_unit]
  exact Iff.rfl

/-- Every row of the array is written back: row r by point r / 512. -/
theorem covered (i : S4096x1.Idx) : ∃ t : Fin cfg1.N, (cfg1.win 2).flush t = true ∧ i ∈ ((cfg1.win 2).blk t).view.set := by
  have hi0 : (i 0).val < 4096 := (i 0).isLt
  have hi1 : (i 1).val < 1 := (i 1).isLt
  have hN : cfg1.N = 8 := N_1
  have ht : (i 0).val / 512 < cfg1.N := by rw [hN]; omega
  refine ⟨⟨(i 0).val / 512, ht⟩, flush1_2 _, ?_⟩
  obtain ⟨e0, e1, e2, e3, e4, e5⟩ := idx_facts ⟨(i 0).val / 512, ht⟩
  rw [mem_blk]
  intro a
  match a with
  | ⟨0, _⟩ =>
    show win1_2.index ⟨(i 0).val / 512, ht⟩ (0 : Fin 2) * 512 ≤ (i 0).val ∧ (i 0).val < win1_2.index ⟨(i 0).val / 512, ht⟩ (0 : Fin 2) * 512 + 512
    rw [e4]; show (i 0).val / 512 * 512 ≤ (i 0).val ∧ (i 0).val < (i 0).val / 512 * 512 + 512; omega
  | ⟨1, _⟩ =>
    show win1_2.index ⟨(i 0).val / 512, ht⟩ (1 : Fin 2) * 1 ≤ (i 1).val ∧ (i 1).val < win1_2.index ⟨(i 0).val / 512, ht⟩ (1 : Fin 2) * 1 + 1
    rw [e5]; omega

/-- The output array after the region: every row's quadratic form. -/
theorem rows_final_fun (c : Dev nD) : (Hand1.dat1 (F := Ideal) V c).arrAt 2 cfg1.N = G V c :=
  (Hand1.dat1 (F := Ideal) V c).arrAt_eq_of_cover 2 (G V c) (fun t _ => flushed_eq V c t) (covered)

/-- The same at an index. -/
theorem rows_final (c : Dev nD) (r : Fin 4096) :
    (Hand1.dat1 (F := Ideal) V c).arrAt 2 cfg1.N (ix2 r (0 : Fin 1)) = Cert.Spec.row (V c main_arg0) (V c main_v0_0) r := by
  rw [rows_final_fun]

end Cert.KernelIdeal.Hand1Value

end
-- ==== Proof.KI.Tail.lean ====
/-
  The kernel program's host lines at the ideal values.

  After the first kernel run the program casts the [1,1] total to a scalar and clamps it below by one; after the second
  it casts the [4096,1] column of row penalties to a vector, divides every entry by the clamped total, adds the entries up
  from zero and divides by 4096. Read back at the last result buffer, the two stretches are the common last steps applied
  to the cast column and the cast total. The two casts only drop unit axes: entry r of the vector is entry (r, 0) of the
  column, and the scalar is entry (0, 0) of the [1,1] array.
-/
import proofs.«157913_j57896159150306_2_alg».proof.Proof.Gen.KernelIdeal.Launch
import proofs.«157913_j57896159150306_2_alg».proof.Proof.Spec
import Idealize.ShloMosaic.Lib.StableHlo.Run
import Idealize.ShloMosaic.Lib.ValueLayout
import Idealize.ShloMosaic.Lib.Pipeline.Value

noncomputable section

namespace Cert.KernelIdeal.HandTail

open Cert.KernelIdeal Cert.KernelIdeal.Gen Idealize.ShloMosaic Idealize.ShloMosaic.TcCoe Idealize.ShloMosaic.StableHlo
open Idealize.ShloMosaic.ValueIdx

/-- The second stretch read at its last result, from any contents: the column cast to a vector, divided by the broadcast
    of what the clamp left, summed from zero, divided by 4096. -/
theorem after2 (W : Valuation τ sig (Elt Ideal)) :
    StableHlo.after (hostOps2 (F := Ideal)) W main_v8
      = Host.divf (F := Ideal)
          (Host.reduceAdd (F := Ideal)
            (Host.divf (F := Ideal) (shapeCast S4096 (W main_v3) shapeCasts_S4096x1_S4096)
              (broadcastInDim S4096 ![] bcast_S_S4096 (W main_v2)))
            (constant (F := Ideal) S_ .f32 0x00000000#32) reducesTo_S4096_S_d0 h_S_)
          (constant (F := Ideal) S_ .f32 0x45800000#32) := by
  after_results
  rfl

/-- The first stretch read at the clamp's result: the [1,1] total cast to a scalar, clamped below by one. -/
theorem after1 (Wv : Valuation τ sig (Elt Ideal)) :
    StableHlo.after (hostOps1 (F := Ideal)) Wv main_v2
      = maximumf (F := Ideal) (shapeCast S_ (Wv main_v0_1) shapeCasts_S1x1_S_)
          (constant (F := Ideal) S_ .f32 0x3F800000#32) := by
  after_results
  rfl

theorem tail_eq (Wv : Valuation τ sig (Elt Ideal)) (X : (⟨S4096x1, .f32⟩ : BufTy).Contents (Elt Ideal)) :
    StableHlo.after (hostOps2 (F := Ideal))
        (Function.update (StableHlo.after (hostOps1 (F := Ideal)) Wv) main_v3 X) main_v8
      = Cert.Spec.tail bcast_S_S4096 reducesTo_S4096_S_d0 h_S_ (shapeCast S4096 X shapeCasts_S4096x1_S4096)
          (shapeCast S_ (Wv main_v0_1) shapeCasts_S1x1_S_) := by
  rw [after2, Function.update_self,
    Function.update_of_ne (StableHlo.devRef_ne_of_ne (by decide) :
      (Proc.devRef .tc main_v2 : DevRef τ sig) ≠ Proc.devRef .tc main_v3), after1]
  rfl

/-- Entry r of the column cast to a vector is entry (r, 0) of the column: both sit at row-major position r. -/
theorem cast_rows (X : FVec Ideal S4096x1 .f32) (r : Fin 4096) :
    shapeCast S4096 X shapeCasts_S4096x1_S4096 (ix1 r) = X (ix2 r (0 : Fin 1)) :=
  shapeCast_apply X _ _ _ (by
    rw [Shape.rowMajor_val_two, Shape.rowMajor_val_one]
    show r.val * 1 + 0 = r.val
    omega)

/-- The [1,1] array cast to a scalar is its one entry: both index sets have one element, at position zero. -/
theorem cast_total (Y : FVec Ideal S1x1 .f32) :
    shapeCast S_ Y shapeCasts_S1x1_S_ ix0 = Y (ix2 (0 : Fin 1) (0 : Fin 1)) :=
  shapeCast_apply Y _ _ _ (by
    have a := (S1x1.rowMajor (ix2 (0 : Fin 1) (0 : Fin 1))).isLt
    have b := (S_.rowMajor ix0).isLt
    have h1 : S1x1.numel = 1 := by decide
    have h2 : S_.numel = 1 := by decide
    omega)

end Cert.KernelIdeal.HandTail
end
-- ==== Proof.KI.Value.lean ====
/-
  The kernel program's result in the specification's terms, first given what region 0 leaves in its two
  output arrays, then outright.

  The run ends with the result buffer at the last host stretch folded over the contents region 1 leaves, which are the
  first host stretch folded over the contents region 0 leaves. The two stretches are the common last steps applied to the
  column of row penalties cast to a vector and the [1,1] total cast to a scalar. Region 1 is entered with x as launched
  (no host line writes an argument) and with region 0's first output array, so its column holds each row's quadratic form
  against that array; region 0's second output array holds the grand total.
-/
import proofs.«157913_j57896159150306_2_alg».proof.Proof.KI.Run
import proofs.«157913_j57896159150306_2_alg».proof.Proof.KI.Reg0
import proofs.«157913_j57896159150306_2_alg».proof.Proof.KI.Reg0Value
import proofs.«157913_j57896159150306_2_alg».proof.Proof.KI.Reg1Value
import proofs.«157913_j57896159150306_2_alg».proof.Proof.KI.Tail
import proofs.«157913_j57896159150306_2_alg».proof.Proof.Spec

noncomputable section

namespace Cert.KernelIdeal.HandValue

open Cert.KernelIdeal Cert.KernelIdeal.Gen
open Idealize.ShloMosaic Idealize.ShloMosaic.TcCoe Idealize.ShloMosaic.StableHlo Idealize.ShloMosaic.ValueIdx
open Idealize.SL Idealize.SL.Sem
open Idealize.ShloMosaic.Pipeline (Dat Cfg Window)

variable (m : (ℓ : Loc nD τ sig) → Buf (Elt Ideal) ℓ) (c : Dev nD)
variable (dat0 : Run.Vals Ideal → (c : Dev nD) → Dat τ (Elt Ideal) Unit ℕ (Pipeline.UD sig nD τ) ℕ cfg0 c)

/-- Region 1 is entered with the first argument as launched: no host line and no region writes it. -/
theorem V2_arg0 : Run.V2 m dat0 c main_arg0 = m ((c : Thread nD τ).loc main_arg0) := by
  show Run.W2 m dat0 c (Proc.devRef .tc main_arg0) = _
  unfold Run.W2
  rw [StableHlo.after_of_writes_sub hostOps1 _ hostOps1_writes (by decide)]
  exact Run.W1_of_ne m dat0 c main_arg0 (by decide) (by decide)

/-- Region 1 is entered with region 0's first output array as region 0 left it: no host line writes it. -/
theorem V2_v0_0 : Run.V2 m dat0 c main_v0_0 = (dat0 (Run.V0 m) c).arrAt 2 cfg0.N := by
  show Run.W2 m dat0 c (Proc.devRef .tc main_v0_0) = _
  unfold Run.W2
  rw [StableHlo.after_of_writes_sub hostOps1 _ hostOps1_writes (by decide)]
  exact Run.W1_v0_0 m dat0 c

theorem kernel_value_of
    (hu : ∀ (V : Run.Vals Ideal) (c : Dev nD) (k j : Fin 2048),
      (Hand0.dat0 (F := Ideal) V c).arrAt 2 cfg0.N (ix2 k j) = Cert.Spec.upper (V c main_arg1) k j)
    (ht : ∀ (V : Run.Vals Ideal) (c : Dev nD),
      (Hand0.dat0 (F := Ideal) V c).arrAt 3 cfg0.N (ix2 (0 : Fin 1) (0 : Fin 1)) = Cert.Spec.total (V c main_arg1)) :
    Run.W4 m (Hand0.dat0 (F := Ideal)) (Hand1.dat1 (F := Ideal)) c (Proc.devRef .tc main_v8)
      = Cert.Spec.tail bcast_S_S4096 reducesTo_S4096_S_d0 h_S_
          (Cert.Spec.rows (m ((c : Thread nD τ).loc main_arg0)) (Cert.Spec.upperArr (m ((c : Thread nD τ).loc main_arg1))))
          (fun _ => Cert.Spec.total (m ((c : Thread nD τ).loc main_arg1))) := by
  have e4 : Run.W4 m (Hand0.dat0 (F := Ideal)) (Hand1.dat1 (F := Ideal)) c
      = StableHlo.after (hostOps2 (F := Ideal)) (Function.update (StableHlo.after (hostOps1 (F := Ideal)) (Run.W1 m (Hand0.dat0 (F := Ideal)) c)) main_v3
          ((Hand1.dat1 (F := Ideal) (Run.V2 m (Hand0.dat0 (F := Ideal))) c).arrAt 2 cfg1.N)) := rfl
  rw [e4, HandTail.tail_eq]
  have eU : (Hand0.dat0 (F := Ideal) (Run.V0 m) c).arrAt 2 cfg0.N
      = Cert.Spec.upperArr (m ((c : Thread nD τ).loc main_arg1)) := by
    funext i
    obtain ⟨k, j, rfl⟩ : ∃ (k j : Fin 2048), i = ix2 k j := ⟨i 0, i 1, eq_ix2 i⟩
    rw [hu, Cert.Spec.upperArr_ix2]
  have eT : Run.W1 m (Hand0.dat0 (F := Ideal)) c (Proc.devRef .tc main_v0_1)
      = (Hand0.dat0 (F := Ideal) (Run.V0 m) c).arrAt 3 cfg0.N := Run.W1_v0_1 m _ c
  refine congrArg₂ (Cert.Spec.tail bcast_S_S4096 reducesTo_S4096_S_d0 h_S_) ?_ ?_
  · funext i
    obtain ⟨r, rfl⟩ : ∃ r : Fin 4096, i = ix1 r := ⟨i 0, eq_ix1 i⟩
    rw [HandTail.cast_rows, Hand1Value.rows_final, Cert.Spec.rows_ix1, V2_arg0, V2_v0_0, eU]
  · funext i
    rw [eq_ix0 i, eT, HandTail.cast_total, ht]

/-- The kernel program's result: the common last steps applied to the rows' quadratic forms of x against the strict upper
    triangle of d's symmetrised indicator matrix, and to that triangle's grand total. -/
theorem kernel_value :
    Run.W4 m (Hand0.dat0 (F := Ideal)) (Hand1.dat1 (F := Ideal)) c (Proc.devRef .tc main_v8)
      = Cert.Spec.tail bcast_S_S4096 reducesTo_S4096_S_d0 h_S_
          (Cert.Spec.rows (m ((c : Thread nD τ).loc main_arg0)) (Cert.Spec.upperArr (m ((c : Thread nD τ).loc main_arg1))))
          (fun _ => Cert.Spec.total (m ((c : Thread nD τ).loc main_arg1))) :=
  kernel_value_of m c (fun V c k j => Hand0Value.upper_final V c k j) (fun V c => Hand0Value.total_final V c)

end Cert.KernelIdeal.HandValue
end
-- ==== Proof.RefUpper.lean ====
/-
  The reference's masked matrix is the strict upper triangle of the symmetrised indicator matrix.

  Entry (k, j) of the reference's matrix is a select on "k ≥ j" between zero and the product of
  max (indicator of d k j) (indicator of d j k) with one minus the indicator of "k = j". Both comparisons are of
  numbers below 2048 held in 32-bit words, so they are the comparisons of the numbers. Where k < j the second
  factor is 1 - 0 = 1 and the entry is the maximum of the two indicators; elsewhere the select gives zero.
-/
import proofs.«157913_j57896159150306_2_alg».proof.Proof.Gen.ReferenceIdeal.Read
import proofs.«157913_j57896159150306_2_alg».proof.Proof.Spec
import Idealize.ShloMosaic.Lib.Affine

noncomputable section

namespace Cert.RefValue

open Cert.ReferenceIdeal Cert.ReferenceIdeal.Read Idealize.ShloMosaic Idealize.ShloMosaic.ValueIdx

/-- The f32 pattern of one denotes the extended real one. -/
theorem ofBits_one_f32 : Ideal.ofBits .f32 0x3F800000#32 = 1 := by
  simp [Ideal.ofBits, Ideal.ieee, -EReal.coe_mul]; norm_num

/-- A one-bit word converted unsigned is zero or one: one exactly when the bit is set. -/
theorem uitofp_ofBool (p : Bool) :
    FloatOps.uitofp (F := Ideal) .f32 (BitVec.ofBool p) = if p then (1 : EReal) else 0 := by
  cases p <;> simp [FloatOps.uitofp]

/-- The converted bit of "x is positive" is the indicator of a positive entry. -/
theorem uitofp_cmpf_ogt (x : Ideal .f32) :
    FloatOps.uitofp (F := Ideal) .f32 (FloatOps.cmpf .ogt x (FloatOps.ofBits (F := Ideal) .f32 0x00000000#32)) = Cert.Spec.ind x := by
  rw [Ideal.cmpf_def, Ideal.ofBits_def, Ideal.ofBits_zero_f32]
  unfold Ideal.cmp Cert.Spec.ind
  rw [uitofp_ofBool]
  by_cases h : (0 : EReal) < x <;> simp [h]

/-- A one-bit word that is set exactly when `P` holds is the bit of `P`. -/
theorem bit_eq_ofBool {b : BitVec 1} {P : Prop} [Decidable P] (h : b = 1#1 ↔ P) : b = BitVec.ofBool (decide P) := by
  by_cases hp : P
  · simp [hp, h.mpr hp]
  · simp [hp, eq_zero_of_ne_one (mt h.mp hp)]

/-- A number below 2048 as a 32-bit word reads back, signed, as itself. -/
theorem toInt_ofNat_fin (k : Fin 2048) : (BitVec.ofNat 32 k.val).toInt = (k.val : Int) := by
  have := k.isLt
  rw [BitVec.toInt_eq_toNat_cond]
  simp only [BitVec.toNat_ofNat]
  omega

theorem addi_zero32 (x : BitVec 32) : IntOp.addi x 0#32 = x := by simp [IntOp.addi]

/-- Signed "at least" of two numbers below 2048 as words is "at least" of the numbers. -/
theorem cmpi_sge_fin (k j : Fin 2048) :
    IntOp.cmpi .sge (BitVec.ofNat 32 k.val) (BitVec.ofNat 32 j.val) = BitVec.ofBool (decide (j.val ≤ k.val)) :=
  bit_eq_ofBool (by rw [IntOp.cmpi_sge, toInt_ofNat_fin, toInt_ofNat_fin]; omega)

/-- Equality of two numbers below 2048 as words is equality of the numbers. -/
theorem cmpi_eq_fin (k j : Fin 2048) :
    IntOp.cmpi .eq (BitVec.ofNat 32 k.val) (BitVec.ofNat 32 j.val) = BitVec.ofBool (decide (k.val = j.val)) :=
  bit_eq_ofBool (by
    rw [IntOp.cmpi_eq]
    constructor
    · intro h
      have := congrArg BitVec.toInt h
      rw [toInt_ofNat_fin, toInt_ofNat_fin] at this
      omega
    · intro h; rw [h])

/-- A select on the bit of a decided condition is the branch the condition picks. -/
theorem select_ofBool {α : Type} (p : Bool) (a b : α) : Scalar.select (BitVec.ofBool p) a b = if p then a else b := by
  cases p <;> simp [Scalar.select]

theorem idx_v3_ix2 (k j : Fin 2048) : idx_main_v3 (ix2 k j) = ix2 j k :=
  funext fun a => Fin.ext (by match a with | ⟨0, _⟩ => rfl | ⟨1, _⟩ => rfl)

theorem upper_eq (d : (⟨S2048x2048, .f32⟩ : BufTy).Contents (Elt Ideal)) :
    val_main_v14 (F := Ideal) d = Cert.Spec.upperArr d := by
  funext i
  obtain ⟨k, j, rfl⟩ : ∃ (k j : Fin 2048), i = ix2 k j := ⟨i 0, i 1, eq_ix2 i⟩
  rw [Cert.Spec.upperArr_ix2]
  simp only [val_main_v14_apply, val_main_call0_v5_apply, val_main_call0_cst_apply, val_main_call0_v4_apply,
    val_main_call0_v2_apply, val_main_call0_v0_apply, val_main_call0_v1_apply, val_main_call0_c_apply,
    val_main_call0_v3_apply, val_main_v13_apply, val_main_v12_apply, val_main_v11_apply, val_main_cst_0_apply,
    val_main_v10_apply, val_main_v9_apply, val_main_v8_apply, val_main_v5_apply, val_main_v7_apply, val_main_c_apply,
    val_main_v6_apply, val_main_v4_apply, val_main_v3_apply, val_main_v2_apply, val_main_v1_apply, val_main_v0_apply,
    val_main_cst_apply]
  have e0 : (ix2 k j) 0 = k := rfl
  have e1 : (ix2 k j) 1 = j := rfl
  rw [e0, e1, idx_v3_ix2, addi_zero32, cmpi_sge_fin, cmpi_eq_fin, uitofp_cmpf_ogt, uitofp_cmpf_ogt, uitofp_ofBool,
    select_ofBool, Ideal.ofBits_def, Ideal.ofBits_def, Ideal.ofBits_zero_f32, ofBits_one_f32, Ideal.mulf_def,
    Ideal.maximumf_def, Ideal.subf_def]
  unfold Cert.Spec.upper
  by_cases hkj : k.val < j.val
  · have h1 : ¬ j.val ≤ k.val := by omega
    have h2 : ¬ k.val = j.val := by omega
    simp [hkj, h1, h2]
  · have h1 : j.val ≤ k.val := by omega
    simp [hkj, h1]

end Cert.RefValue
end
-- ==== Proof.RefTotal.lean ====
/-
  The reference's grand total: the sum from zero over every index of its masked matrix, which is the double sum over
  rows and columns of the strict upper triangle.
-/
import proofs.«157913_j57896159150306_2_alg».proof.Proof.RefUpper

noncomputable section

namespace Cert.RefValue

open Cert.ReferenceIdeal Cert.ReferenceIdeal.Read Idealize.ShloMosaic Idealize.ShloMosaic.ValueIdx

theorem total_eq (d : (⟨S2048x2048, .f32⟩ : BufTy).Contents (Elt Ideal)) :
    val_main_v15 (F := Ideal) d = fun _ => Cert.Spec.total d := by
  funext i
  rw [val_main_v15_apply, val_main_cst_1_apply, Ideal.ofBits_def, Ideal.ofBits_zero_f32, zero_add, upper_eq, sum_idx2]
  simp only [Cert.Spec.total, Cert.Spec.upperArr_ix2]

end Cert.RefValue
end
-- ==== Proof.RefRows.lean ====
/-
  The reference's row penalties: row r of (x · U) ∘ x summed along its columns from zero, that is
  ∑ j, (∑ k, x r k · U k j) · x r j, with U the strict upper triangle.
-/
import proofs.«157913_j57896159150306_2_alg».proof.Proof.RefUpper

noncomputable section

namespace Cert.RefValue

open Cert.ReferenceIdeal Cert.ReferenceIdeal.Read Idealize.ShloMosaic Idealize.ShloMosaic.ValueIdx

theorem idx_v19_ix1 (r : Fin 4096) (j : Fin 2048) : idx_main_v19 (ix1 r) j = ix2 r j :=
  funext fun a => Fin.ext (by match a with | ⟨0, _⟩ => rfl | ⟨1, _⟩ => rfl)

theorem lidx_v17_ix2 (r : Fin 4096) (j k : Fin 2048) : lidx_main_v17 (ix2 r j) k = ix2 r k :=
  funext fun a => Fin.ext (by match a with | ⟨0, _⟩ => rfl | ⟨1, _⟩ => rfl)

theorem ridx_v17_ix2 (r : Fin 4096) (j k : Fin 2048) : ridx_main_v17 (ix2 r j) k = ix2 k j :=
  funext fun a => Fin.ext (by match a with | ⟨0, _⟩ => rfl | ⟨1, _⟩ => rfl)

theorem rows_eq (x : (⟨S4096x2048, .f32⟩ : BufTy).Contents (Elt Ideal))
    (d : (⟨S2048x2048, .f32⟩ : BufTy).Contents (Elt Ideal)) :
    val_main_v19 (F := Ideal) x d = Cert.Spec.rows x (Cert.Spec.upperArr d) := by
  funext i
  obtain ⟨r, rfl⟩ : ∃ r : Fin 4096, i = ix1 r := ⟨i 0, eq_ix1 i⟩
  rw [Cert.Spec.rows_ix1, val_main_v19_apply, val_main_cst_3_apply, Ideal.ofBits_def, Ideal.ofBits_zero_f32, zero_add]
  unfold Cert.Spec.row
  refine Finset.sum_congr rfl fun j _ => ?_
  rw [idx_v19_ix1, val_main_v18_apply, val_main_v17_apply, Ideal.mulf_def, upper_eq]
  refine congrArg (· * x (ix2 r j)) (Finset.sum_congr rfl fun k _ => ?_)
  rw [lidx_v17_ix2, ridx_v17_ix2]

end Cert.RefValue
end
-- ==== Proof.RefValue.lean ====
/-
  The reference's result: the common last steps (clamp the total below by one, divide each row's penalty by it, add the
  rows up from zero, divide by 4096) applied to the row penalties and the grand total of the strict upper triangle.
-/
import proofs.«157913_j57896159150306_2_alg».proof.Proof.RefTotal
import proofs.«157913_j57896159150306_2_alg».proof.Proof.RefRows

noncomputable section

namespace Cert.RefValue

open Cert.ReferenceIdeal Cert.ReferenceIdeal.Gen Cert.ReferenceIdeal.Read Idealize.ShloMosaic Idealize.ShloMosaic.ValueIdx

theorem result_eq (x : (⟨S4096x2048, .f32⟩ : BufTy).Contents (Elt Ideal))
    (d : (⟨S2048x2048, .f32⟩ : BufTy).Contents (Elt Ideal)) :
    val_main_v23 (F := Ideal) x d
      = Cert.Spec.tail bcast_S_S4096 reducesTo_S4096_S_d0 h_S_ (Cert.Spec.rows x (Cert.Spec.upperArr d))
          (fun _ => Cert.Spec.total d) := by
  unfold val_main_v23 val_main_v22 val_main_v21 val_main_v20 val_main_v16 val_main_cst_2 val_main_cst_4 val_main_cst_5
  rw [rows_eq, total_eq]
  rfl

end Cert.RefValue
end
-- ==== Proof.lean ====
/-
  The certificate of the pairwise-interaction penalty kernel against its reference.

  Both programs compute, from a batch x (4096 × 2048) and a square matrix d (2048 × 2048), the mean over the
  batch of  xᵣᵀ U xᵣ / max(ΣU, 1),  where U is the strict upper triangle of the symmetrised 0/1 indicator of
  d's positive entries (Proof/Spec.lean). The kernel builds U tile by tile in a first grid of 8 × 8 points,
  adding each tile's entries into a running total it carries between points, and forms the quadratic forms in a
  second grid of 8 row blocks by one matrix product and a row sum; the reference builds U by whole-array
  operations (where it multiplies by one minus the identity matrix the factor is 1 on every kept entry) and
  contracts with one product. Over the extended reals the two agree entry by entry: the indicators are 0 or 1,
  a sum may be regrouped into tiles freely, and the last steps (clamp, divide, mean) are the same operations
  applied to equal values.

  The kernel's frame and its run are by hand over the launch theorems for a program of two kernel regions
  (Proof/KI/, and the same text in the word-level program's namespace, Proof/K/): each region's proof data and
  body obligation, the first region reading one array through two windows at half shares and carrying its
  running total in a scratch buffer between points. The reference's run and its read-at-an-index lemmas are the
  generated modules; Proof/Ref*.lean identifies its stages with the specification.
-/
import proofs.«157913_j57896159150306_2_alg».proof.Defs
import proofs.«157913_j57896159150306_2_alg».proof.Proof.Gen.Kernel
import proofs.«157913_j57896159150306_2_alg».proof.Proof.Gen.KernelIdeal
import proofs.«157913_j57896159150306_2_alg».proof.Proof.Gen.ReferenceIdeal
import proofs.«157913_j57896159150306_2_alg».proof.Proof.Gen.Pre_finite_inputs
import proofs.«157913_j57896159150306_2_alg».proof.Proof.Gen.ReferenceIdeal.Read
import proofs.«157913_j57896159150306_2_alg».proof.Proof.K.Main
import proofs.«157913_j57896159150306_2_alg».proof.Proof.KI.Main
import proofs.«157913_j57896159150306_2_alg».proof.Proof.KI.Value
import proofs.«157913_j57896159150306_2_alg».proof.Proof.RefValue
import Idealize.ShloMosaic.Adequacy
import Idealize.ShloMosaic.Init

noncomputable section

namespace Cert.Proof

open Idealize.ShloMosaic Idealize.ShloMosaic.TcCoe Idealize.SL.Sem

/-- The program as printed runs to the end, faults nowhere, and leaves its arguments unchanged. -/
theorem frame_k : Cert.frame_Kernel := fun m ρ _ => Cert.Kernel.HandMain.frame m ρ
/-- The same of the idealized program. -/
theorem frame_ki : Cert.frame_KernelIdeal := fun m ρ _ => Cert.KernelIdeal.HandMain.frame m ρ
/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Run from memories agreeing on the arguments, both idealized programs end with the same result: the common
    last steps applied to the rows' quadratic forms against the strict upper triangle and to its total. -/
theorem algebraic : Cert.algebraic_KernelIdeal_ReferenceIdeal := by
  intro m ρ m' ρ' _ hagree
  refine ⟨fun c => Cert.Spec.tail Cert.KernelIdeal.Gen.bcast_S_S4096 Cert.KernelIdeal.Gen.reducesTo_S4096_S_d0 Cert.KernelIdeal.Gen.h_S_
      (Cert.Spec.rows (m ((c : Thread Cert.KernelIdeal.nD Cert.KernelIdeal.τ).loc Cert.KernelIdeal.main_arg0))
        (Cert.Spec.upperArr (m ((c : Thread Cert.KernelIdeal.nD Cert.KernelIdeal.τ).loc Cert.KernelIdeal.main_arg1))))
      (fun _ => Cert.Spec.total (m ((c : Thread Cert.KernelIdeal.nD Cert.KernelIdeal.τ).loc Cert.KernelIdeal.main_arg1))), ?_, ?_⟩
  · exact (θ_run Cert.KernelIdeal.defs _ _).mono
      (fun _ h c => ⟨(h c).1.trans (Cert.KernelIdeal.HandValue.kernel_value m c), (h c).2⟩)
      (Cert.KernelIdeal.HandMain.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, Cert.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
